-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v108)) (v2 : (c : Dev Cert.KernelIdeal.nD) → Buf (Elt Ideal) ((c.tc : Thread Cert.KernelIdeal.nD Cert.KernelIdeal.τ).loc Cert.KernelIdeal.main_v109)) (v3 : (c : Dev Cert.KernelIdeal.nD) → Buf (Elt Ideal) ((c.tc : Thread Cert.KernelIdeal.nD Cert.KernelIdeal.τ).loc Cert.KernelIdeal.main_v110)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_v109) = v2 c
          ∧ r.2.mem ((c.tc : Thread Cert.KernelIdeal.nD Cert.KernelIdeal.τ).loc Cert.KernelIdeal.main_v110) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x9 : Shape := ⟨2, ![1024, 9]⟩
abbrev S1024x4 : Shape := ⟨2, ![1024, 4]⟩
abbrev S1024x1 : Shape := ⟨2, ![1024, 1]⟩
abbrev S1x1024x512 : Shape := ⟨3, ![1, 1024, 512]⟩
abbrev S1024x512 : Shape := ⟨2, ![1024, 512]⟩
abbrev S64x9 : Shape := ⟨2, ![64, 9]⟩
abbrev S64 : Shape := ⟨1, ![64]⟩
abbrev S128x64 : Shape := ⟨2, ![128, 64]⟩
abbrev S128 : Shape := ⟨1, ![128]⟩
abbrev S2560x133 : Shape := ⟨2, ![2560, 133]⟩
abbrev S2560x512 : Shape := ⟨2, ![2560, 512]⟩
abbrev S2560 : Shape := ⟨1, ![2560]⟩
abbrev S4x512 : Shape := ⟨2, ![4, 512]⟩
abbrev S4 : Shape := ⟨1, ![4]⟩
abbrev S1x512 : Shape := ⟨2, ![1, 512]⟩
abbrev S1 : Shape := ⟨1, ![1]⟩
abbrev S65536x512 : Shape := ⟨2, ![65536, 512]⟩
abbrev S_ : Shape := ⟨0, ![]⟩

class Facts : Prop where
  bcast_S_S1024x9 : S_.BroadcastsInDim S1024x9 (![] : Fin 0 → Fin S1024x9.rank)
  reducesTo_S1024x9_S_d0_1 : S1024x9.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S1024x1 : S_.BroadcastsInDim S1024x1 (![] : Fin 0 → Fin S1024x1.rank)
  reducesTo_S1024x1_S_d0_1 : S1024x1.ReducesTo [0, 1] S_
  bcast_S_S1x1024x512 : S_.BroadcastsInDim S1x1024x512 (![] : Fin 0 → Fin S1x1024x512.rank)
  reducesTo_S1x1024x512_S_d0_1_2 : S1x1024x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S2560x133 : S_.BroadcastsInDim S2560x133 (![] : Fin 0 → Fin S2560x133.rank)
  reducesTo_S2560x133_S_d0_1 : S2560x133.ReducesTo [0, 1] S_
  bcast_S_S2560x512 : S_.BroadcastsInDim S2560x512 (![] : Fin 0 → Fin S2560x512.rank)
  reducesTo_S2560x512_S_d0_1 : S2560x512.ReducesTo [0, 1] S_
  bcast_S_S2560 : S_.BroadcastsInDim S2560 (![] : Fin 0 → Fin S2560.rank)
  reducesTo_S2560_S_d0 : S2560.ReducesTo [0] S_
  bcast_S_S4x512 : S_.BroadcastsInDim S4x512 (![] : Fin 0 → Fin S4x512.rank)
  reducesTo_S4x512_S_d0_1 : S4x512.ReducesTo [0, 1] S_
  bcast_S_S4 : S_.BroadcastsInDim S4 (![] : Fin 0 → Fin S4.rank)
  reducesTo_S4_S_d0 : S4.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S65536x512 : S_.BroadcastsInDim S65536x512 (![] : Fin 0 → Fin S65536x512.rank)
  reducesTo_S65536x512_S_d0_1 : S65536x512.ReducesTo [0, 1] S_

variable [Facts]

def fn_part5 {F : FTy → Type} [FloatOps F] (main_arg18 : FVec F S65536x512 .f32) (main_arg19 : FVec F S65536x512 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S65536x512 .f32 := Host.absf main_arg18
  let main_cst_34 : FVec F S_ .f32 := constant S_ .f32 0x7F800000#32
  let main_v90 : FVec F S65536x512 .f32 := broadcastInDim S65536x512 ![] bcast_S_S65536x512 main_cst_34
  let main_v91 : IVec S65536x512 1 := cmpf .olt main_v89 main_v90
  let main_c_35 : IVec S_ 1 := constantI S_ 1 1#1
  let main_v92 : IVec S_ 1 := (fun x v => Host.reduce IntOp.andi x v reducesTo_S65536x512_S_d0_1 h_S_) main_v91 main_c_35
  let main_v93 : IVec S_ 1 := andi main_v88 main_v92
  let main_v94 : FVec F S65536x512 .f32 := Host.absf main_arg19
  let main_cst_36 : FVec F S_ .f32 := constant S_ .f32 0x7F800000#32
  let main_v95 : FVec F S65536x512 .f32 := broadcastInDim S65536x512 ![] bcast_S_S65536x512 main_cst_36
  let main_v96 : IVec S65536x512 1 := cmpf .olt main_v94 main_v95
  let main_c_37 : IVec S_ 1 := constantI S_ 1 1#1
  let main_v97 : IVec S_ 1 := (fun x v => Host.reduce IntOp.andi x v reducesTo_S65536x512_S_d0_1 h_S_) main_v96 main_c_37
  let main_v98 : IVec S_ 1 := andi main_v93 main_v97
  main_v98

def fn_part4 {F : FTy → Type} [FloatOps F] (main_arg14 : FVec F S4x512 .f32) (main_arg15 : FVec F S4 .f32) (main_arg16 : FVec F S1x512 .f32) (main_arg17 : FVec F S1 .f32) (main_arg18 : FVec F S65536x512 .f32) (main_arg19 : FVec F S65536x512 .f32) (main_v63 : IVec S_ 1) (main_v67 : IVec S_ 1) : IVec S_ 1 :=
  let main_v68 : IVec S_ 1 := andi main_v63 main_v67
  let main_v69 : FVec F S4x512 .f32 := Host.absf main_arg14
  let main_cst_26 : FVec F S_ .f32 := constant S_ .f32 0x7F800000#32
  let main_v70 : FVec F S4x512 .f32 := broadcastInDim S4x512 ![] bcast_S_S4x512 main_cst_26
  let main_v71 : IVec S4x512 1 := cmpf .olt main_v69 main_v70
  let main_c_27 : IVec S_ 1 := constantI S_ 1 1#1
  let main_v72 : IVec S_ 1 := (fun x v => Host.reduce IntOp.andi x v reducesTo_S4x512_S_d0_1 h_S_) main_v71 main_c_27
  let main_v73 : IVec S_ 1 := andi main_v68 main_v72
  let main_v74 : FVec F S4 .f32 := Host.absf main_arg15
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_v79 : FVec F S1x512 .f32 := Host.absf main_arg16
  let main_cst_30 : FVec F S_ .f32 := constant S_ .f32 0x7F800000#32
  let main_v80 : FVec F S1x512 .f32 := broadcastInDim S1x512 ![] bcast_S_S1x512 main_cst_30
  let main_v81 : IVec S1x512 1 := cmpf .olt main_v79 main_v80
  let main_c_31 : IVec S_ 1 := constantI S_ 1 1#1
  let main_v82 : IVec S_ 1 := (fun x v => Host.reduce IntOp.andi x v reducesTo_S1x512_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S2560x512 .f32) (main_arg12 : FVec F S2560 .f32) (main_arg13 : FVec F S2560 .f32) (main_arg14 : FVec F S4x512 .f32) (main_arg15 : FVec F S4 .f32) (main_arg16 : FVec F S1x512 .f32) (main_arg17 : FVec F S1 .f32) (main_arg18 : FVec F S65536x512 .f32) (main_arg19 : FVec F S65536x512 .f32) (main_v48 : IVec S_ 1) (main_v49 : FVec F S2560x133 .f32) (main_v50 : FVec F S2560x133 .f32) : IVec S_ 1 :=
  let main_v51 : IVec S2560x133 1 := cmpf .olt main_v49 main_v50
  let main_c_19 : IVec S_ 1 := constantI S_ 1 1#1
  let main_v52 : IVec S_ 1 := (fun x v => Host.reduce IntOp.andi x v reducesTo_S2560x133_S_d0_1 h_S_) main_v51 main_c_19
  let main_v53 : IVec S_ 1 := andi main_v48 main_v52
  let main_v54 : FVec F S2560x512 .f32 := Host.absf main_arg11
  let main_cst_20 : FVec F S_ .f32 := constant S_ .f32 0x7F800000#32
  let main_v55 : FVec F S2560x512 .f32 := broadcastInDim S2560x512 ![] bcast_S_S2560x512 main_cst_20
  let main_v56 : IVec S2560x512 1 := cmpf .olt main_v54 main_v55
  let main_c_21 : IVec S_ 1 := constantI S_ 1 1#1
  let main_v57 : IVec S_ 1 := (fun x v => Host.reduce IntOp.andi x v reducesTo_S2560x512_S_d0_1 h_S_) main_v56 main_c_21
  let main_v58 : IVec S_ 1 := andi main_v53 main_v57
  let main_v59 : FVec F S2560 .f32 := Host.absf main_arg12
  let main_cst_22 : FVec F S_ .f32 := constant S_ .f32 0x7F800000#32
  let main_v60 : FVec F S2560 .f32 := broadcastInDim S2560 ![] bcast_S_S2560 main_cst_22
  let main_v61 : IVec S2560 1 := cmpf .olt main_v59 main_v60
  let main_c_23 : IVec S_ 1 := constantI S_ 1 1#1
  let main_v62 : IVec S_ 1 := (fun x v => Host.reduce IntOp.andi x v reducesTo_S2560_S_d0 h_S_) main_v61 main_c_23
  let main_v63 : IVec S_ 1 := andi main_v58 main_v62
  let main_v64 : FVec F S2560 .f32 := Host.absf main_arg13
  let main_cst_24 : FVec F S_ .f32 := constant S_ .f32 0x7F800000#32
  let main_v65 : FVec F S2560 .f32 := broadcastInDim S2560 ![] bcast_S_S2560 main_cst_24
  let main_v66 : IVec S2560 1 := cmpf .olt main_v64 main_v65
  let main_c_25 : IVec S_ 1 := constantI S_ 1 1#1
  let main_v67 : IVec S_ 1 := (fun x v => Host.reduce IntOp.andi x v reducesTo_S2560_S_d0 h_S_) main_v66 main_c_25
  fn_part4 (F := F) main_arg14 main_arg15 main_arg16 main_arg17 main_arg18 main_arg19 main_v63 main_v67

def fn_part2 {F : FTy → Type} [FloatOps F] (main_arg7 : FVec F S64 .f32) (main_arg8 : FVec F S128x64 .f32) (main_arg9 : FVec F S128 .f32) (main_arg10 : FVec F S2560x133 .f32) (main_arg11 : FVec F S2560x512 .f32) (main_arg12 : FVec F S2560 .f32) (main_arg13 : FVec F S2560 .f32) (main_arg14 : FVec F S4x512 .f32) (main_arg15 : FVec F S4 .f32) (main_arg16 : FVec F S1x512 .f32) (main_arg17 : FVec F S1 .f32) (main_arg18 : FVec F S65536x512 .f32) (main_arg19 : FVec F S65536x512 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2560x133 .f32 := Host.absf main_arg10
  let main_cst_18 : FVec F S_ .f32 := constant S_ .f32 0x7F800000#32
  let main_v50 : FVec F S2560x133 .f32 := broadcastInDim S2560x133 ![] bcast_S_S2560x133 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S1x1024x512 .f32) (main_arg5 : FVec F S1024x512 .f32) (main_arg6 : FVec F S64x9 .f32) (main_arg7 : FVec F S64 .f32) (main_arg8 : FVec F S128x64 .f32) (main_arg9 : FVec F S128 .f32) (main_arg10 : FVec F S2560x133 .f32) (main_arg11 : FVec F S2560x512 .f32) (main_arg12 : FVec F S2560 .f32) (main_arg13 : FVec F S2560 .f32) (main_arg14 : FVec F S4x512 .f32) (main_arg15 : FVec F S4 .f32) (main_arg16 : FVec F S1x512 .f32) (main_arg17 : FVec F S1 .f32) (main_arg18 : FVec F S65536x512 .f32) (main_arg19 : FVec F S65536x512 .f32) (main_v13 : IVec S_ 1) (main_v16 : IVec S1x1024x512 1) : IVec S_ 1 :=
  let main_c_5 : IVec S_ 1 := constantI S_ 1 1#1
  let main_v17 : IVec S_ 1 := (fun x v => Host.reduce IntOp.andi x v reducesTo_S1x1024x512_S_d0_1_2 h_S_) main_v16 main_c_5
  let main_v18 : IVec S_ 1 := andi main_v13 main_v17
  let main_v19 : FVec F S1x1024x512 .f32 := Host.absf main_arg4
  let main_cst_6 : FVec F S_ .f32 := constant S_ .f32 0x7F800000#32
  let main_v20 : FVec F S1x1024x512 .f32 := broadcastInDim S1x1024x512 ![] bcast_S_S1x1024x512 main_cst_6
  let main_v21 : IVec S1x1024x512 1 := cmpf .olt main_v19 main_v20
  let main_c_7 : IVec S_ 1 := constantI S_ 1 1#1
  let main_v22 : IVec S_ 1 := (fun x v => Host.reduce IntOp.andi x v reducesTo_S1x1024x512_S_d0_1_2 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S64x9 .f32 := Host.absf main_arg6
  let main_cst_10 : FVec F S_ .f32 := constant S_ .f32 0x7F800000#32
  let main_v30 : FVec F S64x9 .f32 := broadcastInDim S64x9 ![] bcast_S_S64x9 main_cst_10
  let main_v31 : IVec S64x9 1 := cmpf .olt main_v29 main_v30
  let main_c_11 : IVec S_ 1 := constantI S_ 1 1#1
  let main_v32 : IVec S_ 1 := (fun x v => Host.reduce IntOp.andi x v reducesTo_S64x9_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S1024x9 .f32) (main_arg1 : FVec F S1024x4 .f32) (main_arg2 : FVec F S1024x1 .f32) (main_arg3 : FVec F S1x1024x512 .f32) (main_arg4 : FVec F S1x1024x512 .f32) (main_arg5 : FVec F S1024x512 .f32) (main_arg6 : FVec F S64x9 .f32) (main_arg7 : FVec F S64 .f32) (main_arg8 : FVec F S128x64 .f32) (main_arg9 : FVec F S128 .f32) (main_arg10 : FVec F S2560x133 .f32) (main_arg11 : FVec F S2560x512 .f32) (main_arg12 : FVec F S2560 .f32) (main_arg13 : FVec F S2560 .f32) (main_arg14 : FVec F S4x512 .f32) (main_arg15 : FVec F S4 .f32) (main_arg16 : FVec F S1x512 .f32) (main_arg17 : FVec F S1 .f32) (main_arg18 : FVec F S65536x512 .f32) (main_arg19 : FVec F S65536x512 .f32) : IVec S_ 1 :=
  let main_v0 : FVec F S1024x9 .f32 := Host.absf main_arg0
  let main_cst : FVec F S_ .f32 := constant S_ .f32 0x7F800000#32
  let main_v1 : FVec F S1024x9 .f32 := broadcastInDim S1024x9 ![] bcast_S_S1024x9 main_cst
  let main_v2 : IVec S1024x9 1 := cmpf .olt main_v0 main_v1
  let main_c : IVec S_ 1 := constantI S_ 1 1#1
  let main_v3 : IVec S_ 1 := (fun x v => Host.reduce IntOp.andi x v reducesTo_S1024x9_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1x1024x512 .f32 := Host.absf main_arg3
  let main_cst_4 : FVec F S_ .f32 := constant S_ .f32 0x7F800000#32
  let main_v15 : FVec F S1x1024x512 .f32 := broadcastInDim S1x1024x512 ![] bcast_S_S1x1024x512 main_cst_4
  let main_v16 : IVec S1x1024x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S1024x9 : Shape := ⟨2, ![1024, 9]⟩
abbrev S1024x4 : Shape := ⟨2, ![1024, 4]⟩
abbrev S1024x1 : Shape := ⟨2, ![1024, 1]⟩
abbrev S1x1024x512 : Shape := ⟨3, ![1, 1024, 512]⟩
abbrev S1024x512 : Shape := ⟨2, ![1024, 512]⟩
abbrev S64x9 : Shape := ⟨2, ![64, 9]⟩
abbrev S64 : Shape := ⟨1, ![64]⟩
abbrev S128x64 : Shape := ⟨2, ![128, 64]⟩
abbrev S128 : Shape := ⟨1, ![128]⟩
abbrev S2560x133 : Shape := ⟨2, ![2560, 133]⟩
abbrev S2560x512 : Shape := ⟨2, ![2560, 512]⟩
abbrev S2560 : Shape := ⟨1, ![2560]⟩
abbrev S4x512 : Shape := ⟨2, ![4, 512]⟩
abbrev S4 : Shape := ⟨1, ![4]⟩
abbrev S1x512 : Shape := ⟨2, ![1, 512]⟩
abbrev S1 : Shape := ⟨1, ![1]⟩
abbrev S65536x512 : Shape := ⟨2, ![65536, 512]⟩
abbrev S9x64 : Shape := ⟨2, ![9, 64]⟩
abbrev S1024x64 : Shape := ⟨2, ![1024, 64]⟩
abbrev S1x64 : Shape := ⟨2, ![1, 64]⟩
abbrev S_ : Shape := ⟨0, ![]⟩
abbrev S64x128 : Shape := ⟨2, ![64, 128]⟩
abbrev S1024x128 : Shape := ⟨2, ![1024, 128]⟩
abbrev S1x128 : Shape := ⟨2, ![1, 128]⟩
abbrev S1024x133 : Shape := ⟨2, ![1024, 133]⟩
abbrev S1024 : Shape := ⟨1, ![1024]⟩
abbrev S2x1024x512 : Shape := ⟨3, ![2, 1024, 512]⟩
abbrev S2x1024x1 : Shape := ⟨3, ![2, 1024, 1]⟩
abbrev S512x512 : Shape := ⟨2, ![512, 512]⟩
abbrev S1x1024x1 : Shape := ⟨3, ![1, 1024, 1]⟩
abbrev S512 : Shape := ⟨1, ![512]⟩
abbrev S512x1 : Shape := ⟨2, ![512, 1]⟩
abbrev S133x2560 : Shape := ⟨2, ![133, 2560]⟩
abbrev S1024x2560 : Shape := ⟨2, ![1024, 2560]⟩
abbrev S512x2560 : Shape := ⟨2, ![512, 2560]⟩
abbrev S1x2560 : Shape := ⟨2, ![1, 2560]⟩
abbrev S512x4 : Shape := ⟨2, ![512, 4]⟩
abbrev S1x4 : Shape := ⟨2, ![1, 4]⟩
abbrev S1x1 : Shape := ⟨2, ![1, 1]⟩

abbrev nBuf : Space → Nat
  | .hbm => 146
  | .vmem => 15
  | .smem => 0
  | _ => 0

abbrev hbmTy0_0 (i : Nat) : BufTy := match i % 128 with
  | 0 => ⟨S1024x9, .f32⟩
  | 1 => ⟨S1024x4, .f32⟩
  | 2 => ⟨S1024x1, .f32⟩
  | 3 => ⟨S1x1024x512, .f32⟩
  | 4 => ⟨S1x1024x512, .f32⟩
  | 5 => ⟨S1024x512, .f32⟩
  | 6 => ⟨S64x9, .f32⟩
  | 7 => ⟨S64, .f32⟩
  | 8 => ⟨S128x64, .f32⟩
  | 9 => ⟨S128, .f32⟩
  | 10 => ⟨S2560x133, .f32⟩
  | 11 => ⟨S2560x512, .f32⟩
  | 12 => ⟨S2560, .f32⟩
  | 13 => ⟨S2560, .f32⟩
  | 14 => ⟨S4x512, .f32⟩
  | 15 => ⟨S4, .f32⟩
  | 16 => ⟨S1x512, .f32⟩
  | 17 => ⟨S1, .f32⟩
  | 18 => ⟨S65536x512, .f32⟩
  | 19 => ⟨S65536x512, .f32⟩
  | 20 => ⟨S9x64, .f32⟩
  | 21 => ⟨S1024x64, .f32⟩
  | 22 => ⟨S1x64, .f32⟩
  | 23 => ⟨S1024x64, .f32⟩
  | 24 => ⟨S1024x64, .f32⟩
  | 25 => ⟨S_, .f32⟩
  | 26 => ⟨S1024x64, .f32⟩
  | 27 => ⟨S1024x64, .f32⟩
  | 28 => ⟨S64x128, .f32⟩
  | 29 => ⟨S1024x128, .f32⟩
  | 30 => ⟨S1x128, .f32⟩
  | 31 => ⟨S1024x128, .f32⟩
  | 32 => ⟨S1024x128, .f32⟩
  | 33 => ⟨S_, .f32⟩
  | 34 => ⟨S1024x128, .f32⟩
  | 35 => ⟨S1024x128, .f32⟩
  | 36 => ⟨S1024x133, .f32⟩
  | 37 => ⟨S1024x512, .f32⟩
  | 38 => ⟨S_, .f32⟩
  | 39 => ⟨S1024, .f32⟩
  | 40 => ⟨S1024x1, .f32⟩
  | 41 => ⟨S1024x512, .bf16⟩
  | 42 => ⟨S2x1024x512, .f32⟩
  | 43 => ⟨S2x1024x1, .f32⟩
  | 44 => ⟨S2x1024x1, .f32⟩
  | 45 => ⟨S1x1024x1, .f32⟩
  | 46 => ⟨S1024x1, .f32⟩
  | 47 => ⟨S1x1024x1, .f32⟩
  | 48 => ⟨S1024x1, .f32⟩
  | 49 => ⟨S1024x1, .f32⟩
  | 50 => ⟨S1x1024x1, .f32⟩
  | 51 => ⟨S1024x1, .f32⟩
  | 52 => ⟨S1024x1, .f32⟩
  | 53 => ⟨S1024x1, .f32⟩
  | 54 => ⟨S1x1024x1, .f32⟩
  | 55 => ⟨S1024x1, .f32⟩
  | 56 => ⟨S1024x1, .f32⟩
  | 57 => ⟨S1024x1, .f32⟩
  | 58 => ⟨S1x1024x1, .f32⟩
  | 59 => ⟨S1024x1, .f32⟩
  | 60 => ⟨S1024x1, .f32⟩
  | 61 => ⟨S1x1024x1, .f32⟩
  | 62 => ⟨S1024x1, .f32⟩
  | 63 => ⟨S1024x1, .f32⟩
  | 64 => ⟨S1024x1, .f32⟩
  | 65 => ⟨S1x1024x512, .f32⟩
  | 66 => ⟨S1024x512, .f32⟩
  | 67 => ⟨S1024x512, .f32⟩
  | 68 => ⟨S1024x512, .f32⟩
  | 69 => ⟨S1x1024x512, .f32⟩
  | 70 => ⟨S1024x512, .f32⟩
  | 71 => ⟨S1024x512, .f32⟩
  | 72 => ⟨S1024x512, .f32⟩
  | 73 => ⟨S1024x512, .f32⟩
  | 74 => ⟨S1024x512, .f32⟩
  | 75 => ⟨S1024x512, .f32⟩
  | 76 => ⟨S1024x512, .f32⟩
  | 77 => ⟨S1024x512, .f32⟩
  | 78 => ⟨S133x2560, .f32⟩
  | 79 => ⟨S1024x2560, .f32⟩
  | 80 => ⟨S512x2560, .f32⟩
  | 81 => ⟨S1024x2560, .f32⟩
  | 82 => ⟨S1024x2560, .f32⟩
  | 83 => ⟨S1x2560, .f32⟩
  | 84 => ⟨S1024x2560, .f32⟩
  | 85 => ⟨S1024x2560, .f32⟩
  | 86 => ⟨S1x2560, .f32⟩
  | 87 => ⟨S1024x2560, .f32⟩
  | 88 => ⟨S1024x2560, .f32⟩
  | 89 => ⟨S1024x512, .f32⟩
  | 90 => ⟨S1024x512, .f32⟩
  | 91 => ⟨S1024x512, .f32⟩
  | 92 => ⟨S_, .f32⟩
  | 93 => ⟨S1024x512, .f32⟩
  | 94 => ⟨S1024x512, .f32⟩
  | 95 => ⟨S_, .f32⟩
  | 96 => ⟨S1024x512, .f32⟩
  | 97 => ⟨S1024x512, .f32⟩
  | 98 => ⟨S1024x512, .f32⟩
  | 99 => ⟨S1024x512, .f32⟩
  | 100 => ⟨S1024x512, .f32⟩
  | 101 => ⟨S_, .f32⟩
  | 102 => ⟨S1024x512, .f32⟩
  | 103 => ⟨S1024x512, .f32⟩
  | 104 => ⟨S_, .f32⟩
  | 105 => ⟨S1024x512, .f32⟩
  | 106 => ⟨S1024x512, .f32⟩
  | 107 => ⟨S1024x512, .f32⟩
  | 108 => ⟨S1024x512, .f32⟩
  | 109 => ⟨S1024x512, .f32⟩
  | 110 => ⟨S1024x512, .f32⟩
  | 111 => ⟨S1024x512, .f32⟩
  | 112 => ⟨S_, .f32⟩
  | 113 => ⟨S1024x512, .f32⟩
  | 114 => ⟨S1024x512, .f32⟩
  | 115 => ⟨S_, .f32⟩
  | 116 => ⟨S1024x512, .f32⟩
  | 117 => ⟨S1024x512, .f32⟩
  | 118 => ⟨S1024x512, .f32⟩
  | 119 => ⟨S1024x512, .f32⟩
  | 120 => ⟨S1024x512, .f32⟩
  | 121 => ⟨S_, .f32⟩
  | 122 => ⟨S1024x512, .f32⟩
  | 123 => ⟨S1024x512, .f32⟩
  | 124 => ⟨S_, .f32⟩
  | 125 => ⟨S1024x512, .f32⟩
  | 126 => ⟨S1024x512, .f32⟩
  | 127 => ⟨S1024x512, .f32⟩
  | _ => ⟨S1024x9, .f32⟩

abbrev hbmTy0_1 (i : Nat) : BufTy := match i % 128 with
  | 0 => ⟨S1024x512, .f32⟩
  | 1 => ⟨S1024x512, .f32⟩
  | 2 => ⟨S1024x512, .f32⟩
  | 3 => ⟨S1024x512, .f32⟩
  | 4 => ⟨S1024x512, .f32⟩
  | 5 => ⟨S1024x512, .f32⟩
  | 6 => ⟨S512x4, .f32⟩
  | 7 => ⟨S1024x4, .f32⟩
  | 8 => ⟨S1x4, .f32⟩
  | 9 => ⟨S1024x4, .f32⟩
  | 10 => ⟨S1024x4, .f32⟩
  | 11 => ⟨S512x1, .f32⟩
  | 12 => ⟨S1024x1, .f32⟩
  | 13 => ⟨S1x1, .f32⟩
  | 14 => ⟨S1024x1, .f32⟩
  | 15 => ⟨S1024x1, .f32⟩
  | 16 => ⟨S1x1024x512, .f32⟩
  | 17 => ⟨S1x1024x512, .f32⟩
  | _ => ⟨S1024x9, .f32⟩

abbrev hbmTy (i : Nat) : BufTy := match i / 128 with
  | 0 => hbmTy0_0 i
  | 1 => hbmTy0_1 i
  | _ => ⟨S1024x9, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x1, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x1, .f32⟩
  | .local _ .vmem, ⟨11, _⟩ => ⟨S1x1024x1, .f32⟩
  | .local _ .vmem, ⟨12, _⟩ => ⟨S1024x1, .f32⟩
  | .local _ .vmem, ⟨13, _⟩ => ⟨S1024x1, .f32⟩
  | .local _ .vmem, ⟨14, _⟩ => ⟨S1024x512, .f32⟩
  | _, _ => ⟨S1024x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_cst : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17_0 : Ref sig .tc := ⟨.hbm, 42, rfl⟩
abbrev main_v17_1 : Ref sig .tc := ⟨.hbm, 43, rfl⟩
abbrev main_v17_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_0 : Ref sig .tc := ⟨.hbm, 92, rfl⟩
abbrev main_v65 : Ref sig .tc := ⟨.hbm, 93, rfl⟩
abbrev main_v66 : Ref sig .tc := ⟨.hbm, 94, rfl⟩
abbrev main_cst_1 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_2 : Ref sig .tc := ⟨.hbm, 101, rfl⟩
abbrev main_v72 : Ref sig .tc := ⟨.hbm, 102, rfl⟩
abbrev main_v73 : Ref sig .tc := ⟨.hbm, 103, rfl⟩
abbrev main_cst_3 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_4 : Ref sig .tc := ⟨.hbm, 112, rfl⟩
abbrev main_v81 : Ref sig .tc := ⟨.hbm, 113, rfl⟩
abbrev main_v82 : Ref sig .tc := ⟨.hbm, 114, rfl⟩
abbrev main_cst_5 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_6 : Ref sig .tc := ⟨.hbm, 121, rfl⟩
abbrev main_v88 : Ref sig .tc := ⟨.hbm, 122, rfl⟩
abbrev main_v89 : Ref sig .tc := ⟨.hbm, 123, rfl⟩
abbrev main_cst_7 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v58 : BitVec 1 := Scalar.cmpi .eq arg1 c63_i32
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S64x9_S9x64_1_0 : S64x9.Transposes [1, 0] S9x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S128x64_S64x128_1_0 : S128x64.Transposes [1, 0] S64x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  concatenates_S1024x128_S1024x4_S1024x1_S1024x133_d1 : Shape.Concatenates [S1024x128, S1024x4, S1024x1] S1024x133 1
  reducesTo_S1024x512_S1024_d1 : S1024x512.ReducesTo [1] S1024
  h_S_ : 0 < S_.numel
  bcast_S1024_S1024x1_0 : S1024.BroadcastsInDim S1024x1 (![0] : Fin 1 → Fin S1024x1.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  transposes_S512x1_p1_0_S1x512 : S512x1.Transposes [1, 0] S1x512
  transposes_S512x512_p1_0_S512x512 : S512x512.Transposes [1, 0] S512x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  slices_S2x1024x1_S1x1024x1_1_0_0 : S2x1024x1.Slices ![1, 0, 0] S1x1024x1
  slices_S2x1024x512_S1x1024x512_0_0_0 : S2x1024x512.Slices ![0, 0, 0] S1x1024x512
  bcast_S1024x1_S1024x512_0_1 : S1024x1.BroadcastsInDim S1024x512 (![0, 1] : Fin 2 → Fin S1024x512.rank)
  slices_S2x1024x512_S1x1024x512_1_0_0 : S2x1024x512.Slices ![1, 0, 0] S1x1024x512
  transposes_S2560x133_S133x2560_1_0 : S2560x133.Transposes [1, 0] S133x2560
  transposes_S2560x512_S512x2560_1_0 : S2560x512.Transposes [1, 0] S512x2560
  bcast_S2560_S1x2560_1 : S2560.BroadcastsInDim S1x2560 (![1] : Fin 1 → Fin S1x2560.rank)
  bcast_S1x2560_S1024x2560_0_1 : S1x2560.BroadcastsInDim S1024x2560 (![0, 1] : Fin 2 → Fin S1024x2560.rank)
  slices_S1024x2560_S1024x512_0_0 : S1024x2560.Slices ![0, 0] S1024x512
  bcast_S_S1024x512 : S_.BroadcastsInDim S1024x512 (![] : Fin 0 → Fin S1024x512.rank)
  slices_S1024x2560_S1024x512_0_512 : S1024x2560.Slices ![0, 512] S1024x512
  slices_S1024x2560_S1024x512_0_1024 : S1024x2560.Slices ![0, 1024] S1024x512
  slices_S1024x2560_S1024x512_0_1536 : S1024x2560.Slices ![0, 1536] S1024x512
  slices_S1024x2560_S1024x512_0_2048 : S1024x2560.Slices ![0, 2048] S1024x512
  transposes_S4x512_S512x4_1_0 : S4x512.Transposes [1, 0] S512x4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  transposes_S1x512_S512x1_1_0 : S1x512.Transposes [1, 0] S512x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S1024x512_S1x1024x512_1_2 : S1024x512.BroadcastsInDim S1x1024x512 (![1, 2] : Fin 2 → Fin S1x1024x512.rank)
  dot_S1024x9_S9x64_S1024x64_1_0_0_1_n_n_wf : DotDims.WF S1024x9 S9x64 S1024x64 [1] [0] [0] [1] [] []
  dot_S1024x64_S64x128_S1024x128_1_0_0_1_n_n_wf : DotDims.WF S1024x64 S64x128 S1024x128 [1] [0] [0] [1] [] []
  dot_S1024x512_S512x512_S1024x512_1_0_0_1_n_n_wf : DotDims.WF S1024x512 S512x512 S1024x512 [1] [0] [0] [1] [] []
  dot_S1024x133_S133x2560_S1024x2560_1_0_0_1_n_n_wf : DotDims.WF S1024x133 S133x2560 S1024x2560 [1] [0] [0] [1] [] []
  dot_S1024x512_S512x2560_S1024x2560_1_0_0_1_n_n_wf : DotDims.WF S1024x512 S512x2560 S1024x2560 [1] [0] [0] [1] [] []
  dot_S1024x512_S512x4_S1024x4_1_0_0_1_n_n_wf : DotDims.WF S1024x512 S512x4 S1024x4 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .f32 = 32 ∨ (Rect.block (s := S1024x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S65536x512.size a
  hwx0_2 : ∀ i : grid0.Coords, EltTy.bits .f32 = 32 ∨ (Rect.block (s := S65536x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S65536x512.size a
  hwx0_3 : ∀ i : grid0.Coords, EltTy.bits .f32 = 32 ∨ (Rect.block (s := S65536x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S2x1024x512.size a
  hwx0_4 : ∀ i : grid0.Coords, EltTy.bits .f32 = 32 ∨ (Rect.block (s := S2x1024x512) S1x1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S2x1024x1.size a
  hwx0_5 : ∀ i : grid0.Coords, EltTy.bits .f32 = 32 ∨ (Rect.block (s := S2x1024x1) S1x1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S2x1024x1.size a
  hwx0_6 : ∀ i : grid0.Coords, EltTy.bits .f32 = 32 ∨ (Rect.block (s := S2x1024x1) S1x1024x1.size (cc0_transform_6 i) (hinb0_6 i)).WholeWords (EltTy.packing .f32)

variable [Facts₀]

def dot_S1024x9_S9x64_S1024x64_1_0_0_1_n_n : DotDims S1024x9 S9x64 S1024x64 where
  lhsContracting := [1]
  rhsContracting := [0]
  lhsNonContracting := [0]
  rhsNonContracting := [1]
  lhsBatch := []
  rhsBatch := []
  wf := dot_S1024x9_S9x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x133_S133x2560_S1024x2560_1_0_0_1_n_n : DotDims S1024x133 S133x2560 S1024x2560 where
  lhsContracting := [1]
  rhsContracting := [0]
  lhsNonContracting := [0]
  rhsNonContracting := [1]
  lhsBatch := []
  rhsBatch := []
  wf := dot_S1024x133_S133x2560_S1024x2560_1_0_0_1_n_n_wf
def dot_S1024x512_S512x2560_S1024x2560_1_0_0_1_n_n : DotDims S1024x512 S512x2560 S1024x2560 where
  lhsContracting := [1]
  rhsContracting := [0]
  lhsNonContracting := [0]
  rhsNonContracting := [1]
  lhsBatch := []
  rhsBatch := []
  wf := dot_S1024x512_S512x2560_S1024x2560_1_0_0_1_n_n_wf
def dot_S1024x512_S512x4_S1024x4_1_0_0_1_n_n : DotDims S1024x512 S512x4 S1024x4 where
  lhsContracting := [1]
  rhsContracting := [0]
  lhsNonContracting := [0]
  rhsNonContracting := [1]
  lhsBatch := []
  rhsBatch := []
  wf := dot_S1024x512_S512x4_S1024x4_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_v16) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg18) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg19) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S1x1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S1x1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_2) S1x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x9 : Shape := ⟨2, ![1024, 9]⟩
abbrev S1024x4 : Shape := ⟨2, ![1024, 4]⟩
abbrev S1024x1 : Shape := ⟨2, ![1024, 1]⟩
abbrev S1x1024x512 : Shape := ⟨3, ![1, 1024, 512]⟩
abbrev S1024x512 : Shape := ⟨2, ![1024, 512]⟩
abbrev S64x9 : Shape := ⟨2, ![64, 9]⟩
abbrev S64 : Shape := ⟨1, ![64]⟩
abbrev S128x64 : Shape := ⟨2, ![128, 64]⟩
abbrev S128 : Shape := ⟨1, ![128]⟩
abbrev S2560x133 : Shape := ⟨2, ![2560, 133]⟩
abbrev S2560x512 : Shape := ⟨2, ![2560, 512]⟩
abbrev S2560 : Shape := ⟨1, ![2560]⟩
abbrev S4x512 : Shape := ⟨2, ![4, 512]⟩
abbrev S4 : Shape := ⟨1, ![4]⟩
abbrev S1x512 : Shape := ⟨2, ![1, 512]⟩
abbrev S1 : Shape := ⟨1, ![1]⟩
abbrev S65536x512 : Shape := ⟨2, ![65536, 512]⟩
abbrev S9x64 : Shape := ⟨2, ![9, 64]⟩
abbrev S1024x64 : Shape := ⟨2, ![1024, 64]⟩
abbrev S1x64 : Shape := ⟨2, ![1, 64]⟩
abbrev S_ : Shape := ⟨0, ![]⟩
abbrev S64x128 : Shape := ⟨2, ![64, 128]⟩
abbrev S1024x128 : Shape := ⟨2, ![1024, 128]⟩
abbrev S1x128 : Shape := ⟨2, ![1, 128]⟩
abbrev S1024x133 : Shape := ⟨2, ![1024, 133]⟩
abbrev S1024 : Shape := ⟨1, ![1024]⟩
abbrev S512x65536 : Shape := ⟨2, ![512, 65536]⟩
abbrev S1024x65536 : Shape := ⟨2, ![1024, 65536]⟩
abbrev S65536 : Shape := ⟨1, ![65536]⟩
abbrev S1x65536 : Shape := ⟨2, ![1, 65536]⟩
abbrev S133x2560 : Shape := ⟨2, ![133, 2560]⟩
abbrev S1024x2560 : Shape := ⟨2, ![1024, 2560]⟩
abbrev S512x2560 : Shape := ⟨2, ![512, 2560]⟩
abbrev S1x2560 : Shape := ⟨2, ![1, 2560]⟩
abbrev S512x4 : Shape := ⟨2, ![512, 4]⟩
abbrev S1x4 : Shape := ⟨2, ![1, 4]⟩
abbrev S512x1 : Shape := ⟨2, ![512, 1]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S1024x9, .f32⟩
  | 1 => ⟨S1024x4, .f32⟩
  | 2 => ⟨S1024x1, .f32⟩
  | 3 => ⟨S1x1024x512, .f32⟩
  | 4 => ⟨S1x1024x512, .f32⟩
  | 5 => ⟨S1024x512, .f32⟩
  | 6 => ⟨S64x9, .f32⟩
  | 7 => ⟨S64, .f32⟩
  | 8 => ⟨S128x64, .f32⟩
  | 9 => ⟨S128, .f32⟩
  | 10 => ⟨S2560x133, .f32⟩
  | 11 => ⟨S2560x512, .f32⟩
  | 12 => ⟨S2560, .f32⟩
  | 13 => ⟨S2560, .f32⟩
  | 14 => ⟨S4x512, .f32⟩
  | 15 => ⟨S4, .f32⟩
  | 16 => ⟨S1x512, .f32⟩
  | 17 => ⟨S1, .f32⟩
  | 18 => ⟨S65536x512, .f32⟩
  | 19 => ⟨S65536x512, .f32⟩
  | 20 => ⟨S9x64, .f32⟩
  | 21 => ⟨S1024x64, .f32⟩
  | 22 => ⟨S1x64, .f32⟩
  | 23 => ⟨S1024x64, .f32⟩
  | 24 => ⟨S1024x64, .f32⟩
  | 25 => ⟨S_, .f32⟩
  | 26 => ⟨S1024x64, .f32⟩
  | 27 => ⟨S1024x64, .f32⟩
  | 28 => ⟨S64x128, .f32⟩
  | 29 => ⟨S1024x128, .f32⟩
  | 30 => ⟨S1x128, .f32⟩
  | 31 => ⟨S1024x128, .f32⟩
  | 32 => ⟨S1024x128, .f32⟩
  | 33 => ⟨S_, .f32⟩
  | 34 => ⟨S1024x128, .f32⟩
  | 35 => ⟨S1024x128, .f32⟩
  | 36 => ⟨S1024x133, .f32⟩
  | 37 => ⟨S1024x512, .f32⟩
  | 38 => ⟨S_, .f32⟩
  | 39 => ⟨S1024, .f32⟩
  | 40 => ⟨S1024x1, .f32⟩
  | 41 => ⟨S512x65536, .f32⟩
  | 42 => ⟨S1024x65536, .f32⟩
  | 43 => ⟨S_, .f32⟩
  | 44 => ⟨S1024x65536, .f32⟩
  | 45 => ⟨S1024x65536, .f32⟩
  | 46 => ⟨S1024x65536, .f32⟩
  | 47 => ⟨S1024x65536, .f32⟩
  | 48 => ⟨S65536x512, .f32⟩
  | 49 => ⟨S_, .f32⟩
  | 50 => ⟨S65536, .f32⟩
  | 51 => ⟨S1x65536, .f32⟩
  | 52 => ⟨S1024x65536, .f32⟩
  | 53 => ⟨S1024x65536, .f32⟩
  | 54 => ⟨S_, .f32⟩
  | 55 => ⟨S1024x65536, .f32⟩
  | 56 => ⟨S1024x65536, .f32⟩
  | 57 => ⟨S1024x65536, .f32⟩
  | 58 => ⟨S1024x65536, .f32⟩
  | 59 => ⟨S_, .f32⟩
  | 60 => ⟨S1024, .f32⟩
  | 61 => ⟨S_, .f32⟩
  | 62 => ⟨S1024, .f32⟩
  | 63 => ⟨S1024, .f32⟩
  | 64 => ⟨S1024x1, .f32⟩
  | 65 => ⟨S1024x65536, .f32⟩
  | 66 => ⟨S1024x65536, .f32⟩
  | 67 => ⟨S1024x65536, .f32⟩
  | 68 => ⟨S_, .f32⟩
  | 69 => ⟨S1024, .f32⟩
  | 70 => ⟨S1024x1, .f32⟩
  | 71 => ⟨S1024x65536, .f32⟩
  | 72 => ⟨S1024x65536, .f32⟩
  | 73 => ⟨S1024x512, .f32⟩
  | 74 => ⟨S1024x512, .f32⟩
  | 75 => ⟨S1024x512, .f32⟩
  | 76 => ⟨S133x2560, .f32⟩
  | 77 => ⟨S1024x2560, .f32⟩
  | 78 => ⟨S512x2560, .f32⟩
  | 79 => ⟨S1024x2560, .f32⟩
  | 80 => ⟨S1024x2560, .f32⟩
  | 81 => ⟨S1x2560, .f32⟩
  | 82 => ⟨S1024x2560, .f32⟩
  | 83 => ⟨S1024x2560, .f32⟩
  | 84 => ⟨S1x2560, .f32⟩
  | 85 => ⟨S1024x2560, .f32⟩
  | 86 => ⟨S1024x2560, .f32⟩
  | 87 => ⟨S1024x512, .f32⟩
  | 88 => ⟨S1024x512, .f32⟩
  | 89 => ⟨S1024x512, .f32⟩
  | 90 => ⟨S_, .f32⟩
  | 91 => ⟨S1024x512, .f32⟩
  | 92 => ⟨S1024x512, .f32⟩
  | 93 => ⟨S_, .f32⟩
  | 94 => ⟨S1024x512, .f32⟩
  | 95 => ⟨S1024x512, .f32⟩
  | 96 => ⟨S1024x512, .f32⟩
  | 97 => ⟨S1024x512, .f32⟩
  | 98 => ⟨S1024x512, .f32⟩
  | 99 => ⟨S_, .f32⟩
  | 100 => ⟨S1024x512, .f32⟩
  | 101 => ⟨S1024x512, .f32⟩
  | 102 => ⟨S_, .f32⟩
  | 103 => ⟨S1024x512, .f32⟩
  | 104 => ⟨S1024x512, .f32⟩
  | 105 => ⟨S1024x512, .f32⟩
  | 106 => ⟨S1024x512, .f32⟩
  | 107 => ⟨S1024x512, .f32⟩
  | 108 => ⟨S1024x512, .f32⟩
  | 109 => ⟨S1024x512, .f32⟩
  | 110 => ⟨S_, .f32⟩
  | 111 => ⟨S1024x512, .f32⟩
  | 112 => ⟨S1024x512, .f32⟩
  | 113 => ⟨S_, .f32⟩
  | 114 => ⟨S1024x512, .f32⟩
  | 115 => ⟨S1024x512, .f32⟩
  | 116 => ⟨S1024x512, .f32⟩
  | 117 => ⟨S1024x512, .f32⟩
  | 118 => ⟨S1024x512, .f32⟩
  | 119 => ⟨S_, .f32⟩
  | 120 => ⟨S1024x512, .f32⟩
  | 121 => ⟨S1024x512, .f32⟩
  | 122 => ⟨S_, .f32⟩
  | 123 => ⟨S1024x512, .f32⟩
  | 124 => ⟨S1024x512, .f32⟩
  | 125 => ⟨S1024x512, .f32⟩
  | 126 => ⟨S1024x512, .f32⟩
  | 127 => ⟨S1024x512, .f32⟩
  | _ => ⟨S1024x9, .f32⟩

abbrev hbmTy0_1 (i : Nat) : BufTy := match i % 128 with
  | 0 => ⟨S1024x512, .f32⟩
  | 1 => ⟨S1024x512, .f32⟩
  | 2 => ⟨S1024x512, .f32⟩
  | 3 => ⟨S1024x512, .f32⟩
  | 4 => ⟨S512x4, .f32⟩
  | 5 => ⟨S1024x4, .f32⟩
  | 6 => ⟨S1x4, .f32⟩
  | 7 => ⟨S1024x4, .f32⟩
  | 8 => ⟨S1024x4, .f32⟩
  | 9 => ⟨S512x1, .f32⟩
  | 10 => ⟨S1024x1, .f32⟩
  | 11 => ⟨S1x1, .f32⟩
  | 12 => ⟨S1024x1, .f32⟩
  | 13 => ⟨S1024x1, .f32⟩
  | 14 => ⟨S1x1024x512, .f32⟩
  | 15 => ⟨S1x1024x512, .f32⟩
  | _ => ⟨S1024x9, .f32⟩

abbrev hbmTy (i : Nat) : BufTy := match i / 128 with
  | 0 => hbmTy0_0 i
  | 1 => hbmTy0_1 i
  | _ => ⟨S1024x9, .f32⟩

abbrev bufTy : (tb : Table) → Fin (tcTables nBuf tb) → BufTy
  | .hbm, ⟨i, _⟩ => hbmTy i
  | _, _ => ⟨S1024x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_call0_cst : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call1_cst : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_6 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_cst_9 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_10 : Ref sig .tc := ⟨.hbm, 110, rfl⟩
abbrev main_v75 : Ref sig .tc := ⟨.hbm, 111, rfl⟩
abbrev main_v76 : Ref sig .tc := ⟨.hbm, 112, rfl⟩
abbrev main_cst_11 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_12 : Ref sig .tc := ⟨.hbm, 119, rfl⟩
abbrev main_v82 : Ref sig .tc := ⟨.hbm, 120, rfl⟩
abbrev main_v83 : Ref sig .tc := ⟨.hbm, 121, rfl⟩
abbrev main_cst_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩

abbrev nD : Nat := 1
abbrev τ : Topo := Topo.v7x

variable {F : FTy → Type} [FloatOps F]

class Facts₀ : Prop where
  transposes_S64x9_S9x64_1_0 : S64x9.Transposes [1, 0] S9x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S128x64_S64x128_1_0 : S128x64.Transposes [1, 0] S64x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  concatenates_S1024x128_S1024x4_S1024x1_S1024x133_d1 : Shape.Concatenates [S1024x128, S1024x4, S1024x1] S1024x133 1
  reducesTo_S1024x512_S1024_d1 : S1024x512.ReducesTo [1] S1024
  h_S_ : 0 < S_.numel
  bcast_S1024_S1024x1_0 : S1024.BroadcastsInDim S1024x1 (![0] : Fin 1 → Fin S1024x1.rank)
  transposes_S65536x512_S512x65536_1_0 : S65536x512.Transposes [1, 0] S512x65536
  bcast_S_S1024x65536 : S_.BroadcastsInDim S1024x65536 (![] : Fin 0 → Fin S1024x65536.rank)
  bcast_S1024x1_S1024x65536_0_1 : S1024x1.BroadcastsInDim S1024x65536 (![0, 1] : Fin 2 → Fin S1024x65536.rank)
  reducesTo_S65536x512_S65536_d1 : S65536x512.ReducesTo [1] S65536
  bcast_S65536_S1x65536_1 : S65536.BroadcastsInDim S1x65536 (![1] : Fin 1 → Fin S1x65536.rank)
  bcast_S1x65536_S1024x65536_0_1 : S1x65536.BroadcastsInDim S1024x65536 (![0, 1] : Fin 2 → Fin S1024x65536.rank)
  reducesTo_S1024x65536_S1024_d1 : S1024x65536.ReducesTo [1] S1024
  bcast_S_S1024 : S_.BroadcastsInDim S1024 (![] : Fin 0 → Fin S1024.rank)
  shapeCasts_S1x1024x512_S1024x512 : S1x1024x512.ShapeCasts S1024x512
  transposes_S2560x133_S133x2560_1_0 : S2560x133.Transposes [1, 0] S133x2560
  transposes_S2560x512_S512x2560_1_0 : S2560x512.Transposes [1, 0] S512x2560
  bcast_S2560_S1x2560_1 : S2560.BroadcastsInDim S1x2560 (![1] : Fin 1 → Fin S1x2560.rank)
  bcast_S1x2560_S1024x2560_0_1 : S1x2560.BroadcastsInDim S1024x2560 (![0, 1] : Fin 2 → Fin S1024x2560.rank)
  slices_S1024x2560_S1024x512_0_0 : S1024x2560.Slices ![0, 0] S1024x512
  bcast_S_S1024x512 : S_.BroadcastsInDim S1024x512 (![] : Fin 0 → Fin S1024x512.rank)
  slices_S1024x2560_S1024x512_0_512 : S1024x2560.Slices ![0, 512] S1024x512
  slices_S1024x2560_S1024x512_0_1024 : S1024x2560.Slices ![0, 1024] S1024x512
  slices_S1024x2560_S1024x512_0_1536 : S1024x2560.Slices ![0, 1536] S1024x512
  slices_S1024x2560_S1024x512_0_2048 : S1024x2560.Slices ![0, 2048] S1024x512
  transposes_S4x512_S512x4_1_0 : S4x512.Transposes [1, 0] S512x4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  transposes_S1x512_S512x1_1_0 : S1x512.Transposes [1, 0] S512x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S1024x512_S1x1024x512_1_2 : S1024x512.BroadcastsInDim S1x1024x512 (![1, 2] : Fin 2 → Fin S1x1024x512.rank)
  dot_S1024x9_S9x64_S1024x64_1_0_0_1_n_n_wf : DotDims.WF S1024x9 S9x64 S1024x64 [1] [0] [0] [1] [] []
  dot_S1024x64_S64x128_S1024x128_1_0_0_1_n_n_wf : DotDims.WF S1024x64 S64x128 S1024x128 [1] [0] [0] [1] [] []
  dot_S1024x512_S512x65536_S1024x65536_1_0_0_1_n_n_wf : DotDims.WF S1024x512 S512x65536 S1024x65536 [1] [0] [0] [1] [] []
  dot_S1024x65536_S65536x512_S1024x512_1_0_0_1_n_n_wf : DotDims.WF S1024x65536 S65536x512 S1024x512 [1] [0] [0] [1] [] []
  dot_S1024x133_S133x2560_S1024x2560_1_0_0_1_n_n_wf : DotDims.WF S1024x133 S133x2560 S1024x2560 [1] [0] [0] [1] [] []
  dot_S1024x512_S512x2560_S1024x2560_1_0_0_1_n_n_wf : DotDims.WF S1024x512 S512x2560 S1024x2560 [1] [0] [0] [1] [] []
  dot_S1024x512_S512x4_S1024x4_1_0_0_1_n_n_wf : DotDims.WF S1024x512 S512x4 S1024x4 [1] [0] [0] [1] [] []
  dot_S1024x512_S512x1_S1024x1_1_0_0_1_n_n_wf : DotDims.WF S1024x512 S512x1 S1024x1 [1] [0] [0] [1] [] []

variable [Facts₀]

def dot_S1024x9_S9x64_S1024x64_1_0_0_1_n_n : DotDims S1024x9 S9x64 S1024x64 where
  lhsContracting := [1]
  rhsContracting := [0]
  lhsNonContracting := [0]
  rhsNonContracting := [1]
  lhsBatch := []
  rhsBatch := []
  wf := dot_S1024x9_S9x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x512_S512x65536_S1024x65536_1_0_0_1_n_n : DotDims S1024x512 S512x65536 S1024x65536 where
  lhsContracting := [1]
  rhsContracting := [0]
  lhsNonContracting := [0]
  rhsNonContracting := [1]
  lhsBatch := []
  rhsBatch := []
  wf := dot_S1024x512_S512x65536_S1024x65536_1_0_0_1_n_n_wf
def dot_S1024x65536_S65536x512_S1024x512_1_0_0_1_n_n : DotDims S1024x65536 S65536x512 S1024x512 where
  lhsContracting := [1]
  rhsContracting := [0]
  lhsNonContracting := [0]
  rhsNonContracting := [1]
  lhsBatch := []
  rhsBatch := []
  wf := dot_S1024x65536_S65536x512_S1024x512_1_0_0_1_n_n_wf
def dot_S1024x133_S133x2560_S1024x2560_1_0_0_1_n_n : DotDims S1024x133 S133x2560 S1024x2560 where
  lhsContracting := [1]
  rhsContracting := [0]
  lhsNonContracting := [0]
  rhsNonContracting := [1]
  lhsBatch := []
  rhsBatch := []
  wf := dot_S1024x133_S133x2560_S1024x2560_1_0_0_1_n_n_wf
def dot_S1024x512_S512x2560_S1024x2560_1_0_0_1_n_n : DotDims S1024x512 S512x2560 S1024x2560 where
  lhsContracting := [1]
  rhsContracting := [0]
  lhsNonContracting := [0]
  rhsNonContracting := [1]
  lhsBatch := []
  rhsBatch := []
  wf := dot_S1024x512_S512x2560_S1024x2560_1_0_0_1_n_n_wf
def dot_S1024x512_S512x4_S1024x4_1_0_0_1_n_n : DotDims S1024x512 S512x4 S1024x4 where
  lhsContracting := [1]
  rhsContracting := [0]
  lhsNonContracting := [0]
  rhsNonContracting := [1]
  lhsBatch := []
  rhsBatch := []
  wf := dot_S1024x512_S512x4_S1024x4_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

class Facts : Prop extends Facts₀ where

variable [Facts]
-- ==== Proof.FrameKernel.Setup.lean ====
/-
  The frame of the retrieval kernel's program, first part: what is shared by the three kinds of grid point.

  The program is five stretches of host operations (the encoder and the squared norms of the queries), one
  pipelined region over a 2 x 64 grid, and one stretch of 101 host operations (the merge of the two halves and
  the recurrent cell).  Here: the buffers' contents when the region is entered, @main as "host lines, region, host
  lines", that none of those lines writes an argument array or an array of the pipeline, the blocks of the
  windows, the two conditions of the body in closed form (first tile of a half: the position is 0 mod 64; last
  tile: 63 mod 64), where the three result windows are idle, and the names of the staging and scratch memrefs.
-/
import proofs.«160366_j14869176778798_2_alg».proof.Proof.Gen.Kernel.Launch
import proofs.«160366_j14869176778798_2_alg».proof.Proof.Gen.Kernel.Skeleton
import proofs.«160366_j14869176778798_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches before the region, in order. -/
abbrev preOps : List (List (HloOp τ sig (Elt F))) := [hostOps0, hostOps0_1, hostOps0_2, hostOps0_3, hostOps0_4]

/-- Core `c`'s buffer contents when the region is entered: the launch memory after the host lines before it. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the 101 host lines after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The later lines touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each later line writes its own result buffer only, and that is no array of the pipeline. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; refine StableHlo.devRef_ne_of_ne ?_; revert w; decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-! ## No host line writes an argument array -/

/-- The twenty argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem pre_keeps_args : (List.flatten [hostOps0, hostOps0_1, hostOps0_2, hostOps0_3, hostOps0_4] : List (HloOp τ sig (Elt F))).Forall fun op =>
    ∀ b ∈ argRefs, Proc.devRef .tc b ∉ op.writes := by
  simp only [hostOps0, hostOps0_1, hostOps0_2, hostOps0_3, hostOps0_4, StableHlo.TRef.nullary, StableHlo.TRef.unary, StableHlo.TRef.binary,
    List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro b hb; refine StableHlo.devRef_ne_of_ne ?_; revert b; decide)

theorem tail_keeps_args : (hostOps1 : List (HloOp τ sig (Elt F))).Forall fun op =>
    ∀ b ∈ argRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro b hb; refine StableHlo.devRef_ne_of_ne ?_; revert b; decide)

/-- An argument array is, when the region is entered, as launched. -/
theorem V_arg (c : Dev nD) (b : Ref sig .tc) (hb : b ∈ argRefs) : V m c b = m ((c : Thread nD τ).loc b) :=
  StableHlo.after_of_forall_not_mem (b := Proc.devRef .tc b) _ _
    (fun op hop => (List.forall_iff_forall_mem.mp pre_keeps_args) op hop b hb)

/-- An argument array that no window stages is, after the later lines, as launched. -/
theorem W_arg (dats : (p : Fin _) → (c : Dev nD) → Dat τ (Elt F) Unit ℕ (UR sig nD τ) ℕ (cfgs p) c) (c : Dev nD)
    (b : Ref sig .tc) (hb : b ∈ argRefs) (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _
      (by simp only [List.flatten_cons, List.flatten_nil, List.append_nil]
          exact fun op hop => (List.forall_iff_forall_mem.mp tail_keeps_args) op hop b hb),
    Pipeline.withArrays_of_ne _ c (V0 m c) _ b hne]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the launch theorem's post, the frame: the two staged arguments (the keys and the values) end at
    their entry contents, the eighteen others are buffers the region bypasses and the later lines do not write. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (W_arg m dats c main_arg0 (by decide) (by decide)),
    ((h c).2 main_arg1 (Pipeline.mem_restRefs_of main_arg1 (by decide) (by decide))).trans (W_arg m dats c main_arg1 (by decide) (by decide)),
    ((h c).2 main_arg2 (Pipeline.mem_restRefs_of main_arg2 (by decide) (by decide))).trans (W_arg m dats c main_arg2 (by decide) (by decide)),
    ((h c).2 main_arg3 (Pipeline.mem_restRefs_of main_arg3 (by decide) (by decide))).trans (W_arg m dats c main_arg3 (by decide) (by decide)),
    ((h c).2 main_arg4 (Pipeline.mem_restRefs_of main_arg4 (by decide) (by decide))).trans (W_arg m dats c main_arg4 (by decide) (by decide)),
    ((h c).2 main_arg5 (Pipeline.mem_restRefs_of main_arg5 (by decide) (by decide))).trans (W_arg m dats c main_arg5 (by decide) (by decide)),
    ((h c).2 main_arg6 (Pipeline.mem_restRefs_of main_arg6 (by decide) (by decide))).trans (W_arg m dats c main_arg6 (by decide) (by decide)),
    ((h c).2 main_arg7 (Pipeline.mem_restRefs_of main_arg7 (by decide) (by decide))).trans (W_arg m dats c main_arg7 (by decide) (by decide)),
    ((h c).2 main_arg8 (Pipeline.mem_restRefs_of main_arg8 (by decide) (by decide))).trans (W_arg m dats c main_arg8 (by decide) (by decide)),
    ((h c).2 main_arg9 (Pipeline.mem_restRefs_of main_arg9 (by decide) (by decide))).trans (W_arg m dats c main_arg9 (by decide) (by decide)),
    ((h c).2 main_arg10 (Pipeline.mem_restRefs_of main_arg10 (by decide) (by decide))).trans (W_arg m dats c main_arg10 (by decide) (by decide)),
    ((h c).2 main_arg11 (Pipeline.mem_restRefs_of main_arg11 (by decide) (by decide))).trans (W_arg m dats c main_arg11 (by decide) (by decide)),
    ((h c).2 main_arg12 (Pipeline.mem_restRefs_of main_arg12 (by decide) (by decide))).trans (W_arg m dats c main_arg12 (by decide) (by decide)),
    ((h c).2 main_arg13 (Pipeline.mem_restRefs_of main_arg13 (by decide) (by decide))).trans (W_arg m dats c main_arg13 (by decide) (by decide)),
    ((h c).2 main_arg14 (Pipeline.mem_restRefs_of main_arg14 (by decide) (by decide))).trans (W_arg m dats c main_arg14 (by decide) (by decide)),
    ((h c).2 main_arg15 (Pipeline.mem_restRefs_of main_arg15 (by decide) (by decide))).trans (W_arg m dats c main_arg15 (by decide) (by decide)),
    ((h c).2 main_arg16 (Pipeline.mem_restRefs_of main_arg16 (by decide) (by decide))).trans (W_arg m dats c main_arg16 (by decide) (by decide)),
    ((h c).2 main_arg17 (Pipeline.mem_restRefs_of main_arg17 (by decide) (by decide))).trans (W_arg m dats c main_arg17 (by decide) (by decide)),
    ((h c).1 2).trans (((dats 0 c).arrAt_in 2 rfl _).trans ((hA c 2).trans (V_arg m c main_arg18 (by decide)))),
    ((h c).1 3).trans (((dats 0 c).arrAt_in 3 rfl _).trans ((hA c 3).trans (V_arg m c main_arg19 (by decide))))⟩) h

/-! ## The body's two conditions -/

/-- "This is the first tile of its half": the body's first `scf.if`, from the grid coordinates. -/
abbrev cond0_0 (i : grid0.Coords) : Prop := (Scalar.cmpi .ne (Scalar.extui (Scalar.cmpi .eq (BitVec.ofNat 32 (i 1).val) 0#32)) 0#32) = 1#1
/-- It holds exactly at the positions 0 and 64 of the 128. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last tile of its half": the body's second `scf.if`. -/
abbrev cond0_1 (i : grid0.Coords) : Prop := k0_cond2 i = 1#1
/-- It holds exactly at the positions 63 and 127. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile of a half, result window 4 is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile of a half it is live. -/
theorem liveAt0_4 : ∀ t : Fin cfg0.N, cond0_1 (grid0.coords t) → cfg0.idle 4 (grid0.coords t) = false := by decide +kernel
/-- Away from the last tile of a half, result window 5 is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last tile of a half it is live. -/
theorem liveAt0_5 : ∀ t : Fin cfg0.N, cond0_1 (grid0.coords t) → cfg0.idle 5 (grid0.coords t) = false := by decide +kernel
/-- Away from the last tile of a half, result window 6 is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last tile of a half it is live. -/
theorem liveAt0_6 : ∀ t : Fin cfg0.N, cond0_1 (grid0.coords t) → cfg0.idle 6 (grid0.coords t) = false := by decide +kernel

/-! ## The staging and scratch memrefs -/

/-- One staging buffer of each result window, through which its contents are stated. -/
abbrev VO0_4 : View sig .tc .vmem S1x1024x512 .f32 := (Memref.whole cc0_stg4_0 : Memref sig .tc .vmem S1x1024x512 .f32).view
abbrev VO0_5 : View sig .tc .vmem S1x1024x1 .f32 := (Memref.whole cc0_stg5_0 : Memref sig .tc .vmem S1x1024x1 .f32).view
abbrev VO0_6 : View sig .tc .vmem S1x1024x1 .f32 := (Memref.whole cc0_stg6_0 : Memref sig .tc .vmem S1x1024x1 .f32).view
/-- Each window's current staging memref at point `t`, as the pipeline passes it, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1 .f32 := win0_6.stage (cfg0.slots t 6)
abbrev hs0_6 (t : Fin cfg0.N) : (ms0_6 t).IsWhole := hstage0_6 ((cfg0.slots t 6).cast nbuf0_6)
/-- The three scratch operands (running maximum, running denominator, running numerator): whole scoped buffers. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x512 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x512 .f32 := scM0_2.view

/-- The region's invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.FrameKernel.RunFirst.lean ====
/-
  The kernel body run at the first tile of a half (the three running quantities are reset, then updated): the stores it leaves in each buffer, as lists of pieces found by the run itself,
  with the proof that on whole staging memrefs holding the four input blocks the body runs to its end, handing the
  inputs back as they were and each scratch buffer (and, at a last tile, each result buffer) with those pieces written.
-/
import proofs.«160366_j14869176778798_2_alg».proof.Proof.FrameKernel.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunFirst (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i)
    (x0 : Vec F S1024x512 .bf16) (x1 : Vec F S1024x1 .f32) (x2 : Vec F S512x512 .f32) (x3 : Vec F S512x512 .f32) :
    Σ' (LS0 : List (View.Piece (Elt F) S1024x1 .f32)) (LS1 : List (View.Piece (Elt F) S1024x1 .f32)), { LS2 : List (View.Piece (Elt F) S1024x512 .f32) //
      ∀ (xi4 : Vec F S1x1024x512 .f32) (xi5 : Vec F S1x1024x1 .f32) (xi6 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10 arg11 harg11) K } := by
  refine ⟨?_, ?_, ?_, fun xi4 xi5 xi6 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Fr

end
-- ==== Proof.FrameKernel.RunMid.lean ====
/-
  The kernel body run at a tile that is neither first nor last of its half (the running quantities are updated from what the tile before left): the stores it leaves in each buffer, as lists of pieces found by the run itself,
  with the proof that on whole staging memrefs holding the four input blocks the body runs to its end, handing the
  inputs back as they were and each scratch buffer (and, at a last tile, each result buffer) with those pieces written.
-/
import proofs.«160366_j14869176778798_2_alg».proof.Proof.FrameKernel.RunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunMid (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i)
    (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) :
    Σ' (LS0 : List (View.Piece (Elt F) S1024x1 .f32)) (LS1 : List (View.Piece (Elt F) S1024x1 .f32)), { LS2 : List (View.Piece (Elt F) S1024x512 .f32) //
      ∀ (xi4 : Vec F S1x1024x512 .f32) (xi5 : Vec F S1x1024x1 .f32) (xi6 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10 arg11 harg11) K } := by
  refine ⟨?_, ?_, ?_, fun xi4 xi5 xi6 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Fr

end
-- ==== Proof.FrameKernel.RunLast.lean ====
/-
  The kernel body run at the last tile of a half (the running quantities are updated from what the tile before left, then copied out into the three result blocks): the stores it leaves in each buffer, as lists of pieces found by the run itself,
  with the proof that on whole staging memrefs holding the four input blocks the body runs to its end, handing the
  inputs back as they were and each scratch buffer (and, at a last tile, each result buffer) with those pieces written.
-/
import proofs.«160366_j14869176778798_2_alg».proof.Proof.FrameKernel.RunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunLast (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i)
    (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) :
    Σ' (L4 : List (View.Piece (Elt F) S1x1024x512 .f32)) (L5 : List (View.Piece (Elt F) S1x1024x1 .f32)) (L6 : List (View.Piece (Elt F) S1x1024x1 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.Kernel.Fr

end
-- ==== Proof.FrameKernel.Frame.lean ====
/-
  The frame of the retrieval kernel's program, last part.

  What the body leaves is followed position by position over the 128 grid points: the three scratch buffers (running
  maximum, running denominator, running numerator) after position n are what the body's stores leave there when run
  on the blocks of position n and, unless n is the first tile of a half, on what position n - 1 left; the three
  result blocks are stored at the last tile of each half only, from the scratch contents just computed, and the
  result windows are idle elsewhere.  From this: the proof data of the pipeline, the body's obligation at every point
  (three cases), the run of @main, and the frame.
-/
import proofs.«160366_j14869176778798_2_alg».proof.Proof.FrameKernel.RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The pieces stored into scratch 0 tile it, so they cover it. -/
theorem scoverFirst_0 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) (y : S1024x1.Idx) :
    ∃ pc ∈ (kernelRunFirst c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRunFirst c i arg2 harg2 arg3 harg3 arg4 harg4 arg5 harg5 arg6 harg6 arg7 harg7 arg8 harg8 arg9 harg9 arg10 harg10 arg11 harg11 hc0 hc1 x0 x1 x2 x3).1 S1024x1.size (by sl_kernel_rfl) y
/-- The pieces stored into scratch 1 tile it, so they cover it. -/
theorem scoverFirst_1 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) (y : S1024x1.Idx) :
    ∃ pc ∈ (kernelRunFirst c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRunFirst c i arg2 harg2 arg3 harg3 arg4 harg4 arg5 harg5 arg6 harg6 arg7 harg7 arg8 harg8 arg9 harg9 arg10 harg10 arg11 harg11 hc0 hc1 x0 x1 x2 x3).2.1 S1024x1.size (by sl_kernel_rfl) y
/-- The pieces stored into scratch 2 tile it, so they cover it. -/
theorem scoverFirst_2 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) (y : S1024x512.Idx) :
    ∃ pc ∈ (kernelRunFirst c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRunFirst c i arg2 harg2 arg3 harg3 arg4 harg4 arg5 harg5 arg6 harg6 arg7 harg7 arg8 harg8 arg9 harg9 arg10 harg10 arg11 harg11 hc0 hc1 x0 x1 x2 x3).2.2.1 S1024x512.size (by sl_kernel_rfl) y
/-- What the point leaves in the three scratch buffers: their pieces read back. -/
def scrFirst (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) : Vec F S1024x1 .f32 × Vec F S1024x1 .f32 × Vec F S1024x512 .f32 :=
  (VS0_0.read (Elt F) (VS0_0.writes (Elt F) VS0_0.junk (kernelRunFirst c i arg2 harg2 arg3 harg3 arg4 harg4 arg5 harg5 arg6 harg6 arg7 harg7 arg8 harg8 arg9 harg9 arg10 harg10 arg11 harg11 hc0 hc1 x0 x1 x2 x3).1),
   VS0_1.read (Elt F) (VS0_1.writes (Elt F) VS0_1.junk (kernelRunFirst c i arg2 harg2 arg3 harg3 arg4 harg4 arg5 harg5 arg6 harg6 arg7 harg7 arg8 harg8 arg9 harg9 arg10 harg10 arg11 harg11 hc0 hc1 x0 x1 x2 x3).2.1),
   VS0_2.read (Elt F) (VS0_2.writes (Elt F) VS0_2.junk (kernelRunFirst c i arg2 harg2 arg3 harg3 arg4 harg4 arg5 harg5 arg6 harg6 arg7 harg7 arg8 harg8 arg9 harg9 arg10 harg10 arg11 harg11 hc0 hc1 x0 x1 x2 x3).2.2.1))

/-- The pieces stored into scratch 0 tile it, so they cover it. -/
theorem scoverMid_0 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x1.Idx) :
    ∃ pc ∈ (kernelRunMid c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRunMid c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y
/-- The pieces stored into scratch 1 tile it, so they cover it. -/
theorem scoverMid_1 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x1.Idx) :
    ∃ pc ∈ (kernelRunMid c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRunMid c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y
/-- The pieces stored into scratch 2 tile it, so they cover it. -/
theorem scoverMid_2 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x512.Idx) :
    ∃ pc ∈ (kernelRunMid c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRunMid c i arg2 harg2 arg3 harg3 arg4 harg4 arg5 harg5 arg6 harg6 arg7 harg7 arg8 harg8 arg9 harg9 arg10 harg10 arg11 harg11 hc0 hc1 x0 x1 x2 x3 xs0 xs1 xs2).2.2.1 S1024x512.size (by sl_kernel_rfl) y
/-- What the point leaves in the three scratch buffers: their pieces read back. -/
def scrMid (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) : Vec F S1024x1 .f32 × Vec F S1024x1 .f32 × Vec F S1024x512 .f32 :=
  (VS0_0.read (Elt F) (VS0_0.writes (Elt F) VS0_0.junk (kernelRunMid c i arg2 harg2 arg3 harg3 arg4 harg4 arg5 harg5 arg6 harg6 arg7 harg7 arg8 harg8 arg9 harg9 arg10 harg10 arg11 harg11 hc0 hc1 x0 x1 x2 x3 xs0 xs1 xs2).1),
   VS0_1.read (Elt F) (VS0_1.writes (Elt F) VS0_1.junk (kernelRunMid c i arg2 harg2 arg3 harg3 arg4 harg4 arg5 harg5 arg6 harg6 arg7 harg7 arg8 harg8 arg9 harg9 arg10 harg10 arg11 harg11 hc0 hc1 x0 x1 x2 x3 xs0 xs1 xs2).2.1),
   VS0_2.read (Elt F) (VS0_2.writes (Elt F) VS0_2.junk (kernelRunMid c i arg2 harg2 arg3 harg3 arg4 harg4 arg5 harg5 arg6 harg6 arg7 harg7 arg8 harg8 arg9 harg9 arg10 harg10 arg11 harg11 hc0 hc1 x0 x1 x2 x3 xs0 xs1 xs2).2.2.1))

/-- The pieces stored into scratch 0 tile it, so they cover it. -/
theorem scoverLast_0 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x1.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y
/-- The pieces stored into scratch 1 tile it, so they cover it. -/
theorem scoverLast_1 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x1.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y
/-- The pieces stored into scratch 2 tile it, so they cover it. -/
theorem scoverLast_2 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x512.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x512.size (by sl_kernel_rfl) y
/-- What the point leaves in the three scratch buffers: their pieces read back. -/
def scrLast (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) : Vec F S1024x1 .f32 × Vec F S1024x1 .f32 × Vec F S1024x512 .f32 :=
  (VS0_0.read (Elt F) (VS0_0.writes (Elt F) VS0_0.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.1),
   VS0_1.read (Elt F) (VS0_1.writes (Elt F) VS0_1.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1),
   VS0_2.read (Elt F) (VS0_2.writes (Elt F) VS0_2.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1))

/-- At a last tile the pieces stored into result block 4 cover it. -/
theorem ocoverLast_4 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1x1024x512.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).1 S1x1024x512.size (by sl_kernel_rfl) y
/-- At a last tile the pieces stored into result block 5 cover it. -/
theorem ocoverLast_5 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1x1024x1.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.1 S1x1024x1.size (by sl_kernel_rfl) y
/-- At a last tile the pieces stored into result block 6 cover it. -/
theorem ocoverLast_6 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1x1024x1.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.1 S1x1024x1.size (by sl_kernel_rfl) y
/-- What a last tile leaves in the three result blocks. -/
def outLast (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) : Vec F S1x1024x512 .f32 × Vec F S1x1024x1 .f32 × Vec F S1x1024x1 .f32 :=
  (VO0_4.read (Elt F) (VO0_4.writes (Elt F) VO0_4.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).1),
   VO0_5.read (Elt F) (VO0_5.writes (Elt F) VO0_5.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.1),
   VO0_6.read (Elt F) (VO0_6.writes (Elt F) VO0_6.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.1))
/-- Elsewhere nothing is stored into them: a placeholder nothing consults. -/
def outIdle : Vec F S1x1024x512 .f32 × Vec F S1x1024x1 .f32 × Vec F S1x1024x1 .f32 :=
  (VO0_4.read (Elt F) VO0_4.junk, VO0_5.read (Elt F) VO0_5.junk, VO0_6.read (Elt F) VO0_6.junk)

/-! ## Position by position -/

theorem c0_of (t : Fin cfg0.N) (h : t.val % 64 = 0) : cond0_0 (grid0.coords t) := (hcond0_0 t).mpr h
theorem nc0_of (t : Fin cfg0.N) (h : ¬t.val % 64 = 0) : ¬cond0_0 (grid0.coords t) := fun h' => h ((hcond0_0 t).mp h')
theorem c1_of (t : Fin cfg0.N) (h : t.val % 64 = 63) : cond0_1 (grid0.coords t) := (hcond0_1 t).mpr h
theorem nc1_of (t : Fin cfg0.N) (h : ¬t.val % 64 = 63) : ¬cond0_1 (grid0.coords t) := fun h' => h ((hcond0_1 t).mp h')

/-- The scratch buffers after position `n`. -/
def scrAt (c : Dev nD) : (n : ℕ) → n < cfg0.N → Vec F S1024x1 .f32 × Vec F S1024x1 .f32 × Vec F S1024x512 .f32
  | 0, hn => scrFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) (c0_of ⟨0, hn⟩ (Nat.zero_mod _)) (nc1_of ⟨0, hn⟩ (show ¬(0 : ℕ) % 64 = 63 by decide)) (iblk m c 0 ⟨0, hn⟩) (iblk m c 1 ⟨0, hn⟩) (iblk m c 2 ⟨0, hn⟩) (iblk m c 3 ⟨0, hn⟩)
  | n + 1, hn =>
    if h0 : (n + 1) % 64 = 0 then
      scrFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (c0_of ⟨n + 1, hn⟩ h0) (nc1_of ⟨n + 1, hn⟩ (show ¬(n + 1) % 64 = 63 by omega)) (iblk m c 0 ⟨n + 1, hn⟩) (iblk m c 1 ⟨n + 1, hn⟩) (iblk m c 2 ⟨n + 1, hn⟩) (iblk m c 3 ⟨n + 1, hn⟩)
    else if h1 : (n + 1) % 64 = 63 then
      scrLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (nc0_of ⟨n + 1, hn⟩ h0) (c1_of ⟨n + 1, hn⟩ h1) (iblk m c 0 ⟨n + 1, hn⟩) (iblk m c 1 ⟨n + 1, hn⟩) (iblk m c 2 ⟨n + 1, hn⟩) (iblk m c 3 ⟨n + 1, hn⟩)
        (scrAt c n (Nat.lt_of_succ_lt hn)).1 (scrAt c n (Nat.lt_of_succ_lt hn)).2.1 (scrAt c n (Nat.lt_of_succ_lt hn)).2.2
    else
      scrMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (nc0_of ⟨n + 1, hn⟩ h0) (nc1_of ⟨n + 1, hn⟩ h1) (iblk m c 0 ⟨n + 1, hn⟩) (iblk m c 1 ⟨n + 1, hn⟩) (iblk m c 2 ⟨n + 1, hn⟩) (iblk m c 3 ⟨n + 1, hn⟩)
        (scrAt c n (Nat.lt_of_succ_lt hn)).1 (scrAt c n (Nat.lt_of_succ_lt hn)).2.1 (scrAt c n (Nat.lt_of_succ_lt hn)).2.2

/-- The scratch contents the body finds at position `t` when it is not a first tile: what `t - 1` left. -/
abbrev prevScr (c : Dev nD) (t : Fin cfg0.N) : Vec F S1024x1 .f32 × Vec F S1024x1 .f32 × Vec F S1024x512 .f32 := scrAt m c (t.val - 1) (Nat.lt_of_le_of_lt (Nat.sub_le _ _) t.isLt)

theorem scrAt_first (c : Dev nD) (t : Fin cfg0.N) (h0 : t.val % 64 = 0) :
    scrAt m c t.val t.isLt = scrFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (c0_of t h0) (nc1_of t (by omega)) (iblk m c 0 t) (iblk m c 1 t) (iblk m c 2 t) (iblk m c 3 t) := by
  obtain ⟨n, hn⟩ := t
  cases n with
  | zero => exact rfl
  | succ n => exact (dif_pos h0).trans rfl

theorem scrAt_mid (c : Dev nD) (t : Fin cfg0.N) (h0 : ¬t.val % 64 = 0) (h1 : ¬t.val % 64 = 63) :
    scrAt m c t.val t.isLt = scrMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (nc0_of t h0) (nc1_of t h1) (iblk m c 0 t) (iblk m c 1 t) (iblk m c 2 t) (iblk m c 3 t)
      (prevScr m c t).1 (prevScr m c t).2.1 (prevScr m c t).2.2 := by
  obtain ⟨n, hn⟩ := t
  cases n with
  | zero => exact absurd (Nat.zero_mod _) h0
  | succ n => exact (dif_neg h0).trans ((dif_neg h1).trans rfl)

theorem scrAt_last (c : Dev nD) (t : Fin cfg0.N) (h0 : ¬t.val % 64 = 0) (h1 : t.val % 64 = 63) :
    scrAt m c t.val t.isLt = scrLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (nc0_of t h0) (c1_of t h1) (iblk m c 0 t) (iblk m c 1 t) (iblk m c 2 t) (iblk m c 3 t)
      (prevScr m c t).1 (prevScr m c t).2.1 (prevScr m c t).2.2 := by
  obtain ⟨n, hn⟩ := t
  cases n with
  | zero => exact absurd (Nat.zero_mod _) h0
  | succ n => exact (dif_neg h0).trans ((dif_pos h1).trans rfl)

/-- The three result blocks after position `t`. -/
def outAt (c : Dev nD) (t : Fin cfg0.N) : Vec F S1x1024x512 .f32 × Vec F S1x1024x1 .f32 × Vec F S1x1024x1 .f32 :=
  if h1 : t.val % 64 = 63 then
    outLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (nc0_of t (by omega)) (c1_of t h1) (iblk m c 0 t) (iblk m c 1 t) (iblk m c 2 t) (iblk m c 3 t)
      (prevScr m c t).1 (prevScr m c t).2.1 (prevScr m c t).2.2
  else outIdle

theorem outAt_last (c : Dev nD) (t : Fin cfg0.N) (h0 : ¬t.val % 64 = 0) (h1 : t.val % 64 = 63) :
    outAt m c t = outLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (nc0_of t h0) (c1_of t h1) (iblk m c 0 t) (iblk m c 1 t) (iblk m c 2 t) (iblk m c 3 t)
      (prevScr m c t).1 (prevScr m c t).2.1 (prevScr m c t).2.2 := dif_pos h1

/-! ## The region's invariant -/

/-- Before position `n`: at the very start the class's invariant (every scratch at anything); afterwards the three
    scratch buffers at what position `n - 1` left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scrAt m c n hn).1 ∗ owns (c : Thread nD τ) scM0_1 fullShare (scrAt m c n hn).2.1 ∗ owns (c : Thread nD τ) scM0_2 fullShare (scrAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c n hn).1 ∗ owns (c : Thread nD τ) scM0_1 fullShare (scrAt m c n hn).2.1 ∗ owns (c : Thread nD τ) scM0_2 fullShare (scrAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c (n - 1) (by omega)).1 ∗ owns (c : Thread nD τ) scM0_1 fullShare (scrAt m c (n - 1) (by omega)).2.1 ∗ owns (c : Thread nD τ) scM0_2 fullShare (scrAt m c (n - 1) (by omega)).2.2) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t).1
    | ⟨5, _⟩ => (outAt m c t).2.1
    | ⟨6, _⟩ => (outAt m c t).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outAt m c t).1 := by dsimp only [dats]
theorem after0_5 (c : Dev nD) (t : Fin cfg0.N) : (dats m 0 c).after 5 t = (outAt m c t).2.1 := by dsimp only [dats]
theorem after0_6 (c : Dev nD) (t : Fin cfg0.N) : (dats m 0 c).after 6 t = (outAt m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks; the position says which of the three cases it is
    in; the invariant hands the body the scratch buffers at what the position before left (at anything at the very
    first position) and takes them back at this position's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 64 = 0
  · have h1 : ¬t.val % 64 = 63 := by omega
    rw [Dat.leavesExact_idle (dats m 0 c) 4 t (idleAt0_4 t (nc1_of t h1)) (noFlush0_4 t (nc1_of t h1))]
    rw [Dat.leavesExact_idle (dats m 0 c) 5 t (idleAt0_5 t (nc1_of t h1)) (noFlush0_5 t (nc1_of t h1))]
    rw [Dat.leavesExact_idle (dats m 0 c) 6 t (idleAt0_6 t (nc1_of t h1)) (noFlush0_6 t (nc1_of t h1))]
    rw [scrAt_first m c t h0]
    unfold scrFirst; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunFirst c (grid0.coords t) _ _ _ _ _ _ _ _ _ _ _ _ _ _ _ _ _ _ _ _ (c0_of t h0) (nc1_of t (by omega)) (iblk m c 0 t) (iblk m c 1 t) (iblk m c 2 t) (iblk m c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverFirst_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverFirst_1 c _ _ _ _ _ _ _ _ _ _ _ _ _ _ _ _ _ _ _ _ _ _ _ _ _ _ _)
          unfold owns; iexists _; isplitr
          swap; · iexact HS2
          ipureintro; exact View.read_writes_of_cover _ _ _ _ _ (scoverFirst_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunFirst c (grid0.coords t) _ _ _ _ _ _ _ _ _ _ _ _ _ _ _ _ _ _ _ _ (c0_of t h0) (nc1_of t (by omega)) (iblk m c 0 t) (iblk m c 1 t) (iblk m c 2 t) (iblk m c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverFirst_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverFirst_1 c _ _ _ _ _ _ _ _ _ _ _ _ _ _ _ _ _ _ _ _ _ _ _ _ _ _ _)
          unfold owns; iexists _; isplitr
          swap; · iexact HS2
          ipureintro; exact View.read_writes_of_cover _ _ _ _ _ (scoverFirst_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hz : t.val ≠ 0 := fun h => h0 (by rw [h])
    by_cases h1 : t.val % 64 = 63
    ·
      rw [show (dats m 0 c).leavesExact 4 t = owns (c : Thread nD τ) (ms0_4 t) fullShare ((dats m 0 c).after 4 t) from by
        unfold Dat.leavesExact; rw [liveAt0_4 t (c1_of t h1)], after0_4]
      rw [show (dats m 0 c).leavesExact 5 t = owns (c : Thread nD τ) (ms0_5 t) fullShare ((dats m 0 c).after 5 t) from by
        unfold Dat.leavesExact; rw [liveAt0_5 t (c1_of t h1)], after0_5]
      rw [show (dats m 0 c).leavesExact 6 t = owns (c : Thread nD τ) (ms0_6 t) fullShare ((dats m 0 c).after 6 t) from by
        unfold Dat.leavesExact; rw [liveAt0_6 t (c1_of t h1)], after0_6]
      rw [scrAt_last m c t h0 h1, outAt_last m c t h0 h1]
      unfold scrLast outLast; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunLast c (grid0.coords t) _ _ _ _ _ _ _ _ _ _ _ _ _ _ _ _ _ _ _ _ (nc0_of t h0) (c1_of t h1) (iblk m c 0 t) (iblk m c 1 t) (iblk m c 2 t) (iblk m c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverLast_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverLast_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scoverLast_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (ocoverLast_4 c _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (ocoverLast_5 c _ _ _ _ _ _ _ _ _ _ _ _ _ _ _ _ _ _ _ _ _ _ _ _ _ _ _ _ _ _)
      unfold owns; iexists _; isplitr
      swap; · iexact H6
      ipureintro; exact View.read_writes_of_cover _ _ _ _ _ (ocoverLast_6 c _ _ _ _ _ _ _ _ _ _ _ _ _ _ _ _ _ _ _ _ _ _ _ _ _ _ _ _ _ _)
    ·
      rw [Dat.leavesExact_idle (dats m 0 c) 4 t (idleAt0_4 t (nc1_of t h1)) (noFlush0_4 t (nc1_of t h1))]
      rw [Dat.leavesExact_idle (dats m 0 c) 5 t (idleAt0_5 t (nc1_of t h1)) (noFlush0_5 t (nc1_of t h1))]
      rw [Dat.leavesExact_idle (dats m 0 c) 6 t (idleAt0_6 t (nc1_of t h1)) (noFlush0_6 t (nc1_of t h1))]
      rw [scrAt_mid m c t h0 h1]
      unfold scrMid; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunMid c (grid0.coords t) _ _ _ _ _ _ _ _ _ _ _ _ _ _ _ _ _ _ _ _ (nc0_of t h0) (nc1_of t h1) (iblk m c 0 t) (iblk m c 1 t) (iblk m c 2 t) (iblk m c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverMid_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverMid_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scoverMid_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first position. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any position but the very first the invariant gives the class's back: the scratch buffers' named contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last position. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the pipeline at what
    the proof data computes and every other unscoped buffer as the 101 later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to its end without a fault and its twenty argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.Kernel.Fr

end
-- ==== Proof.FrameKernelIdeal.Setup.lean ====
/-
  The frame of the retrieval kernel's program, first part: what is shared by the three kinds of grid point.

  The program is five stretches of host operations (the encoder and the squared norms of the queries), one
  pipelined region over a 2 x 64 grid, and one stretch of 101 host operations (the merge of the two halves and
  the recurrent cell).  Here: the buffers' contents when the region is entered, @main as "host lines, region, host
  lines", that none of those lines writes an argument array or an array of the pipeline, the blocks of the
  windows, the two conditions of the body in closed form (first tile of a half: the position is 0 mod 64; last
  tile: 63 mod 64), where the three result windows are idle, and the names of the staging and scratch memrefs.
-/
import proofs.«160366_j14869176778798_2_alg».proof.Proof.Gen.KernelIdeal.Launch
import proofs.«160366_j14869176778798_2_alg».proof.Proof.Gen.KernelIdeal.Skeleton
import proofs.«160366_j14869176778798_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches before the region, in order. -/
abbrev preOps : List (List (HloOp τ sig (Elt F))) := [hostOps0, hostOps0_1, hostOps0_2, hostOps0_3, hostOps0_4]

/-- Core `c`'s buffer contents when the region is entered: the launch memory after the host lines before it. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the 101 host lines after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The later lines touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each later line writes its own result buffer only, and that is no array of the pipeline. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro w; refine StableHlo.devRef_ne_of_ne ?_; revert w; decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-! ## No host line writes an argument array -/

/-- The twenty argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem pre_keeps_args : (List.flatten [hostOps0, hostOps0_1, hostOps0_2, hostOps0_3, hostOps0_4] : List (HloOp τ sig (Elt F))).Forall fun op =>
    ∀ b ∈ argRefs, Proc.devRef .tc b ∉ op.writes := by
  simp only [hostOps0, hostOps0_1, hostOps0_2, hostOps0_3, hostOps0_4, StableHlo.TRef.nullary, StableHlo.TRef.unary, StableHlo.TRef.binary,
    List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro b hb; refine StableHlo.devRef_ne_of_ne ?_; revert b; decide)

theorem tail_keeps_args : (hostOps1 : List (HloOp τ sig (Elt F))).Forall fun op =>
    ∀ b ∈ argRefs, Proc.devRef .tc b ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals (intro b hb; refine StableHlo.devRef_ne_of_ne ?_; revert b; decide)

/-- An argument array is, when the region is entered, as launched. -/
theorem V_arg (c : Dev nD) (b : Ref sig .tc) (hb : b ∈ argRefs) : V m c b = m ((c : Thread nD τ).loc b) :=
  StableHlo.after_of_forall_not_mem (b := Proc.devRef .tc b) _ _
    (fun op hop => (List.forall_iff_forall_mem.mp pre_keeps_args) op hop b hb)

/-- An argument array that no window stages is, after the later lines, as launched. -/
theorem W_arg (dats : (p : Fin _) → (c : Dev nD) → Dat τ (Elt F) Unit ℕ (UR sig nD τ) ℕ (cfgs p) c) (c : Dev nD)
    (b : Ref sig .tc) (hb : b ∈ argRefs) (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _
      (by simp only [List.flatten_cons, List.flatten_nil, List.append_nil]
          exact fun op hop => (List.forall_iff_forall_mem.mp tail_keeps_args) op hop b hb),
    Pipeline.withArrays_of_ne _ c (V0 m c) _ b hne]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the launch theorem's post, the frame: the two staged arguments (the keys and the values) end at
    their entry contents, the eighteen others are buffers the region bypasses and the later lines do not write. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (W_arg m dats c main_arg0 (by decide) (by decide)),
    ((h c).2 main_arg1 (Pipeline.mem_restRefs_of main_arg1 (by decide) (by decide))).trans (W_arg m dats c main_arg1 (by decide) (by decide)),
    ((h c).2 main_arg2 (Pipeline.mem_restRefs_of main_arg2 (by decide) (by decide))).trans (W_arg m dats c main_arg2 (by decide) (by decide)),
    ((h c).2 main_arg3 (Pipeline.mem_restRefs_of main_arg3 (by decide) (by decide))).trans (W_arg m dats c main_arg3 (by decide) (by decide)),
    ((h c).2 main_arg4 (Pipeline.mem_restRefs_of main_arg4 (by decide) (by decide))).trans (W_arg m dats c main_arg4 (by decide) (by decide)),
    ((h c).2 main_arg5 (Pipeline.mem_restRefs_of main_arg5 (by decide) (by decide))).trans (W_arg m dats c main_arg5 (by decide) (by decide)),
    ((h c).2 main_arg6 (Pipeline.mem_restRefs_of main_arg6 (by decide) (by decide))).trans (W_arg m dats c main_arg6 (by decide) (by decide)),
    ((h c).2 main_arg7 (Pipeline.mem_restRefs_of main_arg7 (by decide) (by decide))).trans (W_arg m dats c main_arg7 (by decide) (by decide)),
    ((h c).2 main_arg8 (Pipeline.mem_restRefs_of main_arg8 (by decide) (by decide))).trans (W_arg m dats c main_arg8 (by decide) (by decide)),
    ((h c).2 main_arg9 (Pipeline.mem_restRefs_of main_arg9 (by decide) (by decide))).trans (W_arg m dats c main_arg9 (by decide) (by decide)),
    ((h c).2 main_arg10 (Pipeline.mem_restRefs_of main_arg10 (by decide) (by decide))).trans (W_arg m dats c main_arg10 (by decide) (by decide)),
    ((h c).2 main_arg11 (Pipeline.mem_restRefs_of main_arg11 (by decide) (by decide))).trans (W_arg m dats c main_arg11 (by decide) (by decide)),
    ((h c).2 main_arg12 (Pipeline.mem_restRefs_of main_arg12 (by decide) (by decide))).trans (W_arg m dats c main_arg12 (by decide) (by decide)),
    ((h c).2 main_arg13 (Pipeline.mem_restRefs_of main_arg13 (by decide) (by decide))).trans (W_arg m dats c main_arg13 (by decide) (by decide)),
    ((h c).2 main_arg14 (Pipeline.mem_restRefs_of main_arg14 (by decide) (by decide))).trans (W_arg m dats c main_arg14 (by decide) (by decide)),
    ((h c).2 main_arg15 (Pipeline.mem_restRefs_of main_arg15 (by decide) (by decide))).trans (W_arg m dats c main_arg15 (by decide) (by decide)),
    ((h c).2 main_arg16 (Pipeline.mem_restRefs_of main_arg16 (by decide) (by decide))).trans (W_arg m dats c main_arg16 (by decide) (by decide)),
    ((h c).2 main_arg17 (Pipeline.mem_restRefs_of main_arg17 (by decide) (by decide))).trans (W_arg m dats c main_arg17 (by decide) (by decide)),
    ((h c).1 2).trans (((dats 0 c).arrAt_in 2 rfl _).trans ((hA c 2).trans (V_arg m c main_arg18 (by decide)))),
    ((h c).1 3).trans (((dats 0 c).arrAt_in 3 rfl _).trans ((hA c 3).trans (V_arg m c main_arg19 (by decide))))⟩) h

/-! ## The body's two conditions -/

/-- "This is the first tile of its half": the body's first `scf.if`, from the grid coordinates. -/
abbrev cond0_0 (i : grid0.Coords) : Prop := (Scalar.cmpi .ne (Scalar.extui (Scalar.cmpi .eq (BitVec.ofNat 32 (i 1).val) 0#32)) 0#32) = 1#1
/-- It holds exactly at the positions 0 and 64 of the 128. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last tile of its half": the body's second `scf.if`. -/
abbrev cond0_1 (i : grid0.Coords) : Prop := k0_cond2 i = 1#1
/-- It holds exactly at the positions 63 and 127. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile of a half, result window 4 is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile of a half it is live. -/
theorem liveAt0_4 : ∀ t : Fin cfg0.N, cond0_1 (grid0.coords t) → cfg0.idle 4 (grid0.coords t) = false := by decide +kernel
/-- Away from the last tile of a half, result window 5 is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last tile of a half it is live. -/
theorem liveAt0_5 : ∀ t : Fin cfg0.N, cond0_1 (grid0.coords t) → cfg0.idle 5 (grid0.coords t) = false := by decide +kernel
/-- Away from the last tile of a half, result window 6 is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last tile of a half it is live. -/
theorem liveAt0_6 : ∀ t : Fin cfg0.N, cond0_1 (grid0.coords t) → cfg0.idle 6 (grid0.coords t) = false := by decide +kernel

/-! ## The staging and scratch memrefs -/

/-- One staging buffer of each result window, through which its contents are stated. -/
abbrev VO0_4 : View sig .tc .vmem S1x1024x512 .f32 := (Memref.whole cc0_stg4_0 : Memref sig .tc .vmem S1x1024x512 .f32).view
abbrev VO0_5 : View sig .tc .vmem S1x1024x1 .f32 := (Memref.whole cc0_stg5_0 : Memref sig .tc .vmem S1x1024x1 .f32).view
abbrev VO0_6 : View sig .tc .vmem S1x1024x1 .f32 := (Memref.whole cc0_stg6_0 : Memref sig .tc .vmem S1x1024x1 .f32).view
/-- Each window's current staging memref at point `t`, as the pipeline passes it, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1 .f32 := win0_6.stage (cfg0.slots t 6)
abbrev hs0_6 (t : Fin cfg0.N) : (ms0_6 t).IsWhole := hstage0_6 ((cfg0.slots t 6).cast nbuf0_6)
/-- The three scratch operands (running maximum, running denominator, running numerator): whole scoped buffers. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x512 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x512 .f32 := scM0_2.view

/-- The region's invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.FrameKernelIdeal.RunFirst.lean ====
/-
  The kernel body run at the first tile of a half (the three running quantities are reset, then updated): the stores it leaves in each buffer, as lists of pieces found by the run itself,
  with the proof that on whole staging memrefs holding the four input blocks the body runs to its end, handing the
  inputs back as they were and each scratch buffer (and, at a last tile, each result buffer) with those pieces written.
-/
import proofs.«160366_j14869176778798_2_alg».proof.Proof.FrameKernelIdeal.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunFirst (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i)
    (x0 : Vec F S1024x512 .bf16) (x1 : Vec F S1024x1 .f32) (x2 : Vec F S512x512 .f32) (x3 : Vec F S512x512 .f32) :
    Σ' (LS0 : List (View.Piece (Elt F) S1024x1 .f32)) (LS1 : List (View.Piece (Elt F) S1024x1 .f32)), { LS2 : List (View.Piece (Elt F) S1024x512 .f32) //
      ∀ (xi4 : Vec F S1x1024x512 .f32) (xi5 : Vec F S1x1024x1 .f32) (xi6 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10 arg11 harg11) K } := by
  refine ⟨?_, ?_, ?_, fun xi4 xi5 xi6 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Fr

end
-- ==== Proof.FrameKernelIdeal.RunMid.lean ====
/-
  The kernel body run at a tile that is neither first nor last of its half (the running quantities are updated from what the tile before left): the stores it leaves in each buffer, as lists of pieces found by the run itself,
  with the proof that on whole staging memrefs holding the four input blocks the body runs to its end, handing the
  inputs back as they were and each scratch buffer (and, at a last tile, each result buffer) with those pieces written.
-/
import proofs.«160366_j14869176778798_2_alg».proof.Proof.FrameKernelIdeal.RunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunMid (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i)
    (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) :
    Σ' (LS0 : List (View.Piece (Elt F) S1024x1 .f32)) (LS1 : List (View.Piece (Elt F) S1024x1 .f32)), { LS2 : List (View.Piece (Elt F) S1024x512 .f32) //
      ∀ (xi4 : Vec F S1x1024x512 .f32) (xi5 : Vec F S1x1024x1 .f32) (xi6 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10 arg11 harg11) K } := by
  refine ⟨?_, ?_, ?_, fun xi4 xi5 xi6 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Fr

end
-- ==== Proof.FrameKernelIdeal.RunLast.lean ====
/-
  The kernel body run at the last tile of a half (the running quantities are updated from what the tile before left, then copied out into the three result blocks): the stores it leaves in each buffer, as lists of pieces found by the run itself,
  with the proof that on whole staging memrefs holding the four input blocks the body runs to its end, handing the
  inputs back as they were and each scratch buffer (and, at a last tile, each result buffer) with those pieces written.
-/
import proofs.«160366_j14869176778798_2_alg».proof.Proof.FrameKernelIdeal.RunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunLast (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i)
    (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) :
    Σ' (L4 : List (View.Piece (Elt F) S1x1024x512 .f32)) (L5 : List (View.Piece (Elt F) S1x1024x1 .f32)) (L6 : List (View.Piece (Elt F) S1x1024x1 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    iexists _; iexact HS2

end Cert.KernelIdeal.Fr

end
-- ==== Proof.FrameKernelIdeal.Frame.lean ====
/-
  The frame of the retrieval kernel's program, last part.

  What the body leaves is followed position by position over the 128 grid points: the three scratch buffers (running
  maximum, running denominator, running numerator) after position n are what the body's stores leave there when run
  on the blocks of position n and, unless n is the first tile of a half, on what position n - 1 left; the three
  result blocks are stored at the last tile of each half only, from the scratch contents just computed, and the
  result windows are idle elsewhere.  From this: the proof data of the pipeline, the body's obligation at every point
  (three cases), the run of @main, and the frame.
-/
import proofs.«160366_j14869176778798_2_alg».proof.Proof.FrameKernelIdeal.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The pieces stored into scratch 0 tile it, so they cover it. -/
theorem scoverFirst_0 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) (y : S1024x1.Idx) :
    ∃ pc ∈ (kernelRunFirst c i arg2 harg2 arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRunFirst c i arg2 harg2 arg3 harg3 arg4 harg4 arg5 harg5 arg6 harg6 arg7 harg7 arg8 harg8 arg9 harg9 arg10 harg10 arg11 harg11 hc0 hc1 x0 x1 x2 x3).1 S1024x1.size (by sl_kernel_rfl) y
/-- The pieces stored into scratch 1 tile it, so they cover it. -/
theorem scoverFirst_1 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) (y : S1024x1.Idx) :
    ∃ pc ∈ (kernelRunFirst c i arg2 harg2 arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRunFirst c i arg2 harg2 arg3 harg3 arg4 harg4 arg5 harg5 arg6 harg6 arg7 harg7 arg8 harg8 arg9 harg9 arg10 harg10 arg11 harg11 hc0 hc1 x0 x1 x2 x3).2.1 S1024x1.size (by sl_kernel_rfl) y
/-- The pieces stored into scratch 2 tile it, so they cover it. -/
theorem scoverFirst_2 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) (y : S1024x512.Idx) :
    ∃ pc ∈ (kernelRunFirst c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRunFirst c i arg2 harg2 arg3 harg3 arg4 harg4 arg5 harg5 arg6 harg6 arg7 harg7 arg8 harg8 arg9 harg9 arg10 harg10 arg11 harg11 hc0 hc1 x0 x1 x2 x3).2.2.1 S1024x512.size (by sl_kernel_rfl) y
/-- What the point leaves in the three scratch buffers: their pieces read back. -/
def scrFirst (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) : Vec F S1024x1 .f32 × Vec F S1024x1 .f32 × Vec F S1024x512 .f32 :=
  (VS0_0.read (Elt F) (VS0_0.writes (Elt F) VS0_0.junk (kernelRunFirst c i arg2 harg2 arg3 harg3 arg4 harg4 arg5 harg5 arg6 harg6 arg7 harg7 arg8 harg8 arg9 harg9 arg10 harg10 arg11 harg11 hc0 hc1 x0 x1 x2 x3).1),
   VS0_1.read (Elt F) (VS0_1.writes (Elt F) VS0_1.junk (kernelRunFirst c i arg2 harg2 arg3 harg3 arg4 harg4 arg5 harg5 arg6 harg6 arg7 harg7 arg8 harg8 arg9 harg9 arg10 harg10 arg11 harg11 hc0 hc1 x0 x1 x2 x3).2.1),
   VS0_2.read (Elt F) (VS0_2.writes (Elt F) VS0_2.junk (kernelRunFirst c i arg2 harg2 arg3 harg3 arg4 harg4 arg5 harg5 arg6 harg6 arg7 harg7 arg8 harg8 arg9 harg9 arg10 harg10 arg11 harg11 hc0 hc1 x0 x1 x2 x3).2.2.1))

/-- The pieces stored into scratch 0 tile it, so they cover it. -/
theorem scoverMid_0 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x1.Idx) :
    ∃ pc ∈ (kernelRunMid c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRunMid c i arg2 harg2 arg3 harg3 arg4 harg4 arg5 harg5 arg6 harg6 arg7 harg7 arg8 harg8 arg9 harg9 arg10 harg10 arg11 harg11 hc0 hc1 x0 x1 x2 x3 xs0 xs1 xs2).1 S1024x1.size (by sl_kernel_rfl) y
/-- The pieces stored into scratch 1 tile it, so they cover it. -/
theorem scoverMid_1 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x1.Idx) :
    ∃ pc ∈ (kernelRunMid c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRunMid c i arg2 harg2 arg3 harg3 arg4 harg4 arg5 harg5 arg6 harg6 arg7 harg7 arg8 harg8 arg9 harg9 arg10 harg10 arg11 harg11 hc0 hc1 x0 x1 x2 x3 xs0 xs1 xs2).2.1 S1024x1.size (by sl_kernel_rfl) y
/-- The pieces stored into scratch 2 tile it, so they cover it. -/
theorem scoverMid_2 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x512.Idx) :
    ∃ pc ∈ (kernelRunMid c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRunMid c i arg2 harg2 arg3 harg3 arg4 harg4 arg5 harg5 arg6 harg6 arg7 harg7 arg8 harg8 arg9 harg9 arg10 harg10 arg11 harg11 hc0 hc1 x0 x1 x2 x3 xs0 xs1 xs2).2.2.1 S1024x512.size (by sl_kernel_rfl) y
/-- What the point leaves in the three scratch buffers: their pieces read back. -/
def scrMid (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) : Vec F S1024x1 .f32 × Vec F S1024x1 .f32 × Vec F S1024x512 .f32 :=
  (VS0_0.read (Elt F) (VS0_0.writes (Elt F) VS0_0.junk (kernelRunMid c i arg2 harg2 arg3 harg3 arg4 harg4 arg5 harg5 arg6 harg6 arg7 harg7 arg8 harg8 arg9 harg9 arg10 harg10 arg11 harg11 hc0 hc1 x0 x1 x2 x3 xs0 xs1 xs2).1),
   VS0_1.read (Elt F) (VS0_1.writes (Elt F) VS0_1.junk (kernelRunMid c i arg2 harg2 arg3 harg3 arg4 harg4 arg5 harg5 arg6 harg6 arg7 harg7 arg8 harg8 arg9 harg9 arg10 harg10 arg11 harg11 hc0 hc1 x0 x1 x2 x3 xs0 xs1 xs2).2.1),
   VS0_2.read (Elt F) (VS0_2.writes (Elt F) VS0_2.junk (kernelRunMid c i arg2 harg2 arg3 harg3 arg4 harg4 arg5 harg5 arg6 harg6 arg7 harg7 arg8 harg8 arg9 harg9 arg10 harg10 arg11 harg11 hc0 hc1 x0 x1 x2 x3 xs0 xs1 xs2).2.2.1))

/-- The pieces stored into scratch 0 tile it, so they cover it. -/
theorem scoverLast_0 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x1.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.1 S1024x1.size (by sl_kernel_rfl) y
/-- The pieces stored into scratch 1 tile it, so they cover it. -/
theorem scoverLast_1 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x1.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1 S1024x1.size (by sl_kernel_rfl) y
/-- The pieces stored into scratch 2 tile it, so they cover it. -/
theorem scoverLast_2 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1024x512.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1 S1024x512.size (by sl_kernel_rfl) y
/-- What the point leaves in the three scratch buffers: their pieces read back. -/
def scrLast (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) : Vec F S1024x1 .f32 × Vec F S1024x1 .f32 × Vec F S1024x512 .f32 :=
  (VS0_0.read (Elt F) (VS0_0.writes (Elt F) VS0_0.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.1),
   VS0_1.read (Elt F) (VS0_1.writes (Elt F) VS0_1.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.1),
   VS0_2.read (Elt F) (VS0_2.writes (Elt F) VS0_2.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.2.2.2.1))

/-- At a last tile the pieces stored into result block 4 cover it. -/
theorem ocoverLast_4 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1x1024x512.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).1 S1x1024x512.size (by sl_kernel_rfl) y
/-- At a last tile the pieces stored into result block 5 cover it. -/
theorem ocoverLast_5 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1x1024x1.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.1 S1x1024x1.size (by sl_kernel_rfl) y
/-- At a last tile the pieces stored into result block 6 cover it. -/
theorem ocoverLast_6 (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) (y : S1x1024x1.Idx) :
    ∃ pc ∈ (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.1, y ∈ pc.1.set :=
  View.cover_of_tiledL (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.1 S1x1024x1.size (by sl_kernel_rfl) y
/-- What a last tile leaves in the three result blocks. -/
def outLast (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) : Vec F S1x1024x512 .f32 × Vec F S1x1024x1 .f32 × Vec F S1x1024x1 .f32 :=
  (VO0_4.read (Elt F) (VO0_4.writes (Elt F) VO0_4.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).1),
   VO0_5.read (Elt F) (VO0_5.writes (Elt F) VO0_5.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.1),
   VO0_6.read (Elt F) (VO0_6.writes (Elt F) VO0_6.junk (kernelRunLast c i arg2 harg2 arg3 harg3 arg4 harg4 arg5 harg5 arg6 harg6 arg7 harg7 arg8 harg8 arg9 harg9 arg10 harg10 arg11 harg11 hc0 hc1 x0 x1 x2 x3 xs0 xs1 xs2).2.2.1))
/-- Elsewhere nothing is stored into them: a placeholder nothing consults. -/
def outIdle : Vec F S1x1024x512 .f32 × Vec F S1x1024x1 .f32 × Vec F S1x1024x1 .f32 :=
  (VO0_4.read (Elt F) VO0_4.junk, VO0_5.read (Elt F) VO0_5.junk, VO0_6.read (Elt F) VO0_6.junk)

/-! ## Position by position -/

theorem c0_of (t : Fin cfg0.N) (h : t.val % 64 = 0) : cond0_0 (grid0.coords t) := (hcond0_0 t).mpr h
theorem nc0_of (t : Fin cfg0.N) (h : ¬t.val % 64 = 0) : ¬cond0_0 (grid0.coords t) := fun h' => h ((hcond0_0 t).mp h')
theorem c1_of (t : Fin cfg0.N) (h : t.val % 64 = 63) : cond0_1 (grid0.coords t) := (hcond0_1 t).mpr h
theorem nc1_of (t : Fin cfg0.N) (h : ¬t.val % 64 = 63) : ¬cond0_1 (grid0.coords t) := fun h' => h ((hcond0_1 t).mp h')

/-- The scratch buffers after position `n`. -/
def scrAt (c : Dev nD) : (n : ℕ) → n < cfg0.N → Vec F S1024x1 .f32 × Vec F S1024x1 .f32 × Vec F S1024x512 .f32
  | 0, hn => scrFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) (c0_of ⟨0, hn⟩ (Nat.zero_mod _)) (nc1_of ⟨0, hn⟩ (show ¬(0 : ℕ) % 64 = 63 by decide)) (iblk m c 0 ⟨0, hn⟩) (iblk m c 1 ⟨0, hn⟩) (iblk m c 2 ⟨0, hn⟩) (iblk m c 3 ⟨0, hn⟩)
  | n + 1, hn =>
    if h0 : (n + 1) % 64 = 0 then
      scrFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (c0_of ⟨n + 1, hn⟩ h0) (nc1_of ⟨n + 1, hn⟩ (show ¬(n + 1) % 64 = 63 by omega)) (iblk m c 0 ⟨n + 1, hn⟩) (iblk m c 1 ⟨n + 1, hn⟩) (iblk m c 2 ⟨n + 1, hn⟩) (iblk m c 3 ⟨n + 1, hn⟩)
    else if h1 : (n + 1) % 64 = 63 then
      scrLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (nc0_of ⟨n + 1, hn⟩ h0) (c1_of ⟨n + 1, hn⟩ h1) (iblk m c 0 ⟨n + 1, hn⟩) (iblk m c 1 ⟨n + 1, hn⟩) (iblk m c 2 ⟨n + 1, hn⟩) (iblk m c 3 ⟨n + 1, hn⟩)
        (scrAt c n (Nat.lt_of_succ_lt hn)).1 (scrAt c n (Nat.lt_of_succ_lt hn)).2.1 (scrAt c n (Nat.lt_of_succ_lt hn)).2.2
    else
      scrMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (nc0_of ⟨n + 1, hn⟩ h0) (nc1_of ⟨n + 1, hn⟩ h1) (iblk m c 0 ⟨n + 1, hn⟩) (iblk m c 1 ⟨n + 1, hn⟩) (iblk m c 2 ⟨n + 1, hn⟩) (iblk m c 3 ⟨n + 1, hn⟩)
        (scrAt c n (Nat.lt_of_succ_lt hn)).1 (scrAt c n (Nat.lt_of_succ_lt hn)).2.1 (scrAt c n (Nat.lt_of_succ_lt hn)).2.2

/-- The scratch contents the body finds at position `t` when it is not a first tile: what `t - 1` left. -/
abbrev prevScr (c : Dev nD) (t : Fin cfg0.N) : Vec F S1024x1 .f32 × Vec F S1024x1 .f32 × Vec F S1024x512 .f32 := scrAt m c (t.val - 1) (Nat.lt_of_le_of_lt (Nat.sub_le _ _) t.isLt)

theorem scrAt_first (c : Dev nD) (t : Fin cfg0.N) (h0 : t.val % 64 = 0) :
    scrAt m c t.val t.isLt = scrFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (c0_of t h0) (nc1_of t (by omega)) (iblk m c 0 t) (iblk m c 1 t) (iblk m c 2 t) (iblk m c 3 t) := by
  obtain ⟨n, hn⟩ := t
  cases n with
  | zero => exact rfl
  | succ n => exact (dif_pos h0).trans rfl

theorem scrAt_mid (c : Dev nD) (t : Fin cfg0.N) (h0 : ¬t.val % 64 = 0) (h1 : ¬t.val % 64 = 63) :
    scrAt m c t.val t.isLt = scrMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (nc0_of t h0) (nc1_of t h1) (iblk m c 0 t) (iblk m c 1 t) (iblk m c 2 t) (iblk m c 3 t)
      (prevScr m c t).1 (prevScr m c t).2.1 (prevScr m c t).2.2 := by
  obtain ⟨n, hn⟩ := t
  cases n with
  | zero => exact absurd (Nat.zero_mod _) h0
  | succ n => exact (dif_neg h0).trans ((dif_neg h1).trans rfl)

theorem scrAt_last (c : Dev nD) (t : Fin cfg0.N) (h0 : ¬t.val % 64 = 0) (h1 : t.val % 64 = 63) :
    scrAt m c t.val t.isLt = scrLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (nc0_of t h0) (c1_of t h1) (iblk m c 0 t) (iblk m c 1 t) (iblk m c 2 t) (iblk m c 3 t)
      (prevScr m c t).1 (prevScr m c t).2.1 (prevScr m c t).2.2 := by
  obtain ⟨n, hn⟩ := t
  cases n with
  | zero => exact absurd (Nat.zero_mod _) h0
  | succ n => exact (dif_neg h0).trans ((dif_pos h1).trans rfl)

/-- The three result blocks after position `t`. -/
def outAt (c : Dev nD) (t : Fin cfg0.N) : Vec F S1x1024x512 .f32 × Vec F S1x1024x1 .f32 × Vec F S1x1024x1 .f32 :=
  if h1 : t.val % 64 = 63 then
    outLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (nc0_of t (by omega)) (c1_of t h1) (iblk m c 0 t) (iblk m c 1 t) (iblk m c 2 t) (iblk m c 3 t)
      (prevScr m c t).1 (prevScr m c t).2.1 (prevScr m c t).2.2
  else outIdle

theorem outAt_last (c : Dev nD) (t : Fin cfg0.N) (h0 : ¬t.val % 64 = 0) (h1 : t.val % 64 = 63) :
    outAt m c t = outLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (nc0_of t h0) (c1_of t h1) (iblk m c 0 t) (iblk m c 1 t) (iblk m c 2 t) (iblk m c 3 t)
      (prevScr m c t).1 (prevScr m c t).2.1 (prevScr m c t).2.2 := dif_pos h1

/-! ## The region's invariant -/

/-- Before position `n`: at the very start the class's invariant (every scratch at anything); afterwards the three
    scratch buffers at what position `n - 1` left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scrAt m c n hn).1 ∗ owns (c : Thread nD τ) scM0_1 fullShare (scrAt m c n hn).2.1 ∗ owns (c : Thread nD τ) scM0_2 fullShare (scrAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c n hn).1 ∗ owns (c : Thread nD τ) scM0_1 fullShare (scrAt m c n hn).2.1 ∗ owns (c : Thread nD τ) scM0_2 fullShare (scrAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c (n - 1) (by omega)).1 ∗ owns (c : Thread nD τ) scM0_1 fullShare (scrAt m c (n - 1) (by omega)).2.1 ∗ owns (c : Thread nD τ) scM0_2 fullShare (scrAt m c (n - 1) (by omega)).2.2) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outAt m c t).1
    | ⟨5, _⟩ => (outAt m c t).2.1
    | ⟨6, _⟩ => (outAt m c t).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outAt m c t).1 := by dsimp only [dats]
theorem after0_5 (c : Dev nD) (t : Fin cfg0.N) : (dats m 0 c).after 5 t = (outAt m c t).2.1 := by dsimp only [dats]
theorem after0_6 (c : Dev nD) (t : Fin cfg0.N) : (dats m 0 c).after 6 t = (outAt m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' memrefs hold their blocks; the position says which of the three cases it is
    in; the invariant hands the body the scratch buffers at what the position before left (at anything at the very
    first position) and takes them back at this position's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 64 = 0
  · have h1 : ¬t.val % 64 = 63 := by omega
    rw [Dat.leavesExact_idle (dats m 0 c) 4 t (idleAt0_4 t (nc1_of t h1)) (noFlush0_4 t (nc1_of t h1))]
    rw [Dat.leavesExact_idle (dats m 0 c) 5 t (idleAt0_5 t (nc1_of t h1)) (noFlush0_5 t (nc1_of t h1))]
    rw [Dat.leavesExact_idle (dats m 0 c) 6 t (idleAt0_6 t (nc1_of t h1)) (noFlush0_6 t (nc1_of t h1))]
    rw [scrAt_first m c t h0]
    unfold scrFirst; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunFirst c (grid0.coords t) _ _ _ _ _ _ _ _ _ _ _ _ _ _ _ _ _ _ _ _ (c0_of t h0) (nc1_of t (by omega)) (iblk m c 0 t) (iblk m c 1 t) (iblk m c 2 t) (iblk m c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverFirst_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverFirst_1 c _ _ _ _ _ _ _ _ _ _ _ _ _ _ _ _ _ _ _ _ _ _ _ _ _ _ _)
          unfold owns; iexists _; isplitr
          swap; · iexact HS2
          ipureintro; exact View.read_writes_of_cover _ _ _ _ _ (scoverFirst_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunFirst c (grid0.coords t) _ _ _ _ _ _ _ _ _ _ _ _ _ _ _ _ _ _ _ _ (c0_of t h0) (nc1_of t (by omega)) (iblk m c 0 t) (iblk m c 1 t) (iblk m c 2 t) (iblk m c 3 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverFirst_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverFirst_1 c _ _ _ _ _ _ _ _ _ _ _ _ _ _ _ _ _ _ _ _ _ _ _ _ _ _ _)
          unfold owns; iexists _; isplitr
          swap; · iexact HS2
          ipureintro; exact View.read_writes_of_cover _ _ _ _ _ (scoverFirst_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
  · have hz : t.val ≠ 0 := fun h => h0 (by rw [h])
    by_cases h1 : t.val % 64 = 63
    ·
      rw [show (dats m 0 c).leavesExact 4 t = owns (c : Thread nD τ) (ms0_4 t) fullShare ((dats m 0 c).after 4 t) from by
        unfold Dat.leavesExact; rw [liveAt0_4 t (c1_of t h1)], after0_4]
      rw [show (dats m 0 c).leavesExact 5 t = owns (c : Thread nD τ) (ms0_5 t) fullShare ((dats m 0 c).after 5 t) from by
        unfold Dat.leavesExact; rw [liveAt0_5 t (c1_of t h1)], after0_5]
      rw [show (dats m 0 c).leavesExact 6 t = owns (c : Thread nD τ) (ms0_6 t) fullShare ((dats m 0 c).after 6 t) from by
        unfold Dat.leavesExact; rw [liveAt0_6 t (c1_of t h1)], after0_6]
      rw [scrAt_last m c t h0 h1, outAt_last m c t h0 h1]
      unfold scrLast outLast; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunLast c (grid0.coords t) _ _ _ _ _ _ _ _ _ _ _ _ _ _ _ _ _ _ _ _ (nc0_of t h0) (c1_of t h1) (iblk m c 0 t) (iblk m c 1 t) (iblk m c 2 t) (iblk m c 3 t) _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverLast_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverLast_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scoverLast_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (ocoverLast_4 c _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (ocoverLast_5 c _ _ _ _ _ _ _ _ _ _ _ _ _ _ _ _ _ _ _ _ _ _ _ _ _ _ _ _ _ _)
      unfold owns; iexists _; isplitr
      swap; · iexact H6
      ipureintro; exact View.read_writes_of_cover _ _ _ _ _ (ocoverLast_6 c _ _ _ _ _ _ _ _ _ _ _ _ _ _ _ _ _ _ _ _ _ _ _ _ _ _ _ _ _ _)
    ·
      rw [Dat.leavesExact_idle (dats m 0 c) 4 t (idleAt0_4 t (nc1_of t h1)) (noFlush0_4 t (nc1_of t h1))]
      rw [Dat.leavesExact_idle (dats m 0 c) 5 t (idleAt0_5 t (nc1_of t h1)) (noFlush0_5 t (nc1_of t h1))]
      rw [Dat.leavesExact_idle (dats m 0 c) 6 t (idleAt0_6 t (nc1_of t h1)) (noFlush0_6 t (nc1_of t h1))]
      rw [scrAt_mid m c t h0 h1]
      unfold scrMid; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunMid c (grid0.coords t) _ _ _ _ _ _ _ _ _ _ _ _ _ _ _ _ _ _ _ _ (nc0_of t h0) (nc1_of t h1) (iblk m c 0 t) (iblk m c 1 t) (iblk m c 2 t) (iblk m c 3 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverMid_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverMid_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scoverMid_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first position. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any position but the very first the invariant gives the class's back: the scratch buffers' named contents
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last position. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the pipeline at what
    the proof data computes and every other unscoped buffer as the 101 later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to its end without a fault and its twenty argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

end Cert.KernelIdeal.Fr

end
-- ==== Proof.RefFrame.lean ====
/-
  The reference program runs to the end, faults nowhere and leaves its twenty argument arrays as it found them:
  its run, read back operation by operation, ends with every result at a term of the arguments and every argument
  unchanged; the frame claim keeps the second half.
-/
import proofs.«160366_j14869176778798_2_alg».proof.Defs
import proofs.«160366_j14869176778798_2_alg».proof.Proof.Gen.ReferenceIdeal
import proofs.«160366_j14869176778798_2_alg».proof.Proof.Gen.Pre_finite_inputs
import proofs.«160366_j14869176778798_2_alg».proof.Proof.Gen.ReferenceIdeal.Run

noncomputable section

namespace Cert.ReferenceIdeal.RefValue

open Idealize.ShloMosaic Idealize.ShloMosaic.TcCoe Idealize.SL.Sem

/-- Of the run's twenty-five facts per device (five results, twenty arguments) the frame is the last twenty. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

end Cert.ReferenceIdeal.RefValue

end
-- ==== Proof.RefTail.lean ====
/-
  The recurrent cell after the memory read, as functions of the argument arrays, of the cell's input row `xt`
  (the encoded observation joined with the previous action and reward) and of the retrieved memory `mt`.

  With  z = xt · W_ihᵀ + h · W_hhᵀ + b_ih + b_hh  cut into five blocks of 512 columns (input, forget, candidate,
  output and reinstatement gate), and σ the logistic function written as 1 / (1 + exp (−v)):
      c' = σ(z_f) · c + σ(z_i) · tanh(z_g) + σ(z_r) · mt,        h' = σ(z_o) · tanh(c'),
  the policy logits are  h' · W_aᵀ + b_a,  the value estimate is  h' · W_cᵀ + b_c,  and the new hidden and cell
  states are h' and c' under a leading axis of size one. Each definition is the reference's own chain of
  operations, at the extended reals, with the two inputs named; nothing below opens the chain.
-/
import proofs.«160366_j14869176778798_2_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The encoder: two affine layers, each followed by a maximum with zero (the fifth result, `feats`). -/
def featsOf (x0 : FVec Ideal S1024x9 .f32) (x6 : FVec Ideal S64x9 .f32) (x7 : FVec Ideal S64 .f32) (x8 : FVec Ideal S128x64 .f32) (x9 : FVec Ideal S128 .f32) : FVec Ideal S1024x128 .f32 :=
  maximumf (addf (Host.dotGeneral dot_S1024x64_S64x128_S1024x128_1_0_0_1_n_n none (maximumf (addf (Host.dotGeneral dot_S1024x9_S9x64_S1024x64_1_0_0_1_n_n none x0 (transpose S9x64 [1, 0] x6 transposes_S64x9_S9x64_1_0)) (broadcastInDim S1024x64 ![0, 1] bcast_S1x64_S1024x64_0_1 (broadcastInDim S1x64 ![1] bcast_S64_S1x64_1 x7))) (broadcastInDim S1024x64 ![] bcast_S_S1024x64 (constant (F := Ideal) S_ .f32 0x00000000#32))) (transpose S64x128 [1, 0] x8 transposes_S128x64_S64x128_1_0)) (broadcastInDim S1024x128 ![0, 1] bcast_S1x128_S1024x128_0_1 (broadcastInDim S1x128 ![1] bcast_S128_S1x128_1 x9))) (broadcastInDim S1024x128 ![] bcast_S_S1024x128 (constant (F := Ideal) S_ .f32 0x00000000#32))

/-- The cell's input row: the encoded observation, the previous action and the previous reward side by side. -/
def xtOf (feats : FVec Ideal S1024x128 .f32) (x1 : FVec Ideal S1024x4 .f32) (x2 : FVec Ideal S1024x1 .f32) : FVec Ideal S1024x133 .f32 :=
  concatenate S1024x133 1 [⟨S1024x128, feats⟩, ⟨S1024x4, x1⟩, ⟨S1024x1, x2⟩] concatenates_S1024x128_S1024x4_S1024x1_S1024x133_d1

/-- The five gates' pre-activations, 2560 columns: input and recurrent products plus the two biases. -/
def gates (x3 : FVec Ideal S1x1024x512 .f32) (x10 : FVec Ideal S2560x133 .f32) (x11 : FVec Ideal S2560x512 .f32) (x12 x13 : FVec Ideal S2560 .f32) (xt : FVec Ideal S1024x133 .f32) : FVec Ideal S1024x2560 .f32 :=
  addf (addf (addf (Host.dotGeneral dot_S1024x133_S133x2560_S1024x2560_1_0_0_1_n_n none xt (transpose S133x2560 [1, 0] x10 transposes_S2560x133_S133x2560_1_0)) (Host.dotGeneral dot_S1024x512_S512x2560_S1024x2560_1_0_0_1_n_n none (shapeCast _ x3 shapeCasts_S1x1024x512_S1024x512) (transpose S512x2560 [1, 0] x11 transposes_S2560x512_S512x2560_1_0))) (broadcastInDim S1024x2560 ![0, 1] bcast_S1x2560_S1024x2560_0_1 (broadcastInDim S1x2560 ![1] bcast_S2560_S1x2560_1 x12))) (broadcastInDim S1024x2560 ![0, 1] bcast_S1x2560_S1024x2560_0_1 (broadcastInDim S1x2560 ![1] bcast_S2560_S1x2560_1 x13))

/-- The logistic function as the program spells it: one over one plus the exponential of the negation. -/
def sigm (v : FVec Ideal S1024x512 .f32) : FVec Ideal S1024x512 .f32 :=
  Host.divf (broadcastInDim S1024x512 ![] bcast_S_S1024x512 (constant (F := Ideal) S_ .f32 0x3F800000#32)) (addf (broadcastInDim S1024x512 ![] bcast_S_S1024x512 (constant (F := Ideal) S_ .f32 0x3F800000#32)) (Host.exp (Host.negf v)))

/-- The new cell state: forget gate times the old state, input gate times the candidate, reinstatement gate
    times the retrieved memory. -/
def cellNew (x4 : FVec Ideal S1x1024x512 .f32) (z : FVec Ideal S1024x2560 .f32) (mt : FVec Ideal S1024x512 .f32) : FVec Ideal S1024x512 .f32 :=
  addf (addf (mulf (sigm (extractStridedSlice S1024x512 ![0, 512] z slices_S1024x2560_S1024x512_0_512)) (shapeCast _ x4 shapeCasts_S1x1024x512_S1024x512)) (mulf (sigm (extractStridedSlice S1024x512 ![0, 0] z slices_S1024x2560_S1024x512_0_0)) (Host.tanh (extractStridedSlice S1024x512 ![0, 1024] z slices_S1024x2560_S1024x512_0_1024)))) (mulf (sigm (extractStridedSlice S1024x512 ![0, 2048] z slices_S1024x2560_S1024x512_0_2048)) mt)

/-- The new hidden state: output gate times the hyperbolic tangent of the new cell state. -/
def hiddenNew (z : FVec Ideal S1024x2560 .f32) (cnew : FVec Ideal S1024x512 .f32) : FVec Ideal S1024x512 .f32 :=
  mulf (sigm (extractStridedSlice S1024x512 ![0, 1536] z slices_S1024x2560_S1024x512_0_1536)) (Host.tanh cnew)

/-- The policy logits (first result). -/
def tailLogits (x3 x4 : FVec Ideal S1x1024x512 .f32) (x10 : FVec Ideal S2560x133 .f32) (x11 : FVec Ideal S2560x512 .f32) (x12 x13 : FVec Ideal S2560 .f32) (x14 : FVec Ideal S4x512 .f32) (x15 : FVec Ideal S4 .f32) (xt : FVec Ideal S1024x133 .f32) (mt : FVec Ideal S1024x512 .f32) : FVec Ideal S1024x4 .f32 :=
  addf (Host.dotGeneral dot_S1024x512_S512x4_S1024x4_1_0_0_1_n_n none (hiddenNew (gates x3 x10 x11 x12 x13 xt) (cellNew x4 (gates x3 x10 x11 x12 x13 xt) mt)) (transpose S512x4 [1, 0] x14 transposes_S4x512_S512x4_1_0)) (broadcastInDim S1024x4 ![0, 1] bcast_S1x4_S1024x4_0_1 (broadcastInDim S1x4 ![1] bcast_S4_S1x4_1 x15))

/-- The value estimate (second result). -/
def tailValue (x3 x4 : FVec Ideal S1x1024x512 .f32) (x10 : FVec Ideal S2560x133 .f32) (x11 : FVec Ideal S2560x512 .f32) (x12 x13 : FVec Ideal S2560 .f32) (x16 : FVec Ideal S1x512 .f32) (x17 : FVec Ideal S1 .f32) (xt : FVec Ideal S1024x133 .f32) (mt : FVec Ideal S1024x512 .f32) : FVec Ideal S1024x1 .f32 :=
  addf (Host.dotGeneral dot_S1024x512_S512x1_S1024x1_1_0_0_1_n_n none (hiddenNew (gates x3 x10 x11 x12 x13 xt) (cellNew x4 (gates x3 x10 x11 x12 x13 xt) mt)) (transpose S512x1 [1, 0] x16 transposes_S1x512_S512x1_1_0)) (broadcastInDim S1024x1 ![0, 1] bcast_S1x1_S1024x1_0_1 (broadcastInDim S1x1 ![1] bcast_S1_S1x1_1 x17))

/-- The new hidden state under a leading axis of size one (third result). -/
def tailH (x3 x4 : FVec Ideal S1x1024x512 .f32) (x10 : FVec Ideal S2560x133 .f32) (x11 : FVec Ideal S2560x512 .f32) (x12 x13 : FVec Ideal S2560 .f32) (xt : FVec Ideal S1024x133 .f32) (mt : FVec Ideal S1024x512 .f32) : FVec Ideal S1x1024x512 .f32 :=
  broadcastInDim S1x1024x512 ![1, 2] bcast_S1024x512_S1x1024x512_1_2 (hiddenNew (gates x3 x10 x11 x12 x13 xt) (cellNew x4 (gates x3 x10 x11 x12 x13 xt) mt))

/-- The new cell state under a leading axis of size one (fourth result). -/
def tailC (x3 x4 : FVec Ideal S1x1024x512 .f32) (x10 : FVec Ideal S2560x133 .f32) (x11 : FVec Ideal S2560x512 .f32) (x12 x13 : FVec Ideal S2560 .f32) (xt : FVec Ideal S1024x133 .f32) (mt : FVec Ideal S1024x512 .f32) : FVec Ideal S1x1024x512 .f32 :=
  broadcastInDim S1x1024x512 ![1, 2] bcast_S1024x512_S1x1024x512_1_2 (cellNew x4 (gates x3 x10 x11 x12 x13 xt) mt)

end Cert.ReferenceIdeal.RefValue

end
-- ==== Proof.RefTailEq.lean ====
/-
  The reference's four recurrent results are the cell of RefTail applied to the argument arrays, to the joined
  input row and to the reference's own memory read; its fifth result is the encoder. The reference's composed
  terms and the cell's definitions are the same chain of operations, so each equation holds by unfolding.
-/
import proofs.«160366_j14869176778798_2_alg».proof.Proof.Gen.ReferenceIdeal.Read
import proofs.«160366_j14869176778798_2_alg».proof.Proof.RefTail

noncomputable section

namespace Cert.ReferenceIdeal.RefValue

open Cert.ReferenceIdeal Cert.ReferenceIdeal.Gen Idealize.ShloMosaic Idealize.ShloMosaic.TcCoe Idealize.SL.Sem Idealize.ShloMosaic.StableHlo

theorem logits_eq (m : (ℓ : Loc nD τ sig) → Buf (Elt Ideal) ℓ) (c : Dev nD) :
    Cert.ReferenceIdeal.Value.res_main_v97 (F := Ideal) m c = tailLogits (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Read.val_main_v42 (F := Ideal) (m ((c.tc : Thread nD τ).loc main_arg5)) (m ((c.tc : Thread nD τ).loc main_arg18)) (m ((c.tc : Thread nD τ).loc main_arg19))) :=
  (Read.val_main_v97_eq m c).trans rfl

theorem value_eq (m : (ℓ : Loc nD τ sig) → Buf (Elt Ideal) ℓ) (c : Dev nD) :
    Cert.ReferenceIdeal.Value.res_main_v102 (F := Ideal) m c = tailValue (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Read.val_main_v42 (F := Ideal) (m ((c.tc : Thread nD τ).loc main_arg5)) (m ((c.tc : Thread nD τ).loc main_arg18)) (m ((c.tc : Thread nD τ).loc main_arg19))) :=
  (Read.val_main_v102_eq m c).trans rfl

theorem hidden_eq (m : (ℓ : Loc nD τ sig) → Buf (Elt Ideal) ℓ) (c : Dev nD) :
    Cert.ReferenceIdeal.Value.res_main_v103 (F := Ideal) m c = tailH (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Read.val_main_v42 (F := Ideal) (m ((c.tc : Thread nD τ).loc main_arg5)) (m ((c.tc : Thread nD τ).loc main_arg18)) (m ((c.tc : Thread nD τ).loc main_arg19))) :=
  (Read.val_main_v103_eq m c).trans rfl

theorem cell_eq (m : (ℓ : Loc nD τ sig) → Buf (Elt Ideal) ℓ) (c : Dev nD) :
    Cert.ReferenceIdeal.Value.res_main_v104 (F := Ideal) m c = tailC (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Read.val_main_v42 (F := Ideal) (m ((c.tc : Thread nD τ).loc main_arg5)) (m ((c.tc : Thread nD τ).loc main_arg18)) (m ((c.tc : Thread nD τ).loc main_arg19))) :=
  (Read.val_main_v104_eq m c).trans rfl

end Cert.ReferenceIdeal.RefValue

end
-- ==== Proof.RetrievalSpec.lean ====
/-
  The episodic-memory read, as a function of the argument arrays on the extended reals.

  For a batch row `b` and a memory slot `n` the score is minus the Euclidean distance between the cue row and the
  stored key, computed through the expansion  |c|² − 2·⟨c, k⟩ + |k|²  and clamped below by a small positive constant
  before the square root. The read is the softmax over the slots of these scores, applied to the stored values:
  the scores are shifted by the row's largest score, exponentiated, normalised by the row's sum and contracted with
  the value array.

  Every definition is spelt as the reference's operations produce it when read at an index: the two squared norms
  carry the zero the sums start from, the two float literals stay bit patterns (the factor two and the clamp), the
  row maximum is the supremum over all slots (the fold of `max` from −∞), and the normaliser carries its zero too.
-/
import Idealize.ShloMosaic.PureOps.Ideal
import Idealize.ShloMosaic.Lib.ValueIdx

noncomputable section

open scoped BigOperators

namespace Cert.Retrieval

open Idealize.ShloMosaic Idealize.ShloMosaic.ValueIdx

/-- An array of 1024 rows of 512 extended reals (the cues; also the retrieved memory). -/
abbrev Rows := (⟨2, ![1024, 512]⟩ : Shape).Idx → EReal
/-- An array of 65536 slots of 512 extended reals (the stored keys; the stored values). -/
abbrev Slots := (⟨2, ![65536, 512]⟩ : Shape).Idx → EReal

/-- The factor two of the cross term, as the float literal the program carries. -/
abbrev two : EReal := Ideal.ofBits .f32 0x40000000#32
/-- The clamp under the square root, as the float literal the program carries (the float nearest 1e-12). -/
abbrev eps : EReal := Ideal.ofBits .f32 0x2B8CBCCC#32

/-- The squared norm of cue row `b`. -/
def cn (cue : Rows) (b : Fin 1024) : EReal := 0 + ∑ k : Fin 512, cue (ix2 b k) * cue (ix2 b k)

/-- The inner product of cue row `b` with stored key `n`. -/
def cross (cue : Rows) (keys : Slots) (b : Fin 1024) (n : Fin 65536) : EReal :=
  ∑ k : Fin 512, cue (ix2 b k) * keys (ix2 n k)

/-- The squared norm of stored key `n`. -/
def kn (keys : Slots) (n : Fin 65536) : EReal := 0 + ∑ k : Fin 512, keys (ix2 n k) * keys (ix2 n k)

/-- The score of slot `n` for row `b`: minus the clamped distance. -/
def sc (cue : Rows) (keys : Slots) (b : Fin 1024) (n : Fin 65536) : EReal :=
  -(Ideal.sqrt (max ((cn cue b - two * cross cue keys b n) + kn keys n) eps))

/-- The largest score of row `b`. -/
def Mx (cue : Rows) (keys : Slots) (b : Fin 1024) : EReal :=
  (Finset.univ : Finset (Fin 65536)).sup fun n => sc cue keys b n

/-- The normaliser of row `b`: the sum of the shifted scores' exponentials. -/
def Lx (cue : Rows) (keys : Slots) (b : Fin 1024) : EReal :=
  0 + ∑ n : Fin 65536, Ideal.exp (sc cue keys b n - Mx cue keys b)

/-- The retrieved memory: the softmax weights of row `b` contracted with column `h` of the stored values. -/
def mt (cue : Rows) (keys vals : Slots) (b : Fin 1024) (h : Fin 512) : EReal :=
  ∑ n : Fin 65536, Ideal.div (Ideal.exp (sc cue keys b n - Mx cue keys b)) (Lx cue keys b) * vals (ix2 n h)

/-- The retrieved memory as an array: entry (b, h) is `mt … b h`. -/
def mtArr (cue : Rows) (keys vals : Slots) : Rows := fun i => mt cue keys vals (i 0) (i 1)

theorem mtArr_ix2 (cue : Rows) (keys vals : Slots) (b : Fin 1024) (h : Fin 512) :
    mtArr cue keys vals (ix2 b h) = mt cue keys vals b h := rfl

/-- Every score is at most the row's largest. -/
theorem sc_le_Mx (cue : Rows) (keys : Slots) (b : Fin 1024) (n : Fin 65536) : sc cue keys b n ≤ Mx cue keys b :=
  Finset.le_sup (f := fun n => sc cue keys b n) (Finset.mem_univ n)

/-- The row's largest score as the fold of `max` from −∞ over the slots. -/
theorem Mx_eq_fold (cue : Rows) (keys : Slots) (b : Fin 1024) :
    Mx cue keys b = (Finset.univ : Finset (Fin 65536)).fold max ⊥ fun n => sc cue keys b n := rfl

end Cert.Retrieval

end
-- ==== Proof.RefMemory.lean ====
/-
  The reference's memory read, element by element, is the softmax read of the specification.

  Reading the reference's operations at an index, outermost first: the retrieved memory at (b, h) is the sum over the
  slots n of the weight of n in row b times the stored value (n, h); the weight is the exponential of the shifted
  score divided by the row's sum of such exponentials; the shift is the row's largest score, which the program
  computes as a fold of `max` from −∞ over the slots (and then once more against −∞); and the score is minus the
  square root of the clamped squared distance |c|² − 2⟨c, k⟩ + |k|². Each broadcast only repeats a row's or a slot's
  number, so the composed index functions collapse to the coordinates b, n, k, h.
-/
import proofs.«160366_j14869176778798_2_alg».proof.Proof.Gen.ReferenceIdeal.Read
import proofs.«160366_j14869176778798_2_alg».proof.Proof.RetrievalSpec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The composed index functions at coordinates -/

theorem idx_cue_norm (b : Fin 1024) (n : Fin 65536) (k : Fin 512) :
    idx_main_v14 (idx_main_v15 (idx_main_v20 (ix2 b n))) k = ix2 b k :=
  funext fun a => Fin.ext (by match a with | ⟨0, _⟩ => rfl | ⟨1, _⟩ => rfl)

theorem idx_cross_l (b : Fin 1024) (n : Fin 65536) (k : Fin 512) : lidx_main_v17 (ix2 b n) k = ix2 b k :=
  funext fun a => Fin.ext (by match a with | ⟨0, _⟩ => rfl | ⟨1, _⟩ => rfl)

theorem idx_cross_r (b : Fin 1024) (n : Fin 65536) (k : Fin 512) :
    idx_main_v16 (ridx_main_v17 (ix2 b n) k) = ix2 n k :=
  funext fun a => Fin.ext (by match a with | ⟨0, _⟩ => rfl | ⟨1, _⟩ => rfl)

theorem idx_key_norm (b : Fin 1024) (n : Fin 65536) (k : Fin 512) :
    idx_main_v23 (idx_main_v24 (idx_main_v25 (ix2 b n))) k = ix2 n k :=
  funext fun a => Fin.ext (by match a with | ⟨0, _⟩ => rfl | ⟨1, _⟩ => rfl)

theorem idx_row_max (b : Fin 1024) (n : Fin 65536) : idx_main_v34 (idx_main_v35 (ix2 b n)) = ix1 b :=
  funext fun a => Fin.ext (by match a with | ⟨0, _⟩ => rfl)

theorem idx_row_sum (b : Fin 1024) (n : Fin 65536) : idx_main_v39 (idx_main_v40 (ix2 b n)) = ix1 b :=
  funext fun a => Fin.ext (by match a with | ⟨0, _⟩ => rfl)

theorem idx_sum_slot (b : Fin 1024) (n : Fin 65536) : idx_main_v38 (ix1 b) n = ix2 b n :=
  funext fun a => Fin.ext (by match a with | ⟨0, _⟩ => rfl | ⟨1, _⟩ => rfl)

theorem idx_read_l (b : Fin 1024) (h : Fin 512) (n : Fin 65536) : lidx_main_v42 (ix2 b h) n = ix2 b n :=
  funext fun a => Fin.ext (by match a with | ⟨0, _⟩ => rfl | ⟨1, _⟩ => rfl)

theorem idx_read_r (b : Fin 1024) (h : Fin 512) (n : Fin 65536) : ridx_main_v42 (ix2 b h) n = ix2 n h :=
  funext fun a => Fin.ext (by match a with | ⟨0, _⟩ => rfl | ⟨1, _⟩ => rfl)

/-! ## The score -/

/-- The negated, clamped distance the reference computes at (b, n) is the specification's score. -/
theorem score (x5 : (⟨S1024x512, .f32⟩ : BufTy).Contents (Elt Ideal)) (x18 : (⟨S65536x512, .f32⟩ : BufTy).Contents (Elt Ideal)) (b : Fin 1024) (n : Fin 65536) :
    val_main_v30 (F := Ideal) x5 x18 (ix2 b n) = Cert.Retrieval.sc x5 x18 b n := by
  rw [val_main_v30_apply, val_main_v29_apply, val_main_v28_apply, val_main_v26_apply, val_main_v21_apply,
    val_main_v20_apply, val_main_v15_apply, val_main_v14_apply, val_main_v19_apply, val_main_v18_apply,
    val_main_v17_apply, val_main_v25_apply, val_main_v24_apply, val_main_v23_apply, val_main_v27_apply]
  simp only [val_main_v13_apply, val_main_v16_apply, val_main_v22_apply, val_main_cst_apply, val_main_cst_0_apply,
    val_main_cst_1_apply, val_main_cst_2_apply, idx_cue_norm, idx_cross_l, idx_cross_r, idx_key_norm,
    Ideal.ofBits_def, Ideal.mulf_def, Ideal.ofBits_zero_f32]
  rfl

/-! ## The row maximum -/

/-- A row index with the slot coordinate put back on axis 1. -/
theorem lift_row (h : S1024x65536.Reduces [1] S1024) (b : Fin 1024) (k : Fin (S1024x65536.size 1)) :
    h.lift (ix1 b) k = ix2 b (⟨k.val, k.isLt⟩ : Fin 65536) := by
  funext c; apply Fin.ext
  match c with
  | ⟨0, _⟩ => rfl
  | ⟨1, _⟩ => rfl

/-- The pattern the maximum starts from is −∞. -/
theorem neg_inf : Ideal.ofBits .f32 0xFF800000#32 = (⊥ : EReal) := by
  simp [Ideal.ofBits, Ideal.ieee]

/-- The row's shift: the fold of `max` from −∞ over the slots' scores, maximised once more against −∞, is the
    supremum of the row's scores. -/
theorem rowmax (x5 : (⟨S1024x512, .f32⟩ : BufTy).Contents (Elt Ideal)) (x18 : (⟨S65536x512, .f32⟩ : BufTy).Contents (Elt Ideal)) (b : Fin 1024) :
    val_main_v33 (F := Ideal) x5 x18 (ix1 b) = Cert.Retrieval.Mx x5 x18 b := by
  have h : S1024x65536.Reduces [1] S1024 := by decide
  have hf : (val_main_v30 (F := Ideal) x5 x18 ∘ h.lift (ix1 b)) = fun n : Fin 65536 => Cert.Retrieval.sc x5 x18 b n :=
    funext fun k => (congrArg (val_main_v30 (F := Ideal) x5 x18) (lift_row h b k)).trans (score x5 x18 b _)
  rw [val_main_v33_apply, val_main_v32_apply, val_main_cst_4_apply]
  unfold val_main_v31
  rw [Host.reduce_eq_fold_single FloatOps.maximumf _ _ reducesTo_S1024x65536_S1024_d1 h h_S_, val_main_cst_3_apply]
  show max (Ideal.ofBits .f32 0xFF800000#32) (Finset.fold max (Ideal.ofBits .f32 0xFF800000#32)
    (val_main_v30 (F := Ideal) x5 x18 ∘ h.lift (ix1 b)) (Finset.univ : Finset (Fin 65536))) = _
  rw [neg_inf, max_bot_left]
  exact (congrArg (fun f => Finset.fold max (⊥ : EReal) f (Finset.univ : Finset (Fin 65536))) hf).trans
    (Cert.Retrieval.Mx_eq_fold x5 x18 b).symm

/-! ## The weights and the read -/

/-- The shifted score's exponential. -/
theorem expo (x5 : (⟨S1024x512, .f32⟩ : BufTy).Contents (Elt Ideal)) (x18 : (⟨S65536x512, .f32⟩ : BufTy).Contents (Elt Ideal)) (b : Fin 1024) (n : Fin 65536) :
    val_main_v37 (F := Ideal) x5 x18 (ix2 b n)
      = Ideal.exp (Cert.Retrieval.sc x5 x18 b n - Cert.Retrieval.Mx x5 x18 b) := by
  rw [val_main_v37_apply, val_main_v36_apply, val_main_v35_apply, val_main_v34_apply, score, idx_row_max, rowmax]
  rfl

/-- The row's normaliser. -/
theorem rowsum (x5 : (⟨S1024x512, .f32⟩ : BufTy).Contents (Elt Ideal)) (x18 : (⟨S65536x512, .f32⟩ : BufTy).Contents (Elt Ideal)) (b : Fin 1024) :
    val_main_v38 (F := Ideal) x5 x18 (ix1 b) = Cert.Retrieval.Lx x5 x18 b := by
  rw [val_main_v38_apply, val_main_cst_5_apply]
  simp only [idx_sum_slot, expo, Ideal.ofBits_def, Ideal.ofBits_zero_f32]
  rfl

/-- The retrieved memory at (b, h). -/
theorem memory_at (x5 : (⟨S1024x512, .f32⟩ : BufTy).Contents (Elt Ideal)) (x18 x19 : (⟨S65536x512, .f32⟩ : BufTy).Contents (Elt Ideal)) (b : Fin 1024) (h : Fin 512) :
    val_main_v42 (F := Ideal) x5 x18 x19 (ix2 b h) = Cert.Retrieval.mt x5 x18 x19 b h := by
  rw [val_main_v42_apply]
  unfold Cert.Retrieval.mt
  refine Finset.sum_congr rfl fun n _ => ?_
  rw [idx_read_l, idx_read_r, val_main_v41_apply, val_main_v40_apply, val_main_v39_apply, idx_row_sum, expo, rowsum]
  rfl

/-- The retrieved memory as an array. -/
theorem memory_eq (x5 : (⟨S1024x512, .f32⟩ : BufTy).Contents (Elt Ideal)) (x18 x19 : (⟨S65536x512, .f32⟩ : BufTy).Contents (Elt Ideal)) :
    val_main_v42 (F := Ideal) x5 x18 x19 = Cert.Retrieval.mtArr x5 x18 x19 :=
  funext fun i => (congrArg (val_main_v42 (F := Ideal) x5 x18 x19) (eq_ix2 i)).trans (memory_at x5 x18 x19 (i 0) (i 1))

end Cert.ReferenceIdeal.RefValue

end
-- ==== Proof.RefRun.lean ====
/-
  The reference's run with every result named: on every device it ends with the policy logits, the value estimate and
  the new hidden and cell states at the recurrent cell (RefTail) applied to the argument arrays, to the joined input
  row and to the specification's memory read (RetrievalSpec), with the encoder's output as fifth result and the
  twenty arguments unchanged. It is the generated run with the four composed terms rewritten by the cell's equations
  and the memory read rewritten, entry by entry, to the softmax read.
-/
import proofs.«160366_j14869176778798_2_alg».proof.Proof.Gen.ReferenceIdeal.Run
import proofs.«160366_j14869176778798_2_alg».proof.Proof.RefTailEq
import proofs.«160366_j14869176778798_2_alg».proof.Proof.RefMemory

noncomputable section

namespace Cert.ReferenceIdeal.RefValue

open Cert.ReferenceIdeal Cert.ReferenceIdeal.Gen Idealize.ShloMosaic Idealize.ShloMosaic.TcCoe Idealize.SL.Sem Idealize.ShloMosaic.StableHlo

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97) = tailLogits (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19)))
      ∧ r.2.mem ((c.tc : Thread nD τ).loc main_v102) = tailValue (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19)))
      ∧ r.2.mem ((c.tc : Thread nD τ).loc main_v103) = tailH (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19)))
      ∧ r.2.mem ((c.tc : Thread nD τ).loc main_v104) = tailC (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19)))
      ∧ r.2.mem ((c.tc : Thread nD τ).loc main_v11) = featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) := by
  refine (θ_run defs _ _).mono (fun r h c => ?_) (Cert.ReferenceIdeal.Value.run (F := Ideal) m ρ)
  obtain ⟨h0, h1, h2, h3, h4, hargs⟩ := h c
  exact ⟨h0.trans ((logits_eq m c).trans (by rw [memory_eq])), h1.trans ((value_eq m c).trans (by rw [memory_eq])),
    h2.trans ((hidden_eq m c).trans (by rw [memory_eq])), h3.trans ((cell_eq m c).trans (by rw [memory_eq])), h4, hargs⟩

end Cert.ReferenceIdeal.RefValue

end
-- ==== Proof.Assembly.lean ====
/-
  The two programs end with equal results.

  Both runs are stated with the same five terms of the argument arrays: the recurrent cell (RefTail) applied to the
  arguments, to the joined input row and to the specification's memory read (RetrievalSpec), and the encoder's
  output. The kernel's run at those terms is the hypothesis; the reference's run at them is RefRun, read at a memory
  that agrees with the kernel's on the twenty arguments.
-/
import proofs.«160366_j14869176778798_2_alg».proof.Defs
import proofs.«160366_j14869176778798_2_alg».proof.Proof.Gen.KernelIdeal
import proofs.«160366_j14869176778798_2_alg».proof.Proof.Gen.ReferenceIdeal
import proofs.«160366_j14869176778798_2_alg».proof.Proof.Gen.Pre_finite_inputs
import proofs.«160366_j14869176778798_2_alg».proof.Proof.RefRun

noncomputable section

namespace Cert.Proof.Assembly

open Idealize.ShloMosaic Idealize.ShloMosaic.TcCoe Idealize.SL.Sem
open Cert.ReferenceIdeal.RefValue (featsOf xtOf tailLogits tailValue tailH tailC)

/-- The kernel's run with its five results named, as KernelRun proves it from the frame run. -/
def KernelEnds (m : (ℓ : Loc Cert.KernelIdeal.nD Cert.KernelIdeal.τ Cert.KernelIdeal.sig) → Buf (Elt Ideal) ℓ)
    (ρ : Dev Cert.KernelIdeal.nD → PrngReg) : Prop :=
  θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v103) = tailLogits (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (xtOf (featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Retrieval.mtArr (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
      ∧ r.2.mem ((c.tc : Thread Cert.KernelIdeal.nD Cert.KernelIdeal.τ).loc Cert.KernelIdeal.main_v108) = tailValue (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (xtOf (featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Retrieval.mtArr (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
      ∧ r.2.mem ((c.tc : Thread Cert.KernelIdeal.nD Cert.KernelIdeal.τ).loc Cert.KernelIdeal.main_v109) = tailH (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (xtOf (featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Retrieval.mtArr (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
      ∧ r.2.mem ((c.tc : Thread Cert.KernelIdeal.nD Cert.KernelIdeal.τ).loc Cert.KernelIdeal.main_v110) = tailC (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (xtOf (featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Retrieval.mtArr (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
      ∧ r.2.mem ((c.tc : Thread Cert.KernelIdeal.nD Cert.KernelIdeal.τ).loc Cert.KernelIdeal.main_v11) = featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)

/-- From the kernel's run at the named results, under the precondition, to the claim that the two programs end with
    equal results. -/
theorem algebraic_of (hk : ∀ m ρ, Cert.Pre_KernelIdeal m → KernelEnds m ρ) : Cert.algebraic_KernelIdeal_ReferenceIdeal := by
  intro m ρ m' ρ' hpre hagree
  refine ⟨fun c => tailLogits (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (xtOf (featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Retrieval.mtArr (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))), fun c => tailValue (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (xtOf (featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Retrieval.mtArr (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))), fun c => tailH (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (xtOf (featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Retrieval.mtArr (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))), fun c => tailC (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (xtOf (featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (Cert.Retrieval.mtArr (m ((c.tc : Thread Cert.KernelIdeal.nD Cert.KernelIdeal.τ).loc Cert.KernelIdeal.main_arg5)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))), fun c => featsOf (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), hk m ρ hpre, ?_⟩
  refine (θ_run Cert.ReferenceIdeal.defs _ _).mono (fun r h c => ?_) (Cert.ReferenceIdeal.RefValue.run_spec m' ρ')
  obtain ⟨a0, a1, a2, a3, a4, a5, a6, a7, a8, a9, a10, a11, a12, a13, a14, a15, a16, a17, a18, a19⟩ := hagree c
  obtain ⟨h0, h1, h2, h3, h4, hargs⟩ := h c
  rw [a3, a4, a10, a11, a12, a13, a14, a15, a0, a6, a7, a8, a9, a1, a2, a5, a18, a19] at h0
  rw [a3, a4, a10, a11, a12, a13, a16, a17, a0, a6, a7, a8, a9, a1, a2, a5, a18, a19] at h1
  rw [a3, a4, a10, a11, a12, a13, a0, a6, a7, a8, a9, a1, a2, a5, a18, a19] at h2
  rw [a3, a4, a10, a11, a12, a13, a0, a6, a7, a8, a9, a1, a2, a5, a18, a19] at h3
  rw [a0, a6, a7, a8, a9] at h4
  exact ⟨h0, h1, h2, h3, h4, hargs⟩

end Cert.Proof.Assembly

end
-- ==== Proof.FrameKernelIdeal.Blocks.lean ====
/-
  The windows' blocks, read at an index.

  The query window and the window of the queries' squared norms hold their whole arrays at every grid point (block
  index zero on both axes); the keys' and the values' windows hold, at position t of the 128, rows 512 t … 512 t + 511
  of their arrays (block index t on the row axis: the two halves of the memory follow one another); the three result
  windows hold the block of the half t / 64.
-/
import proofs.«160366_j14869176778798_2_alg».proof.Proof.FrameKernelIdeal.Setup
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps in closed form, decided once over the grid. -/
theorem idx_facts : ∀ t : Fin cfg0.N,
    (win0_0.index t 0 = 0 ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val / 64 ∧ win0_4.index t 1 = 0 ∧ win0_4.index t 2 = 0)
    ∧ (win0_5.index t 0 = t.val / 64 ∧ win0_5.index t 1 = 0 ∧ win0_5.index t 2 = 0)
    ∧ (win0_6.index t 0 = t.val / 64 ∧ win0_6.index t 1 = 0 ∧ win0_6.index t 2 = 0) :=
  (by decide +kernel : ∀ t : Fin grid0.N,
    (win0_0.index t 0 = 0 ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val / 64 ∧ win0_4.index t 1 = 0 ∧ win0_4.index t 2 = 0)
    ∧ (win0_5.index t 0 = t.val / 64 ∧ win0_5.index t 1 = 0 ∧ win0_5.index t 2 = 0)
    ∧ (win0_6.index t 0 = t.val / 64 ∧ win0_6.index t 1 = 0 ∧ win0_6.index t 2 = 0))

/-- The tile of keys at position `t`: rows 512 t … of the keys. -/
theorem iblk2_apply (c : Dev nD) (t : Fin cfg0.N) (r k : Fin 512) (n : Fin 65536) (hn : n.val = 512 * t.val + r.val) :
    (iblk m c 2 t : Vec F S512x512 .f32) (ix2 r k) = (m ((c : Thread nD τ).loc main_arg18) : S65536x512.Idx → Elt F .f32) (ix2 n k) := by
  have hi := (idx_facts t).2.2.1
  unfold iblk
  rw [View.read_apply]
  show V m c main_arg18 _ = m (c.tc.loc main_arg18) _
  rw [V_arg m c main_arg18 (by decide)]
  refine congrArg _ ?_
  funext a
  apply Fin.ext
  match a with
  | ⟨0, _⟩ => show win0_2.index t 0 * 512 + 1 * r.val = n.val; rw [hi.1, hn]; omega
  | ⟨1, _⟩ => show win0_2.index t 1 * 512 + 1 * k.val = k.val; rw [hi.2]; omega

/-- The tile of values at position `t`: rows 512 t … of the values. -/
theorem iblk3_apply (c : Dev nD) (t : Fin cfg0.N) (r k : Fin 512) (n : Fin 65536) (hn : n.val = 512 * t.val + r.val) :
    (iblk m c 3 t : Vec F S512x512 .f32) (ix2 r k) = (m ((c : Thread nD τ).loc main_arg19) : S65536x512.Idx → Elt F .f32) (ix2 n k) := by
  have hi := (idx_facts t).2.2.2.1
  unfold iblk
  rw [View.read_apply]
  show V m c main_arg19 _ = m (c.tc.loc main_arg19) _
  rw [V_arg m c main_arg19 (by decide)]
  refine congrArg _ ?_
  funext a
  apply Fin.ext
  match a with
  | ⟨0, _⟩ => show win0_3.index t 0 * 512 + 1 * r.val = n.val; rw [hi.1, hn]; omega
  | ⟨1, _⟩ => show win0_3.index t 1 * 512 + 1 * k.val = k.val; rw [hi.2]; omega

/-- The query window holds its whole array at every position. -/
theorem iblk0_eq (c : Dev nD) (t : Fin cfg0.N) :
    (iblk m c 0 t : Vec F S1024x512 .bf16) = (V m c main_v16 : S1024x512.Idx → Elt F .bf16) := by
  have hi := (idx_facts t).1
  funext y
  unfold iblk
  rw [View.read_apply]
  show V m c main_v16 _ = V m c main_v16 y
  refine congrArg _ ?_
  funext a
  apply Fin.ext
  match a with
  | ⟨0, _⟩ => show win0_0.index t 0 * 1024 + 1 * (y 0).val = (y 0).val; rw [hi.1]; omega
  | ⟨1, _⟩ => show win0_0.index t 1 * 512 + 1 * (y 1).val = (y 1).val; rw [hi.2]; omega

/-- So does the window of the queries' squared norms. -/
theorem iblk1_eq (c : Dev nD) (t : Fin cfg0.N) :
    (iblk m c 1 t : Vec F S1024x1 .f32) = (V m c main_v15 : S1024x1.Idx → Elt F .f32) := by
  have hi := (idx_facts t).2.1
  funext y
  unfold iblk
  rw [View.read_apply]
  show V m c main_v15 _ = V m c main_v15 y
  refine congrArg _ ?_
  funext a
  apply Fin.ext
  match a with
  | ⟨0, _⟩ => show win0_1.index t 0 * 1024 + 1 * (y 0).val = (y 0).val; rw [hi.1]; omega
  | ⟨1, _⟩ => show win0_1.index t 1 * 1 + 1 * (y 1).val = (y 1).val; rw [hi.2]; omega

end Cert.KernelIdeal.Fr

end
-- ==== Proof.FrameKernelIdeal.Arrays.lean ====
/-
  The three result arrays after the run.

  Result window w's block index is the half (t / 64) and it is written back at the last tile of each half only, so the
  two write-backs (positions 63 and 127) cover the [2, 1024, ·] array, and the array ends holding, in half h, what the
  last tile of half h stored.
-/
import proofs.«160366_j14869176778798_2_alg».proof.Proof.FrameKernelIdeal.Frame
import proofs.«160366_j14869176778798_2_alg».proof.Proof.FrameKernelIdeal.Blocks

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- No result block is clipped: at every position its extent is the block's. -/
theorem xs_facts : ∀ t : Fin cfg0.N,
    (win0_4.xsize (grid0.coords t) 0 = 1 ∧ win0_4.xsize (grid0.coords t) 1 = 1024 ∧ win0_4.xsize (grid0.coords t) 2 = 512)
    ∧ (win0_5.xsize (grid0.coords t) 0 = 1 ∧ win0_5.xsize (grid0.coords t) 1 = 1024 ∧ win0_5.xsize (grid0.coords t) 2 = 1)
    ∧ (win0_6.xsize (grid0.coords t) 0 = 1 ∧ win0_6.xsize (grid0.coords t) 1 = 1024 ∧ win0_6.xsize (grid0.coords t) 2 = 1) :=
  (by decide +kernel : ∀ t : Fin grid0.N,
    (win0_4.xsize (grid0.coords t) 0 = 1 ∧ win0_4.xsize (grid0.coords t) 1 = 1024 ∧ win0_4.xsize (grid0.coords t) 2 = 512)
    ∧ (win0_5.xsize (grid0.coords t) 0 = 1 ∧ win0_5.xsize (grid0.coords t) 1 = 1024 ∧ win0_5.xsize (grid0.coords t) 2 = 1)
    ∧ (win0_6.xsize (grid0.coords t) 0 = 1 ∧ win0_6.xsize (grid0.coords t) 1 = 1024 ∧ win0_6.xsize (grid0.coords t) 2 = 1))

/-- The position of the last tile of half `h`. -/
def lastOf (h : Fin 2) : Fin cfg0.N := ⟨64 * h.val + 63, by have hN : cfg0.N = 128 := N_0; have := h.isLt; omega⟩

theorem lastOf_val (h : Fin 2) : (lastOf h).val = 64 * h.val + 63 := rfl

/-- Result array 0 after the run: in half `i 0`, what that half's last tile stored. -/
def G4 (c : Dev nD) : S2x1024x512.Idx → Elt F .f32 :=
  fun i => (outAt m c (lastOf ⟨(i 0).val, (i 0).isLt⟩)).1 (ix3 (0 : Fin 1) ⟨(i 1).val, (i 1).isLt⟩ ⟨(i 2).val, (i 2).isLt⟩)

theorem G4_at (c : Dev nD) (t : Fin cfg0.N) (h63 : t.val % 64 = 63) (i : S2x1024x512.Idx) (hi : (i 0).val = t.val / 64) :
    G4 m c i = (outAt m c t).1 (ix3 (0 : Fin 1) ⟨(i 1).val, (i 1).isLt⟩ ⟨(i 2).val, (i 2).isLt⟩) := by
  unfold G4
  have ht : lastOf ⟨(i 0).val, (i 0).isLt⟩ = t := Fin.ext (by show 64 * (i 0).val + 63 = t.val; omega)
  rw [ht]

/-- The write-back at the last tile of a half writes that half's block of it. -/
theorem flushed_eq4 (c : Dev nD) (t : Fin cfg0.N) (hf : (cfg0.win 4).flush t = true) :
    (dats m 0 c).flushed 4 t = ((cfg0.win 4).blk t).view.read (Elt F) (G4 m c) := by
  have h63 : t.val % 64 = 63 := (flush0_4 t).mp hf
  have hi := (idx_facts t).2.2.2.2.1
  have hx := (xs_facts t).1
  funext y
  show (cfg0.win 4).cut (grid0.coords t) ((dats m 0 c).after 4 t) y = _
  rw [after0_4, View.read_apply]
  have hy0 : (y 0).val < 1 := lt_of_lt_of_eq (y 0).isLt hx.1
  rw [G4_at m c t h63 _ (by show win0_4.index t 0 * 1 + 1 * (y 0).val = t.val / 64; rw [hi.1]; omega)]
  refine congrArg _ ?_
  funext a
  apply Fin.ext
  match a with
  | ⟨0, _⟩ => show (y 0).val = 0; omega
  | ⟨1, _⟩ => show (y 1).val = win0_4.index t 1 * 1024 + 1 * (y 1).val; rw [hi.2.1]; omega
  | ⟨2, _⟩ => show (y 2).val = win0_4.index t 2 * 512 + 1 * (y 2).val; rw [hi.2.2]; omega

/-- So the array ends holding it: the two write-backs cover the array. -/
theorem final4 (c : Dev nD) : (dats m 0 c).arrAt 4 cfg0.N = G4 m c :=
  (dats m 0 c).arrAt_eq_of_cover 4 (G4 m c) (flushed_eq4 m c) fun i => by
    have h0 : (i 0 : Nat) < 2 := (i 0).isLt
    have h1 : (i 1 : Nat) < 1024 := (i 1).isLt
    have h2 : (i 2 : Nat) < 512 := (i 2).isLt
    refine ⟨lastOf ⟨(i 0).val, h0⟩, (flush0_4 _).mpr (by rw [lastOf_val]; show (64 * (i 0).val + 63) % 64 = 63; omega), ?_⟩
    have hi := (idx_facts (lastOf ⟨(i 0).val, h0⟩)).2.2.2.2.1
    have hx := (xs_facts (lastOf ⟨(i 0).val, h0⟩)).1
    show i ∈ ((View.whole main_v17_0).slice (win0_4.rect (lastOf ⟨(i 0).val, h0⟩))).set
    rw [View.set_slice_whole, Rect.mem_set_unit]
    intro a
    match a with
    | ⟨0, _⟩ => show win0_4.index (lastOf ⟨(i 0).val, h0⟩) 0 * 1 ≤ (i 0 : Nat) ∧ (i 0 : Nat) < win0_4.index (lastOf ⟨(i 0).val, h0⟩) 0 * 1 + win0_4.xsize (grid0.coords (lastOf ⟨(i 0).val, h0⟩)) 0
                rw [hi.1, hx.1, lastOf_val]; show (64 * (i 0).val + 63) / 64 * 1 ≤ (i 0 : Nat) ∧ (i 0 : Nat) < (64 * (i 0).val + 63) / 64 * 1 + 1; omega
    | ⟨1, _⟩ => show win0_4.index (lastOf ⟨(i 0).val, h0⟩) 1 * 1024 ≤ (i 1 : Nat) ∧ (i 1 : Nat) < win0_4.index (lastOf ⟨(i 0).val, h0⟩) 1 * 1024 + win0_4.xsize (grid0.coords (lastOf ⟨(i 0).val, h0⟩)) 1
                rw [hi.2.1, hx.2.1]; omega
    | ⟨2, _⟩ => show win0_4.index (lastOf ⟨(i 0).val, h0⟩) 2 * 512 ≤ (i 2 : Nat) ∧ (i 2 : Nat) < win0_4.index (lastOf ⟨(i 0).val, h0⟩) 2 * 512 + win0_4.xsize (grid0.coords (lastOf ⟨(i 0).val, h0⟩)) 2
                rw [hi.2.2, hx.2.2]; omega

/-- Result array 1 after the run: in half `i 0`, what that half's last tile stored. -/
def G5 (c : Dev nD) : S2x1024x1.Idx → Elt F .f32 :=
  fun i => (outAt m c (lastOf ⟨(i 0).val, (i 0).isLt⟩)).2.1 (ix3 (0 : Fin 1) ⟨(i 1).val, (i 1).isLt⟩ ⟨(i 2).val, (i 2).isLt⟩)

theorem G5_at (c : Dev nD) (t : Fin cfg0.N) (h63 : t.val % 64 = 63) (i : S2x1024x1.Idx) (hi : (i 0).val = t.val / 64) :
    G5 m c i = (outAt m c t).2.1 (ix3 (0 : Fin 1) ⟨(i 1).val, (i 1).isLt⟩ ⟨(i 2).val, (i 2).isLt⟩) := by
  unfold G5
  have ht : lastOf ⟨(i 0).val, (i 0).isLt⟩ = t := Fin.ext (by show 64 * (i 0).val + 63 = t.val; omega)
  rw [ht]

/-- The write-back at the last tile of a half writes that half's block of it. -/
theorem flushed_eq5 (c : Dev nD) (t : Fin cfg0.N) (hf : (cfg0.win 5).flush t = true) :
    (dats m 0 c).flushed 5 t = ((cfg0.win 5).blk t).view.read (Elt F) (G5 m c) := by
  have h63 : t.val % 64 = 63 := (flush0_5 t).mp hf
  have hi := (idx_facts t).2.2.2.2.2.1
  have hx := (xs_facts t).2.1
  funext y
  show (cfg0.win 5).cut (grid0.coords t) ((dats m 0 c).after 5 t) y = _
  rw [after0_5, View.read_apply]
  have hy0 : (y 0).val < 1 := lt_of_lt_of_eq (y 0).isLt hx.1
  rw [G5_at m c t h63 _ (by show win0_5.index t 0 * 1 + 1 * (y 0).val = t.val / 64; rw [hi.1]; omega)]
  refine congrArg _ ?_
  funext a
  apply Fin.ext
  match a with
  | ⟨0, _⟩ => show (y 0).val = 0; omega
  | ⟨1, _⟩ => show (y 1).val = win0_5.index t 1 * 1024 + 1 * (y 1).val; rw [hi.2.1]; omega
  | ⟨2, _⟩ => show (y 2).val = win0_5.index t 2 * 1 + 1 * (y 2).val; rw [hi.2.2]; omega

/-- So the array ends holding it: the two write-backs cover the array. -/
theorem final5 (c : Dev nD) : (dats m 0 c).arrAt 5 cfg0.N = G5 m c :=
  (dats m 0 c).arrAt_eq_of_cover 5 (G5 m c) (flushed_eq5 m c) fun i => by
    have h0 : (i 0 : Nat) < 2 := (i 0).isLt
    have h1 : (i 1 : Nat) < 1024 := (i 1).isLt
    have h2 : (i 2 : Nat) < 1 := (i 2).isLt
    refine ⟨lastOf ⟨(i 0).val, h0⟩, (flush0_5 _).mpr (by rw [lastOf_val]; show (64 * (i 0).val + 63) % 64 = 63; omega), ?_⟩
    have hi := (idx_facts (lastOf ⟨(i 0).val, h0⟩)).2.2.2.2.2.1
    have hx := (xs_facts (lastOf ⟨(i 0).val, h0⟩)).2.1
    show i ∈ ((View.whole main_v17_1).slice (win0_5.rect (lastOf ⟨(i 0).val, h0⟩))).set
    rw [View.set_slice_whole, Rect.mem_set_unit]
    intro a
    match a with
    | ⟨0, _⟩ => show win0_5.index (lastOf ⟨(i 0).val, h0⟩) 0 * 1 ≤ (i 0 : Nat) ∧ (i 0 : Nat) < win0_5.index (lastOf ⟨(i 0).val, h0⟩) 0 * 1 + win0_5.xsize (grid0.coords (lastOf ⟨(i 0).val, h0⟩)) 0
                rw [hi.1, hx.1, lastOf_val]; show (64 * (i 0).val + 63) / 64 * 1 ≤ (i 0 : Nat) ∧ (i 0 : Nat) < (64 * (i 0).val + 63) / 64 * 1 + 1; omega
    | ⟨1, _⟩ => show win0_5.index (lastOf ⟨(i 0).val, h0⟩) 1 * 1024 ≤ (i 1 : Nat) ∧ (i 1 : Nat) < win0_5.index (lastOf ⟨(i 0).val, h0⟩) 1 * 1024 + win0_5.xsize (grid0.coords (lastOf ⟨(i 0).val, h0⟩)) 1
                rw [hi.2.1, hx.2.1]; omega
    | ⟨2, _⟩ => show win0_5.index (lastOf ⟨(i 0).val, h0⟩) 2 * 1 ≤ (i 2 : Nat) ∧ (i 2 : Nat) < win0_5.index (lastOf ⟨(i 0).val, h0⟩) 2 * 1 + win0_5.xsize (grid0.coords (lastOf ⟨(i 0).val, h0⟩)) 2
                rw [hi.2.2, hx.2.2]; omega

/-- Result array 2 after the run: in half `i 0`, what that half's last tile stored. -/
def G6 (c : Dev nD) : S2x1024x1.Idx → Elt F .f32 :=
  fun i => (outAt m c (lastOf ⟨(i 0).val, (i 0).isLt⟩)).2.2 (ix3 (0 : Fin 1) ⟨(i 1).val, (i 1).isLt⟩ ⟨(i 2).val, (i 2).isLt⟩)

theorem G6_at (c : Dev nD) (t : Fin cfg0.N) (h63 : t.val % 64 = 63) (i : S2x1024x1.Idx) (hi : (i 0).val = t.val / 64) :
    G6 m c i = (outAt m c t).2.2 (ix3 (0 : Fin 1) ⟨(i 1).val, (i 1).isLt⟩ ⟨(i 2).val, (i 2).isLt⟩) := by
  unfold G6
  have ht : lastOf ⟨(i 0).val, (i 0).isLt⟩ = t := Fin.ext (by show 64 * (i 0).val + 63 = t.val; omega)
  rw [ht]

/-- The write-back at the last tile of a half writes that half's block of it. -/
theorem flushed_eq6 (c : Dev nD) (t : Fin cfg0.N) (hf : (cfg0.win 6).flush t = true) :
    (dats m 0 c).flushed 6 t = ((cfg0.win 6).blk t).view.read (Elt F) (G6 m c) := by
  have h63 : t.val % 64 = 63 := (flush0_6 t).mp hf
  have hi := (idx_facts t).2.2.2.2.2.2
  have hx := (xs_facts t).2.2
  funext y
  show (cfg0.win 6).cut (grid0.coords t) ((dats m 0 c).after 6 t) y = _
  rw [after0_6, View.read_apply]
  have hy0 : (y 0).val < 1 := lt_of_lt_of_eq (y 0).isLt hx.1
  rw [G6_at m c t h63 _ (by show win0_6.index t 0 * 1 + 1 * (y 0).val = t.val / 64; rw [hi.1]; omega)]
  refine congrArg _ ?_
  funext a
  apply Fin.ext
  match a with
  | ⟨0, _⟩ => show (y 0).val = 0; omega
  | ⟨1, _⟩ => show (y 1).val = win0_6.index t 1 * 1024 + 1 * (y 1).val; rw [hi.2.1]; omega
  | ⟨2, _⟩ => show (y 2).val = win0_6.index t 2 * 1 + 1 * (y 2).val; rw [hi.2.2]; omega

/-- So the array ends holding it: the two write-backs cover the array. -/
theorem final6 (c : Dev nD) : (dats m 0 c).arrAt 6 cfg0.N = G6 m c :=
  (dats m 0 c).arrAt_eq_of_cover 6 (G6 m c) (flushed_eq6 m c) fun i => by
    have h0 : (i 0 : Nat) < 2 := (i 0).isLt
    have h1 : (i 1 : Nat) < 1024 := (i 1).isLt
    have h2 : (i 2 : Nat) < 1 := (i 2).isLt
    refine ⟨lastOf ⟨(i 0).val, h0⟩, (flush0_6 _).mpr (by rw [lastOf_val]; show (64 * (i 0).val + 63) % 64 = 63; omega), ?_⟩
    have hi := (idx_facts (lastOf ⟨(i 0).val, h0⟩)).2.2.2.2.2.2
    have hx := (xs_facts (lastOf ⟨(i 0).val, h0⟩)).2.2
    show i ∈ ((View.whole main_v17_2).slice (win0_6.rect (lastOf ⟨(i 0).val, h0⟩))).set
    rw [View.set_slice_whole, Rect.mem_set_unit]
    intro a
    match a with
    | ⟨0, _⟩ => show win0_6.index (lastOf ⟨(i 0).val, h0⟩) 0 * 1 ≤ (i 0 : Nat) ∧ (i 0 : Nat) < win0_6.index (lastOf ⟨(i 0).val, h0⟩) 0 * 1 + win0_6.xsize (grid0.coords (lastOf ⟨(i 0).val, h0⟩)) 0
                rw [hi.1, hx.1, lastOf_val]; show (64 * (i 0).val + 63) / 64 * 1 ≤ (i 0 : Nat) ∧ (i 0 : Nat) < (64 * (i 0).val + 63) / 64 * 1 + 1; omega
    | ⟨1, _⟩ => show win0_6.index (lastOf ⟨(i 0).val, h0⟩) 1 * 1024 ≤ (i 1 : Nat) ∧ (i 1 : Nat) < win0_6.index (lastOf ⟨(i 0).val, h0⟩) 1 * 1024 + win0_6.xsize (grid0.coords (lastOf ⟨(i 0).val, h0⟩)) 1
                rw [hi.2.1, hx.2.1]; omega
    | ⟨2, _⟩ => show win0_6.index (lastOf ⟨(i 0).val, h0⟩) 2 * 1 ≤ (i 2 : Nat) ∧ (i 2 : Nat) < win0_6.index (lastOf ⟨(i 0).val, h0⟩) 2 * 1 + win0_6.xsize (grid0.coords (lastOf ⟨(i 0).val, h0⟩)) 2
                rw [hi.2.2, hx.2.2]; omega

end Cert.KernelIdeal.Fr

end
-- ==== Proof.KernelMerge.lean ====
/-
  The kernel leaves the memory read in two halves — each half's unnormalised read, its running maximum and its
  running sum, over half of the slots — and the host joins them: with m the larger of the two maxima and
  e_j = exp (m_j − m), the read is (e_0 · acc_0 + e_1 · acc_1) / (e_0 · l_0 + e_1 · l_1). The definitions are the
  host's own operations on the three stacked arrays; the last lemmas read them at a row and a column.
-/
import proofs.«160366_j14869176778798_2_alg».proof.Proof.Gen.KernelIdeal
import Idealize.ShloMosaic.PureOps.Ideal
import Idealize.ShloMosaic.Lib.Pipeline.Value
import Idealize.ShloMosaic.Lib.ValueIdx
import Idealize.ShloMosaic.Lib.ValueLayout

noncomputable section

namespace Cert.KernelIdeal.TailValue

open Cert.KernelIdeal Cert.KernelIdeal.Gen Idealize.ShloMosaic Idealize.ShloMosaic.ValueIdx

/-! ## Joining the two halves of the memory read -/

/-- The larger of the two halves' running maxima, per row. -/
def mergeMax (mm : FVec Ideal S2x1024x1 .f32) : FVec Ideal S1024x1 .f32 :=
  maximumf (shapeCast _ (extractStridedSlice S1x1024x1 ![0, 0, 0] mm slices_S2x1024x1_S1x1024x1_0_0_0) shapeCasts_S1x1024x1_S1024x1) (shapeCast _ (extractStridedSlice S1x1024x1 ![1, 0, 0] mm slices_S2x1024x1_S1x1024x1_1_0_0) shapeCasts_S1x1024x1_S1024x1)

/-- The factor that rescales half `0`: the exponential of its maximum minus the joint maximum. -/
def mergeScale0 (mm : FVec Ideal S2x1024x1 .f32) : FVec Ideal S1024x1 .f32 :=
  Host.exp (subf (shapeCast _ (extractStridedSlice S1x1024x1 ![0, 0, 0] mm slices_S2x1024x1_S1x1024x1_0_0_0) shapeCasts_S1x1024x1_S1024x1) (mergeMax mm))

/-- The factor that rescales half `1`. -/
def mergeScale1 (mm : FVec Ideal S2x1024x1 .f32) : FVec Ideal S1024x1 .f32 :=
  Host.exp (subf (shapeCast _ (extractStridedSlice S1x1024x1 ![1, 0, 0] mm slices_S2x1024x1_S1x1024x1_1_0_0) shapeCasts_S1x1024x1_S1024x1) (mergeMax mm))

/-- The joint normaliser: the two halves' sums, each rescaled to the joint maximum. -/
def mergeSum (mm ll : FVec Ideal S2x1024x1 .f32) : FVec Ideal S1024x1 .f32 :=
  addf (mulf (mergeScale0 mm) (shapeCast _ (extractStridedSlice S1x1024x1 ![0, 0, 0] ll slices_S2x1024x1_S1x1024x1_0_0_0) shapeCasts_S1x1024x1_S1024x1)) (mulf (mergeScale1 mm) (shapeCast _ (extractStridedSlice S1x1024x1 ![1, 0, 0] ll slices_S2x1024x1_S1x1024x1_1_0_0) shapeCasts_S1x1024x1_S1024x1))

/-- The memory read from its two halves: the rescaled unnormalised reads added, divided by the joint normaliser. -/
def mergeOf (acc : FVec Ideal S2x1024x512 .f32) (mm ll : FVec Ideal S2x1024x1 .f32) : FVec Ideal S1024x512 .f32 :=
  Host.divf (addf (mulf (broadcastInDim S1024x512 ![0, 1] bcast_S1024x1_S1024x512_0_1 (mergeScale0 mm)) (shapeCast _ (extractStridedSlice S1x1024x512 ![0, 0, 0] acc slices_S2x1024x512_S1x1024x512_0_0_0) shapeCasts_S1x1024x512_S1024x512)) (mulf (broadcastInDim S1024x512 ![0, 1] bcast_S1024x1_S1024x512_0_1 (mergeScale1 mm)) (shapeCast _ (extractStridedSlice S1x1024x512 ![1, 0, 0] acc slices_S2x1024x512_S1x1024x512_1_0_0) shapeCasts_S1x1024x512_S1024x512))) (broadcastInDim S1024x512 ![0, 1] bcast_S1024x1_S1024x512_0_1 (mergeSum mm ll))

/-! ## The pieces at an index -/

/-- Half `k` of a stacked column array, with the stacking axis dropped, at row `b`. -/
theorem half_col (o : Nat) (k : Fin 2) (hk : k.val = o) (x : FVec Ideal S2x1024x1 .f32) (hs : S2x1024x1.Slices ![o, 0, 0] S1x1024x1)
    (hc : S1x1024x1.ShapeCasts S1024x1) (b : Fin 1024) :
    shapeCast S1024x1 (extractStridedSlice S1x1024x1 ![o, 0, 0] x hs) hc (ix2 b (0 : Fin 1)) = x (ix3 k b (0 : Fin 1)) :=
  (shapeCast_1ab_ab_apply _ hc b 0).trans (extractStridedSlice_apply _ x hs _ (ix3 k b (0 : Fin 1)) fun a => by
    match a with
    | ⟨0, _⟩ => show k.val = o + 0; omega
    | ⟨1, _⟩ => show b.val = 0 + b.val; omega
    | ⟨2, _⟩ => show 0 = 0 + 0; rfl)

/-- Half `k` of the stacked read, with the stacking axis dropped, at (b, h). -/
theorem half_read (o : Nat) (k : Fin 2) (hk : k.val = o) (x : FVec Ideal S2x1024x512 .f32) (hs : S2x1024x512.Slices ![o, 0, 0] S1x1024x512)
    (hc : S1x1024x512.ShapeCasts S1024x512) (b : Fin 1024) (h : Fin 512) :
    shapeCast S1024x512 (extractStridedSlice S1x1024x512 ![o, 0, 0] x hs) hc (ix2 b h) = x (ix3 k b h) :=
  (shapeCast_1ab_ab_apply _ hc b h).trans (extractStridedSlice_apply _ x hs _ (ix3 k b h) fun a => by
    match a with
    | ⟨0, _⟩ => show k.val = o + 0; omega
    | ⟨1, _⟩ => show b.val = 0 + b.val; omega
    | ⟨2, _⟩ => show h.val = 0 + h.val; omega)

/-- A column repeated along the 512 columns, at (b, h). -/
theorem col_bcast (v : FVec Ideal S1024x1 .f32) (hb : S1024x1.BroadcastsInDim S1024x512 (![0, 1] : Fin 2 → Fin S1024x512.rank))
    (b : Fin 1024) (h : Fin 512) :
    broadcastInDim S1024x512 ![0, 1] hb v (ix2 b h) = v (ix2 b (0 : Fin 1)) :=
  broadcastInDim_apply _ hb v _ (ix2 b (0 : Fin 1)) fun a => by
    match a with
    | ⟨0, _⟩ => show b.val = if (1024 : Nat) = 1 then 0 else b.val; rw [if_neg (by decide)]
    | ⟨1, _⟩ => show 0 = if (1 : Nat) = 1 then 0 else h.val; rw [if_pos rfl]

/-! ## The join at an index -/

theorem hostExp_apply {s : Shape} {φ : FTy} (v : FVec Ideal s φ) (i : s.Idx) : Host.exp v i = Ideal.exp (v i) := rfl

theorem hostDivf_apply {s : Shape} {φ : FTy} (u v : FVec Ideal s φ) (i : s.Idx) : Host.divf u v i = Ideal.div (u i) (v i) := rfl

theorem mergeMax_apply (mm : FVec Ideal S2x1024x1 .f32) (b : Fin 1024) :
    mergeMax mm (ix2 b (0 : Fin 1)) = max (mm (ix3 (0 : Fin 2) b (0 : Fin 1))) (mm (ix3 (1 : Fin 2) b (0 : Fin 1))) := by
  unfold mergeMax
  rw [maximumf_apply, half_col 0 0 rfl, half_col 1 1 rfl]

theorem mergeScale0_apply (mm : FVec Ideal S2x1024x1 .f32) (b : Fin 1024) :
    mergeScale0 mm (ix2 b (0 : Fin 1))
      = Ideal.exp (mm (ix3 (0 : Fin 2) b (0 : Fin 1)) - max (mm (ix3 (0 : Fin 2) b (0 : Fin 1))) (mm (ix3 (1 : Fin 2) b (0 : Fin 1)))) := by
  unfold mergeScale0
  rw [hostExp_apply, subf_apply, half_col 0 0 rfl, mergeMax_apply]

theorem mergeScale1_apply (mm : FVec Ideal S2x1024x1 .f32) (b : Fin 1024) :
    mergeScale1 mm (ix2 b (0 : Fin 1))
      = Ideal.exp (mm (ix3 (1 : Fin 2) b (0 : Fin 1)) - max (mm (ix3 (0 : Fin 2) b (0 : Fin 1))) (mm (ix3 (1 : Fin 2) b (0 : Fin 1)))) := by
  unfold mergeScale1
  rw [hostExp_apply, subf_apply, half_col 1 1 rfl, mergeMax_apply]

theorem mergeSum_apply (mm ll : FVec Ideal S2x1024x1 .f32) (b : Fin 1024) :
    mergeSum mm ll (ix2 b (0 : Fin 1))
      = mergeScale0 mm (ix2 b (0 : Fin 1)) * ll (ix3 (0 : Fin 2) b (0 : Fin 1))
        + mergeScale1 mm (ix2 b (0 : Fin 1)) * ll (ix3 (1 : Fin 2) b (0 : Fin 1)) := by
  unfold mergeSum
  rw [addf_apply, mulf_apply, mulf_apply, half_col 0 0 rfl, half_col 1 1 rfl]

/-- The joined read at (b, h), over the two halves' scale factors. -/
theorem mergeOf_apply (acc : FVec Ideal S2x1024x512 .f32) (mm ll : FVec Ideal S2x1024x1 .f32) (b : Fin 1024) (h : Fin 512) :
    mergeOf acc mm ll (ix2 b h)
      = Ideal.div (mergeScale0 mm (ix2 b (0 : Fin 1)) * acc (ix3 (0 : Fin 2) b h) + mergeScale1 mm (ix2 b (0 : Fin 1)) * acc (ix3 (1 : Fin 2) b h))
          (mergeScale0 mm (ix2 b (0 : Fin 1)) * ll (ix3 (0 : Fin 2) b (0 : Fin 1)) + mergeScale1 mm (ix2 b (0 : Fin 1)) * ll (ix3 (1 : Fin 2) b (0 : Fin 1))) := by
  unfold mergeOf
  rw [hostDivf_apply, addf_apply, mulf_apply, mulf_apply, col_bcast, col_bcast, col_bcast, half_read 0 0 rfl, half_read 1 1 rfl, mergeSum_apply]

/-- The joined read at (b, h), written out over the two halves' maxima, sums and reads. -/
theorem mergeOf_at (acc : FVec Ideal S2x1024x512 .f32) (mm ll : FVec Ideal S2x1024x1 .f32) (b : Fin 1024) (h : Fin 512) :
    mergeOf acc mm ll (ix2 b h)
      = Ideal.div
          (Ideal.exp (mm (ix3 (0 : Fin 2) b (0 : Fin 1)) - max (mm (ix3 (0 : Fin 2) b (0 : Fin 1))) (mm (ix3 (1 : Fin 2) b (0 : Fin 1)))) * acc (ix3 (0 : Fin 2) b h)
            + Ideal.exp (mm (ix3 (1 : Fin 2) b (0 : Fin 1)) - max (mm (ix3 (0 : Fin 2) b (0 : Fin 1))) (mm (ix3 (1 : Fin 2) b (0 : Fin 1)))) * acc (ix3 (1 : Fin 2) b h))
          (Ideal.exp (mm (ix3 (0 : Fin 2) b (0 : Fin 1)) - max (mm (ix3 (0 : Fin 2) b (0 : Fin 1))) (mm (ix3 (1 : Fin 2) b (0 : Fin 1)))) * ll (ix3 (0 : Fin 2) b (0 : Fin 1))
            + Ideal.exp (mm (ix3 (1 : Fin 2) b (0 : Fin 1)) - max (mm (ix3 (0 : Fin 2) b (0 : Fin 1))) (mm (ix3 (1 : Fin 2) b (0 : Fin 1)))) * ll (ix3 (1 : Fin 2) b (0 : Fin 1))) := by
  rw [mergeOf_apply, mergeScale0_apply, mergeScale1_apply]

end Cert.KernelIdeal.TailValue

end
-- ==== Proof.KernelTail.lean ====
/-
  The host side of the kernel's program, read on arbitrary buffer contents: what its operations before the
  kernel leave (the encoder's output, the joined input row, the cue in the kernel's format and the cues' squared
  norms), and what its operations after the kernel compute from the kernel's three stacked outputs — the two halves
  joined (KernelMerge) and then the recurrent cell, which is the reference's cell operation for operation (RefTail).
-/
import proofs.«160366_j14869176778798_2_alg».proof.Proof.Gen.KernelIdeal.Launch
import proofs.«160366_j14869176778798_2_alg».proof.Proof.KernelMerge
import proofs.«160366_j14869176778798_2_alg».proof.Proof.RefTail
import proofs.«160366_j14869176778798_2_alg».proof.Proof.RetrievalSpec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.TailValue

open Cert.KernelIdeal Cert.KernelIdeal.Gen Idealize.ShloMosaic Idealize.ShloMosaic.TcCoe Idealize.SL.Sem Idealize.ShloMosaic.StableHlo
open Idealize.ShloMosaic.ValueIdx
open Cert.ReferenceIdeal.RefValue (featsOf xtOf tailLogits tailValue tailH tailC)

/-! ## The host operations after the kernel, on any contents -/

set_option maxHeartbeats 8000000 in
/-- The four recurrent results of the kernel's program, from any contents `W` of the device's buffers: the cell
    applied to the arguments, to the joined input row and to the two halves joined. One pass reads all four. -/
theorem after_tail (W : Valuation τ sig (Elt Ideal)) :
    StableHlo.after (hostOps1 (F := Ideal)) W (Proc.devRef .tc main_v103) = tailLogits (W (Proc.devRef .tc main_arg3)) (W (Proc.devRef .tc main_arg4)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_v12)) (mergeOf (W (Proc.devRef .tc main_v17_0)) (W (Proc.devRef .tc main_v17_1)) (W (Proc.devRef .tc main_v17_2)))
    ∧ StableHlo.after (hostOps1 (F := Ideal)) W (Proc.devRef .tc main_v108) = tailValue (W (Proc.devRef .tc main_arg3)) (W (Proc.devRef .tc main_arg4)) (W (Proc.devRef .tc main_arg10)) (W (Proc.devRef .tc main_arg11)) (W (Proc.devRef .tc main_arg12)) (W (Proc.devRef .tc main_arg13)) (W (Proc.devRef .tc main_arg16)) (W (Proc.devRef .tc main_arg17)) (W (Proc.devRef .tc main_v12)) (mergeOf (W (Proc.devRef .tc main_v17_0)) (W (Proc.devRef .tc main_v17_1)) (W (Proc.devRef .tc main_v17_2)))
    ∧ StableHlo.after (hostOps1 (F := Ideal)) W (Proc.devRef .tc main_v109) = tailH (W (Proc.devRef .tc main_arg3)) (W (Proc.devRef .tc main_arg4)) (W (Proc.devRef .tc main_arg10)) (W (Proc.devRef .tc main_arg11)) (W (Proc.devRef .tc main_arg12)) (W (Proc.devRef .tc main_arg13)) (W (Proc.devRef .tc main_v12)) (mergeOf (W (Proc.devRef .tc main_v17_0)) (W (Proc.devRef .tc main_v17_1)) (W (Proc.devRef .tc main_v17_2)))
    ∧ StableHlo.after (hostOps1 (F := Ideal)) W (Proc.devRef .tc main_v110) = tailC (W (Proc.devRef .tc main_arg3)) (W (Proc.devRef .tc main_arg4)) (W (Proc.devRef .tc main_arg10)) (W (Proc.devRef .tc main_arg11)) (W (Proc.devRef .tc main_arg12)) (W (Proc.devRef .tc main_arg13)) (W (Proc.devRef .tc main_v12)) (mergeOf (W (Proc.devRef .tc main_v17_0)) (W (Proc.devRef .tc main_v17_1)) (W (Proc.devRef .tc main_v17_2))) := by
  after_results_simp
  exact ⟨rfl, rfl, rfl, rfl⟩

theorem after_logits (W : Valuation τ sig (Elt Ideal)) :
    StableHlo.after (hostOps1 (F := Ideal)) W (Proc.devRef .tc main_v103) = tailLogits (W (Proc.devRef .tc main_arg3)) (W (Proc.devRef .tc main_arg4)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_v12)) (mergeOf (W (Proc.devRef .tc main_v17_0)) (W (Proc.devRef .tc main_v17_1)) (W (Proc.devRef .tc main_v17_2))) := (after_tail W).1

theorem after_value (W : Valuation τ sig (Elt Ideal)) :
    StableHlo.after (hostOps1 (F := Ideal)) W (Proc.devRef .tc main_v108) = tailValue (W (Proc.devRef .tc main_arg3)) (W (Proc.devRef .tc main_arg4)) (W (Proc.devRef .tc main_arg10)) (W (Proc.devRef .tc main_arg11)) (W (Proc.devRef .tc main_arg12)) (W (Proc.devRef .tc main_arg13)) (W (Proc.devRef .tc main_arg16)) (W (Proc.devRef .tc main_arg17)) (W (Proc.devRef .tc main_v12)) (mergeOf (W (Proc.devRef .tc main_v17_0)) (W (Proc.devRef .tc main_v17_1)) (W (Proc.devRef .tc main_v17_2))) := (after_tail W).2.1

theorem after_hidden (W : Valuation τ sig (Elt Ideal)) :
    StableHlo.after (hostOps1 (F := Ideal)) W (Proc.devRef .tc main_v109) = tailH (W (Proc.devRef .tc main_arg3)) (W (Proc.devRef .tc main_arg4)) (W (Proc.devRef .tc main_arg10)) (W (Proc.devRef .tc main_arg11)) (W (Proc.devRef .tc main_arg12)) (W (Proc.devRef .tc main_arg13)) (W (Proc.devRef .tc main_v12)) (mergeOf (W (Proc.devRef .tc main_v17_0)) (W (Proc.devRef .tc main_v17_1)) (W (Proc.devRef .tc main_v17_2))) := (after_tail W).2.2.1

theorem after_cell (W : Valuation τ sig (Elt Ideal)) :
    StableHlo.after (hostOps1 (F := Ideal)) W (Proc.devRef .tc main_v110) = tailC (W (Proc.devRef .tc main_arg3)) (W (Proc.devRef .tc main_arg4)) (W (Proc.devRef .tc main_arg10)) (W (Proc.devRef .tc main_arg11)) (W (Proc.devRef .tc main_arg12)) (W (Proc.devRef .tc main_arg13)) (W (Proc.devRef .tc main_v12)) (mergeOf (W (Proc.devRef .tc main_v17_0)) (W (Proc.devRef .tc main_v17_1)) (W (Proc.devRef .tc main_v17_2))) := (after_tail W).2.2.2

/-! ## The host operations before the kernel, on any contents -/

/-- The encoder's output, the joined input row, the cue as the kernel receives it and the cues' squared norms as
    a column, from any contents `W0`. -/
theorem pre_values (W0 : Valuation τ sig (Elt Ideal)) :
    StableHlo.after (List.flatten [hostOps0, hostOps0_1, hostOps0_2, hostOps0_3, hostOps0_4] : List (HloOp τ sig (Elt Ideal))) W0 (Proc.devRef .tc main_v11) = featsOf (W0 (Proc.devRef .tc main_arg0)) (W0 (Proc.devRef .tc main_arg6)) (W0 (Proc.devRef .tc main_arg7)) (W0 (Proc.devRef .tc main_arg8)) (W0 (Proc.devRef .tc main_arg9))
    ∧ StableHlo.after (List.flatten [hostOps0, hostOps0_1, hostOps0_2, hostOps0_3, hostOps0_4] : List (HloOp τ sig (Elt Ideal))) W0 (Proc.devRef .tc main_v12) = xtOf (featsOf (W0 (Proc.devRef .tc main_arg0)) (W0 (Proc.devRef .tc main_arg6)) (W0 (Proc.devRef .tc main_arg7)) (W0 (Proc.devRef .tc main_arg8)) (W0 (Proc.devRef .tc main_arg9))) (W0 (Proc.devRef .tc main_arg1)) (W0 (Proc.devRef .tc main_arg2))
    ∧ (StableHlo.after (List.flatten [hostOps0, hostOps0_1, hostOps0_2, hostOps0_3, hostOps0_4] : List (HloOp τ sig (Elt Ideal))) W0 (Proc.devRef .tc main_v16) : S1024x512.Idx → EReal) = (W0 (Proc.devRef .tc main_arg5))
    ∧ StableHlo.after (List.flatten [hostOps0, hostOps0_1, hostOps0_2, hostOps0_3, hostOps0_4] : List (HloOp τ sig (Elt Ideal))) W0 (Proc.devRef .tc main_v15) = broadcastInDim S1024x1 ![0] bcast_S1024_S1024x1_0 (Host.reduceAdd (mulf (W0 (Proc.devRef .tc main_arg5)) (W0 (Proc.devRef .tc main_arg5))) (constant (F := Ideal) S_ .f32 0x00000000#32) reducesTo_S1024x512_S1024_d1 h_S_) := by
  refine ⟨?_, ?_, ?_, ?_⟩ <;>
    (simp only [hostOps0, hostOps0_1, hostOps0_2, hostOps0_3, hostOps0_4, StableHlo.TRef.nullary, StableHlo.TRef.unary, StableHlo.TRef.binary, List.flatten_cons, List.flatten_nil, List.append_nil, List.cons_append, List.nil_append]
     after_results_simp) <;> rfl

/-- The cues' squared norms as a column, at row `b`: the zero the sum starts from plus the sum of the row's squares. -/
theorem cue_norm_col (x5 : FVec Ideal S1024x512 .f32) (b : Fin 1024) :
    broadcastInDim S1024x1 ![0] bcast_S1024_S1024x1_0 (Host.reduceAdd (mulf x5 x5) (constant (F := Ideal) S_ .f32 0x00000000#32) reducesTo_S1024x512_S1024_d1 h_S_) (ix2 b (0 : Fin 1))
      = Cert.Retrieval.cn x5 b := by
  refine (broadcastInDim_apply _ bcast_S1024_S1024x1_0 _ _ (ix1 b) (fun a => match a with
    | ⟨0, _⟩ => by show b.val = if (1024 : Nat) = 1 then 0 else b.val; rw [if_neg (by decide)])).trans ?_
  simp only [Host.reduceAdd, Ideal.hostReduceAdd_def]
  rw [Ideal.hostReduceAdd_single reducesTo_S1024x512_S1024_d1 (by decide)]
  unfold Cert.Retrieval.cn
  refine congrArg₂ (· + ·) Ideal.ofBits_zero_f32 (Finset.sum_congr rfl fun k _ => ?_)
  exact congrArg (fun i => x5 i * x5 i) (funext fun a => Fin.ext (by match a with | ⟨0, _⟩ => rfl | ⟨1, _⟩ => rfl))

/-- The column the kernel receives as the cues' squared norms, at row `b`, is the specification's squared norm. -/
theorem pre_cue_norm (W0 : Valuation τ sig (Elt Ideal)) (b : Fin 1024) :
    (StableHlo.after (List.flatten [hostOps0, hostOps0_1, hostOps0_2, hostOps0_3, hostOps0_4] : List (HloOp τ sig (Elt Ideal))) W0 (Proc.devRef .tc main_v15) : S1024x1.Idx → EReal) (ix2 b (0 : Fin 1)) = Cert.Retrieval.cn (W0 (Proc.devRef .tc main_arg5)) b := by
  rw [(pre_values W0).2.2.2]
  exact cue_norm_col _ b

end Cert.KernelIdeal.TailValue

end
-- ==== Proof.KernelRun.lean ====
/-
  From the frame run of the kernel's program to its five results.

  The frame run ends with the three stacked result arrays at what the last tile of each half stored (Arrays) and
  every other buffer at what the host operations after the kernel compute from the contents at the kernel's exit.
  Those contents are the launch memory after the host operations before the kernel, with the three result arrays
  replaced. Reading the later operations there (KernelTail) gives the recurrent cell applied to the argument
  arrays, to the joined input row and to the two halves joined; under the hypothesis that the two halves joined are
  the specification's memory read, the five results are the ones the reference is shown to end with.
-/
import proofs.«160366_j14869176778798_2_alg».proof.Proof.FrameKernelIdeal.Arrays
import proofs.«160366_j14869176778798_2_alg».proof.Proof.KernelTail
import proofs.«160366_j14869176778798_2_alg».proof.Proof.RetrievalSpec

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat Cfg Window)
open Cert.ReferenceIdeal.RefValue (featsOf xtOf tailLogits tailValue tailH tailC)
open Cert.KernelIdeal.TailValue (mergeOf)

variable (m : (ℓ : Loc nD τ sig) → Buf (Elt Ideal) ℓ) (ρ : Dev nD → PrngReg)

/-! ## The contents at the kernel's exit -/

/-- Core `c`'s buffer contents when the kernel is left: the pipeline's arrays as the run leaves them, every other
    buffer as it was when the kernel was entered. -/
def exitW (c : Dev nD) : Valuation τ sig (Elt Ideal) :=
  Pipeline.withArrays (cfgs 0).spec c (Fr.V0 m c) fun w => (Fr.dats m 0 c).arrAt w (cfgs 0).N

/-- What the later operations leave in buffer `b` is their fold from the exit contents. -/
theorem afterTail_eq (c : Dev nD) (b : Ref sig .tc) :
    Pipeline.afterTail₀ cfgs (Fr.dats m) 0 (Fr.V0 m) [hostOps1] c b
      = StableHlo.after (hostOps1 (F := Ideal)) (exitW m c) (Proc.devRef .tc b) := by
  unfold Pipeline.afterTail₀ exitW
  simp only [List.flatten_cons, List.flatten_nil, List.append_nil]

/-- A buffer that is no array of the pipeline is, at the exit, as at the entry. -/
theorem exitW_of_ne (c : Dev nD) (b : Ref sig .tc) (hne : ∀ w, Pipeline.arrRef spec0 w ≠ b) :
    exitW m c (Proc.devRef .tc b) = Fr.V0 m c (Proc.devRef .tc b) :=
  Pipeline.withArrays_of_ne _ c (Fr.V0 m c) _ b hne

/-- An argument array that is no array of the pipeline is, at the exit, as launched. -/
theorem exitW_arg (c : Dev nD) (b : Ref sig .tc) (hb : b ∈ Fr.argRefs) (hne : ∀ w, Pipeline.arrRef spec0 w ≠ b) :
    exitW m c (Proc.devRef .tc b) = m ((c.tc : Thread nD τ).loc b) :=
  (exitW_of_ne m c b hne).trans (Fr.V_arg m c b hb)

/-- The three stacked result arrays at the exit. -/
theorem exitW_acc (c : Dev nD) : exitW m c (Proc.devRef .tc main_v17_0) = Fr.G4 m c :=
  (Pipeline.withArrays_arr spec0 launch0.win.arr_inj c _ _ 4).trans (Fr.final4 m c)
theorem exitW_max (c : Dev nD) : exitW m c (Proc.devRef .tc main_v17_1) = Fr.G5 m c :=
  (Pipeline.withArrays_arr spec0 launch0.win.arr_inj c _ _ 5).trans (Fr.final5 m c)
theorem exitW_sum (c : Dev nD) : exitW m c (Proc.devRef .tc main_v17_2) = Fr.G6 m c :=
  (Pipeline.withArrays_arr spec0 launch0.win.arr_inj c _ _ 6).trans (Fr.final6 m c)

/-- The encoder's output at the exit. -/
theorem exitW_feats (c : Dev nD) : exitW m c (Proc.devRef .tc main_v11) = featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) :=
  (exitW_of_ne m c main_v11 (by decide)).trans (TailValue.pre_values (fun b => m (c, b))).1

/-- The joined input row at the exit. -/
theorem exitW_row (c : Dev nD) : exitW m c (Proc.devRef .tc main_v12) = (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) :=
  (exitW_of_ne m c main_v12 (by decide)).trans (TailValue.pre_values (fun b => m (c, b))).2.1

/-! ## The five results -/

/-- The later operations do not write the encoder's output. -/
theorem after_feats (W : Valuation τ sig (Elt Ideal)) :
    StableHlo.after (hostOps1 (F := Ideal)) W (Proc.devRef .tc main_v11) = W (Proc.devRef .tc main_v11) := by
  after_results_simp

section Results

variable (c : Dev nD)
  (hm : mergeOf (Fr.G4 (F := Ideal) m c) (Fr.G5 m c) (Fr.G6 m c) = (Cert.Retrieval.mtArr (m ((c.tc : Thread nD τ).loc main_arg5)) (m ((c.tc : Thread nD τ).loc main_arg18)) (m ((c.tc : Thread nD τ).loc main_arg19))))

include hm

theorem res_logits : Pipeline.afterTail₀ cfgs (Fr.dats m) 0 (Fr.V0 m) [hostOps1] c main_v103 = tailLogits (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19))) := by
  rw [afterTail_eq, TailValue.after_logits, exitW_arg m c main_arg3 (by decide) (by decide), exitW_arg m c main_arg4 (by decide) (by decide), exitW_arg m c main_arg10 (by decide) (by decide), exitW_arg m c main_arg11 (by decide) (by decide), exitW_arg m c main_arg12 (by decide) (by decide), exitW_arg m c main_arg13 (by decide) (by decide), exitW_arg m c main_arg14 (by decide) (by decide), exitW_arg m c main_arg15 (by decide) (by decide), exitW_row, exitW_acc, exitW_max, exitW_sum, hm]

theorem res_value : Pipeline.afterTail₀ cfgs (Fr.dats m) 0 (Fr.V0 m) [hostOps1] c main_v108 = tailValue (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19))) := by
  rw [afterTail_eq, TailValue.after_value, exitW_arg m c main_arg3 (by decide) (by decide), exitW_arg m c main_arg4 (by decide) (by decide), exitW_arg m c main_arg10 (by decide) (by decide), exitW_arg m c main_arg11 (by decide) (by decide), exitW_arg m c main_arg12 (by decide) (by decide), exitW_arg m c main_arg13 (by decide) (by decide), exitW_arg m c main_arg16 (by decide) (by decide), exitW_arg m c main_arg17 (by decide) (by decide), exitW_row, exitW_acc, exitW_max, exitW_sum, hm]

theorem res_hidden : Pipeline.afterTail₀ cfgs (Fr.dats m) 0 (Fr.V0 m) [hostOps1] c main_v109 = tailH (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19))) := by
  rw [afterTail_eq, TailValue.after_hidden, exitW_arg m c main_arg3 (by decide) (by decide), exitW_arg m c main_arg4 (by decide) (by decide), exitW_arg m c main_arg10 (by decide) (by decide), exitW_arg m c main_arg11 (by decide) (by decide), exitW_arg m c main_arg12 (by decide) (by decide), exitW_arg m c main_arg13 (by decide) (by decide), exitW_row, exitW_acc, exitW_max, exitW_sum, hm]

theorem res_cell : Pipeline.afterTail₀ cfgs (Fr.dats m) 0 (Fr.V0 m) [hostOps1] c main_v110 = tailC (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19))) := by
  rw [afterTail_eq, TailValue.after_cell, exitW_arg m c main_arg3 (by decide) (by decide), exitW_arg m c main_arg4 (by decide) (by decide), exitW_arg m c main_arg10 (by decide) (by decide), exitW_arg m c main_arg11 (by decide) (by decide), exitW_arg m c main_arg12 (by decide) (by decide), exitW_arg m c main_arg13 (by decide) (by decide), exitW_row, exitW_acc, exitW_max, exitW_sum, hm]

end Results

theorem res_feats (c : Dev nD) : Pipeline.afterTail₀ cfgs (Fr.dats m) 0 (Fr.V0 m) [hostOps1] c main_v11 = featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9)) := by
  rw [afterTail_eq, after_feats, exitW_feats]

/-! ## The run -/

/-- Every weakly fair execution of the kernel's program terminates with the four recurrent results at the cell
    applied to the arguments, the joined input row and the specification's memory read, the encoder's output as
    fifth result and the twenty arguments unchanged — given that the two halves the kernel leaves join to that read. -/
theorem kernel_run_of
    (hmerge : ∀ c : Dev nD, mergeOf (Fr.G4 (F := Ideal) m c) (Fr.G5 m c) (Fr.G6 m c) = (Cert.Retrieval.mtArr (m ((c.tc : Thread nD τ).loc main_arg5)) (m ((c.tc : Thread nD τ).loc main_arg18)) (m ((c.tc : Thread nD τ).loc main_arg19)))) :
    θ_run (defs (F := Ideal)) (onTc (τ := τ) (main (F := Ideal))) ⟨m, fun _ => 0, ρ⟩ fun r => ∀ c : Dev nD,
      r.2.mem ((c.tc : Thread nD τ).loc main_v103) = tailLogits (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19)))
      ∧ r.2.mem ((c.tc : Thread nD τ).loc main_v108) = tailValue (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19)))
      ∧ r.2.mem ((c.tc : Thread nD τ).loc main_v109) = tailH (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19)))
      ∧ r.2.mem ((c.tc : Thread nD τ).loc main_v110) = tailC (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (xtOf (featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2))) (Cert.Retrieval.mtArr (m ((c.tc : Thread nD τ).loc main_arg5)) (m ((c.tc : Thread nD τ).loc main_arg18)) (m ((c.tc : Thread nD τ).loc main_arg19)))
      ∧ r.2.mem ((c.tc : Thread nD τ).loc main_v11) = featsOf (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => ⟨
    ((h c).2 main_v103 (Pipeline.mem_restRefs_of main_v103 (by decide) (by decide))).trans (res_logits m c (hmerge c)),
    ((h c).2 main_v108 (Pipeline.mem_restRefs_of main_v108 (by decide) (by decide))).trans (res_value m c (hmerge c)),
    ((h c).2 main_v109 (Pipeline.mem_restRefs_of main_v109 (by decide) (by decide))).trans (res_hidden m c (hmerge c)),
    ((h c).2 main_v110 (Pipeline.mem_restRefs_of main_v110 (by decide) (by decide))).trans (res_cell m c (hmerge c)),
    ((h c).2 main_v11 (Pipeline.mem_restRefs_of main_v11 (by decide) (by decide))).trans (res_feats m c),
    ((h c).2 main_arg0 (Pipeline.mem_restRefs_of main_arg0 (by decide) (by decide))).trans (Fr.W_arg m (Fr.dats m) c main_arg0 (by decide) (by decide)),
    ((h c).2 main_arg1 (Pipeline.mem_restRefs_of main_arg1 (by decide) (by decide))).trans (Fr.W_arg m (Fr.dats m) c main_arg1 (by decide) (by decide)),
    ((h c).2 main_arg2 (Pipeline.mem_restRefs_of main_arg2 (by decide) (by decide))).trans (Fr.W_arg m (Fr.dats m) c main_arg2 (by decide) (by decide)),
    ((h c).2 main_arg3 (Pipeline.mem_restRefs_of main_arg3 (by decide) (by decide))).trans (Fr.W_arg m (Fr.dats m) c main_arg3 (by decide) (by decide)),
    ((h c).2 main_arg4 (Pipeline.mem_restRefs_of main_arg4 (by decide) (by decide))).trans (Fr.W_arg m (Fr.dats m) c main_arg4 (by decide) (by decide)),
    ((h c).2 main_arg5 (Pipeline.mem_restRefs_of main_arg5 (by decide) (by decide))).trans (Fr.W_arg m (Fr.dats m) c main_arg5 (by decide) (by decide)),
    ((h c).2 main_arg6 (Pipeline.mem_restRefs_of main_arg6 (by decide) (by decide))).trans (Fr.W_arg m (Fr.dats m) c main_arg6 (by decide) (by decide)),
    ((h c).2 main_arg7 (Pipeline.mem_restRefs_of main_arg7 (by decide) (by decide))).trans (Fr.W_arg m (Fr.dats m) c main_arg7 (by decide) (by decide)),
    ((h c).2 main_arg8 (Pipeline.mem_restRefs_of main_arg8 (by decide) (by decide))).trans (Fr.W_arg m (Fr.dats m) c main_arg8 (by decide) (by decide)),
    ((h c).2 main_arg9 (Pipeline.mem_restRefs_of main_arg9 (by decide) (by decide))).trans (Fr.W_arg m (Fr.dats m) c main_arg9 (by decide) (by decide)),
    ((h c).2 main_arg10 (Pipeline.mem_restRefs_of main_arg10 (by decide) (by decide))).trans (Fr.W_arg m (Fr.dats m) c main_arg10 (by decide) (by decide)),
    ((h c).2 main_arg11 (Pipeline.mem_restRefs_of main_arg11 (by decide) (by decide))).trans (Fr.W_arg m (Fr.dats m) c main_arg11 (by decide) (by decide)),
    ((h c).2 main_arg12 (Pipeline.mem_restRefs_of main_arg12 (by decide) (by decide))).trans (Fr.W_arg m (Fr.dats m) c main_arg12 (by decide) (by decide)),
    ((h c).2 main_arg13 (Pipeline.mem_restRefs_of main_arg13 (by decide) (by decide))).trans (Fr.W_arg m (Fr.dats m) c main_arg13 (by decide) (by decide)),
    ((h c).2 main_arg14 (Pipeline.mem_restRefs_of main_arg14 (by decide) (by decide))).trans (Fr.W_arg m (Fr.dats m) c main_arg14 (by decide) (by decide)),
    ((h c).2 main_arg15 (Pipeline.mem_restRefs_of main_arg15 (by decide) (by decide))).trans (Fr.W_arg m (Fr.dats m) c main_arg15 (by decide) (by decide)),
    ((h c).2 main_arg16 (Pipeline.mem_restRefs_of main_arg16 (by decide) (by decide))).trans (Fr.W_arg m (Fr.dats m) c main_arg16 (by decide) (by decide)),
    ((h c).2 main_arg17 (Pipeline.mem_restRefs_of main_arg17 (by decide) (by decide))).trans (Fr.W_arg m (Fr.dats m) c main_arg17 (by decide) (by decide)),
    ((h c).1 2).trans (((Fr.dats m 0 c).arrAt_in 2 rfl _).trans ((Fr.A_eq m c 2).trans (Fr.V_arg m c main_arg18 (by decide)))),
    ((h c).1 3).trans (((Fr.dats m 0 c).arrAt_in 3 rfl _).trans ((Fr.A_eq m c 3).trans (Fr.V_arg m c main_arg19 (by decide))))⟩)
    (Fr.run_main (F := Ideal) m ρ)

end Cert.KernelIdeal.Val

end
-- ==== Proof.FrameKernelIdeal.Pieces.lean ====
/-
  What the body's stores leave, as values: one update of the three running quantities.

  At every grid point the body computes, from the query block, the queries' squared norms, the tile of keys and the
  tile of values, and from the earlier running maximum, denominator and numerator (the reset values at the first tile
  of a half: minus infinity, zero, zero), the new maximum, denominator and numerator; the last store into each of the
  three scratch buffers covers it, so what the buffers hold afterwards is exactly that update.  At a last tile the
  three result blocks receive the updated numerator, maximum and denominator.
-/
import proofs.«160366_j14869176778798_2_alg».proof.Proof.FrameKernelIdeal.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- One update of (maximum, denominator, numerator) from the four blocks and the earlier triple. -/
def upd (x0 : Vec F S1024x512 .bf16) (x1 : Vec F S1024x1 .f32) (x2 : Vec F S512x512 .f32) (x3 : Vec F S512x512 .f32) (mo lo : Vec F S1024x1 .f32) (ao : Vec F S1024x512 .f32) : Vec F S1024x1 .f32 × Vec F S1024x1 .f32 × Vec F S1024x512 .f32 :=
  (k0_pay3 (k0_pay11 x2 x0 x1 mo),
   k0_pay1 (k0_pay12 x2 x0 x1 mo mo) (k0_pay13 x2 x0 x1 mo) lo,
   k0_pay2 (k0_pay12 x2 x0 x1 mo mo) (k0_pay13 x2 x0 x1 mo) x3 ao)

set_option maxHeartbeats 4000000 in
/-- A middle tile leaves the update of what it found. -/
theorem scrMid_eq (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : ¬cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) :
    scrMid c i arg2 harg2 arg3 harg3 arg4 harg4 arg5 harg5 arg6 harg6 arg7 harg7 arg8 harg8 arg9 harg9 arg10 harg10 arg11 harg11 hc0 hc1 x0 x1 x2 x3 xs0 xs1 xs2 = upd x0 x1 x2 x3 xs0 xs1 xs2 := by
  unfold scrMid upd
  refine Prod.ext ?_ (Prod.ext ?_ ?_) <;> dsimp only
  · rw [View.read_writes_eq_canon _ _ _ (scoverMid_0 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunMid
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)
  · rw [View.read_writes_eq_canon _ _ _ (scoverMid_1 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunMid
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)
  · rw [View.read_writes_eq_canon _ _ _ (scoverMid_2 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunMid
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)

set_option maxHeartbeats 4000000 in
/-- So does a last tile. -/
theorem scrLast_eq (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) :
    scrLast c i arg2 harg2 arg3 harg3 arg4 harg4 arg5 harg5 arg6 harg6 arg7 harg7 arg8 harg8 arg9 harg9 arg10 harg10 arg11 harg11 hc0 hc1 x0 x1 x2 x3 xs0 xs1 xs2 = upd x0 x1 x2 x3 xs0 xs1 xs2 := by
  unfold scrLast upd
  refine Prod.ext ?_ (Prod.ext ?_ ?_) <;> dsimp only
  · rw [View.read_writes_eq_canon _ _ _ (scoverLast_0 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunLast
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)
  · rw [View.read_writes_eq_canon _ _ _ (scoverLast_1 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunLast
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)
  · rw [View.read_writes_eq_canon _ _ _ (scoverLast_2 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunLast
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)

set_option maxHeartbeats 4000000 in
/-- A first tile leaves the update of the reset values. -/
theorem scrFirst_eq (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : cond0_0 i) (hc1 : ¬cond0_1 i) (x0 : Vec F S1024x512 .bf16) (x1 : Vec F S1024x1 .f32) (x2 : Vec F S512x512 .f32) (x3 : Vec F S512x512 .f32) :
    scrFirst c i arg2 harg2 arg3 harg3 arg4 harg4 arg5 harg5 arg6 harg6 arg7 harg7 arg8 harg8 arg9 harg9 arg10 harg10 arg11 harg11 hc0 hc1 x0 x1 x2 x3 = upd x0 x1 x2 x3 (k0_pay7 (F := F)) (k0_pay8 (F := F)) (k0_pay9 (F := F)) := by
  unfold scrFirst upd
  refine Prod.ext ?_ (Prod.ext ?_ ?_) <;> dsimp only
  · rw [View.read_writes_eq_canon _ _ _ (scoverFirst_0 c i arg2 harg2 arg3 harg3 arg4 harg4 arg5 harg5 arg6 harg6 arg7 harg7 arg8 harg8 arg9 harg9 arg10 harg10 arg11 harg11 hc0 hc1 x0 x1 x2 x3)]
    unfold kernelRunFirst
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)
  · rw [View.read_writes_eq_canon _ _ _ (scoverFirst_1 c i arg2 harg2 arg3 harg3 arg4 harg4 arg5 harg5 arg6 harg6 arg7 harg7 arg8 harg8 arg9 harg9 arg10 harg10 arg11 harg11 hc0 hc1 x0 x1 x2 x3)]
    unfold kernelRunFirst
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)
  · rw [View.read_writes_eq_canon _ _ _ (scoverFirst_2 c i arg2 harg2 arg3 harg3 arg4 harg4 arg5 harg5 arg6 harg6 arg7 harg7 arg8 harg8 arg9 harg9 arg10 harg10 arg11 harg11 hc0 hc1 x0 x1 x2 x3)]
    unfold kernelRunFirst
    dsimp only
    sl_unfold_words
    first | rw [View.canon_unit_zero hz2] | rw [View.canon_cons_unit_zero hz2]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)

set_option maxHeartbeats 4000000 in
/-- At a last tile the three result blocks receive the updated numerator, maximum and denominator. -/
theorem outLast_eq (c : Dev nD) (i : grid0.Coords) (arg2 : Memref sig .tc .vmem S1024x512 .bf16) (harg2 : arg2.IsWhole) (arg3 : Memref sig .tc .vmem S1024x1 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x1024x512 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x512 .f32) (harg11 : arg11.IsWhole) (hc0 : ¬cond0_0 i) (hc1 : cond0_1 i) (x0 : Vec F S1024x512 .bf16) (x1 : Vec F S1024x1 .f32) (x2 : Vec F S512x512 .f32) (x3 : Vec F S512x512 .f32) (xs0 : Vec F S1024x1 .f32) (xs1 : Vec F S1024x1 .f32) (xs2 : Vec F S1024x512 .f32) :
    outLast c i arg2 harg2 arg3 harg3 arg4 harg4 arg5 harg5 arg6 harg6 arg7 harg7 arg8 harg8 arg9 harg9 arg10 harg10 arg11 harg11 hc0 hc1 x0 x1 x2 x3 xs0 xs1 xs2
      = (k0_pay4 (upd x0 x1 x2 x3 xs0 xs1 xs2).2.2, k0_pay5 (upd x0 x1 x2 x3 xs0 xs1 xs2).1, k0_pay6 (upd x0 x1 x2 x3 xs0 xs1 xs2).2.1) := by
  unfold outLast upd
  refine Prod.ext ?_ (Prod.ext ?_ ?_) <;> dsimp only
  · rw [View.read_writes_eq_canon _ _ _ (ocoverLast_4 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunLast
    dsimp only
    sl_unfold_words
    first | rw [View.canon_unit_zero hz3] | rw [View.canon_cons_unit_zero hz3]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)
  · rw [View.read_writes_eq_canon _ _ _ (ocoverLast_5 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunLast
    dsimp only
    sl_unfold_words
    first | rw [View.canon_unit_zero hz3] | rw [View.canon_cons_unit_zero hz3]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)
  · rw [View.read_writes_eq_canon _ _ _ (ocoverLast_6 c i arg2 harg2 arg3 harg3 arg4 harg4 arg5 harg5 arg6 harg6 arg7 harg7 arg8 harg8 arg9 harg9 arg10 harg10 arg11 harg11 hc0 hc1 x0 x1 x2 x3 xs0 xs1 xs2)]
    unfold kernelRunLast
    dsimp only
    sl_unfold_words
    first | rw [View.canon_unit_zero hz3] | rw [View.canon_cons_unit_zero hz3]
    (try simp only [View.readCov_unit_zero (S := S1024x1) _ hz2, View.readCov_unit_zero (S := S1024x512) _ hz2, View.readAt_eq_ld, harg2.read_unread, harg3.read_unread, harg4.read_unread, harg5.read_unread, harg9.read_unread, harg10.read_unread, harg11.read_unread,
      View.ld_unit_zero (S := S1024x1) hz2, View.ld_unit_zero (S := S1024x512) hz2, View.ld_unit_zero (S := S512x512) hz2])
    (try rfl)

end Cert.KernelIdeal.Fr

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.PayloadAt.lean ====
/-
  The values the kernel body stores, read at an index, on the extended reals.

  One step of the body takes a tile of 512 keys and 512 values and, for each of the 1024 cues b, updates a running
  maximum m, a normaliser l and an accumulator acc (an online softmax):
      score(b, r)  = 0 − sqrt (max (|cue b|² + |key r|² − 2 · ⟨cue b, key r⟩, 1e-12))
      m'(b)        = max (m(b), max over r of score(b, r))
      corr(b)      = exp (m(b) − m'(b)),      p(b, r) = exp (score(b, r) − m'(b))
      l'(b)        = corr(b) · l(b) + Σ r, p(b, r)
      acc'(b, h)   = corr(b) · acc(b, h) + Σ r, p(b, r) · value(r, h).
  Each theorem below reads one stored value at an index given by coordinates and states it in these terms: the
  pointwise operations read through definitionally; a lane reduction cast back to a column, a transpose, a broadcast
  and a matrix product are each read by one lemma. The constants 2 and 1e-12 stay as binary32 words; the zero word is
  the extended real 0 and the word of minus infinity is ⊥.
-/
import proofs.«160366_j14869176778798_2_alg».proof.Proof.Gen.KernelIdeal.Skeleton
import proofs.«160366_j14869176778798_2_alg».proof.Proof.LibRowLayout
import proofs.«160366_j14869176778798_2_alg».proof.Proof.LibLayerLaws
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAt

open Idealize.ShloMosaic Idealize.ShloMosaic.ValueIdx Cert.KernelIdeal

/-! ## Words -/

/-- The binary32 word of minus infinity denotes the bottom element of the extended reals. -/
theorem ofBits_neg_inf : Ideal.ofBits .f32 0xFF800000#32 = (⊥ : EReal) := by
  simp [Ideal.ofBits, Ideal.ieee]

/-! ## The quantities of one tile -/

/-- The squared norm of key r of the tile: the sum over the lanes of the squares of its entries. -/
def knT (keysT : FVec Ideal S512x512 .f32) (r : Fin 512) : EReal :=
  ∑ k : Fin 512, keysT (ix2 r k) * keysT (ix2 r k)

/-- The inner product of cue b with key r of the tile. -/
def crossT (cueT : FVec Ideal S1024x512 .bf16) (keysT : FVec Ideal S512x512 .f32) (b : Fin 1024) (r : Fin 512) : EReal :=
  ∑ k : Fin 512, cueT (ix2 b k) * keysT (ix2 r k)

/-- The score of cue b against key r of the tile: minus the square root of the squared distance
    (cue norm + key norm − 2 · inner product), the squared distance clamped below by the word of 1e-12. -/
def tileScore (cueT : FVec Ideal S1024x512 .bf16) (cn : FVec Ideal S1024x1 .f32) (keysT : FVec Ideal S512x512 .f32)
    (b : Fin 1024) (r : Fin 512) : EReal :=
  0 - Ideal.sqrt (max ((cn (ix2 b (0 : Fin 1)) + knT keysT r) - Ideal.ofBits .f32 0x40000000#32 * crossT cueT keysT b r)
    (Ideal.ofBits .f32 0x2B8CBCCC#32))

/-- The maximum of row b's scores over the tile's keys, folded from the bottom element. -/
def tm (cueT : FVec Ideal S1024x512 .bf16) (cn : FVec Ideal S1024x1 .f32) (keysT : FVec Ideal S512x512 .f32)
    (b : Fin 1024) : EReal :=
  (Finset.univ : Finset (Fin 512)).fold max ⊥ (fun r => tileScore cueT cn keysT b r)

/-! ## The dimension record of the two matrix products -/

theorem dot_l0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl

theorem dot_l1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q

theorem dot_r0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q

theorem dot_r1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- A product [1024, 512] x [512, 512] into the zero accumulator, read at (p, c): the sum over the inner axis. -/
theorem mm_apply {φ₁ φ₂ : FTy} (lhs : FVec Ideal S1024x512 φ₁) (rhs : FVec Ideal S512x512 φ₂) (p : Fin 1024) (c : Fin 512) :
    matmul dot_S1024x512_S512x512_S1024x512_1_0_0_1_n_n none lhs rhs (constant (F := Ideal) S1024x512 .f32 0x00000000#32) (ix2 p c)
      = ∑ k : Fin 512, lhs (ix2 p k) * rhs (ix2 k c) :=
  (Ideal.matmul_constant_zero_apply dot_S1024x512_S512x512_S1024x512_1_0_0_1_n_n none lhs rhs (ix2 p c)).trans
    (LayerLaws.sum_inner dot_S1024x512_S512x512_S1024x512_1_0_0_1_n_n rfl rfl dot_l0 dot_l1 dot_r0 dot_r1 lhs rhs p c)

/-! ## Rows reduced and written back as a column -/

/-- The lane sum of a [1024, 512] array, cast to a column, read at row b. -/
theorem rowSumCol_apply (v : FVec Ideal S1024x512 .f32) (b : Fin 1024) (z : Fin 1) :
    shapeCast S1024x1 (multiReduction (F := Ideal) .add [1] S1024 v 0x00000000#32 Gen.reduces_S1024x512_S1024 (.inl rfl) rfl)
        Gen.shapeCasts_S1024_S1024x1 (ix2 b z) = ∑ r : Fin 512, v (ix2 b r) :=
  (RowLayout.shapeCast_a_a1_apply _ Gen.shapeCasts_S1024_S1024x1 b z).trans
    (RowLayout.multiReduction_add_row v 0x00000000#32 Gen.reduces_S1024x512_S1024 (.inl rfl) rfl b)

/-- The lane maximum of a [1024, 512] array from minus infinity, cast to a column, read at row b. -/
theorem rowMaxCol_apply (v : FVec Ideal S1024x512 .f32) (b : Fin 1024) (z : Fin 1) :
    shapeCast S1024x1 (multiReduction (F := Ideal) .maximumf [1] S1024 v 0xFF800000#32 Gen.reduces_S1024x512_S1024 (.inl rfl) rfl)
        Gen.shapeCasts_S1024_S1024x1 (ix2 b z) = (Finset.univ : Finset (Fin 512)).fold max ⊥ (fun r => v (ix2 b r)) := by
  refine (RowLayout.shapeCast_a_a1_apply _ Gen.shapeCasts_S1024_S1024x1 b z).trans ?_
  refine (RowLayout.multiReduction_maximumf_row v 0xFF800000#32 Gen.reduces_S1024x512_S1024 (.inl rfl) rfl b).trans ?_
  rw [ofBits_neg_inf]

/-! ## The score -/

/-- The key norms, reduced over the lanes, cast to a column and transposed to a row, read at key r. -/
theorem knRow_apply (keysT : FVec Ideal S512x512 .f32) (r : Fin 512) :
    transpose S1x512 [1, 0]
        (shapeCast S512x1
          (multiReduction (F := Ideal) .add [1] S512 (mulf keysT keysT) 0x00000000#32 Gen.reduces_S512x512_S512 (.inl rfl) rfl)
          Gen.shapeCasts_S512_S512x1)
        Gen.transposes_S512x1_p1_0_S1x512 (ix2 (0 : Fin 1) r) = knT keysT r := by
  refine (transpose_ix2_apply _ Gen.transposes_S512x1_p1_0_S1x512 (0 : Fin 1) r).trans ?_
  refine (RowLayout.shapeCast_a_a1_apply _ Gen.shapeCasts_S512_S512x1 r (0 : Fin 1)).trans ?_
  exact RowLayout.multiReduction_add_row (mulf keysT keysT) 0x00000000#32 Gen.reduces_S512x512_S512 (.inl rfl) rfl r

/-- The product of the cue tile with the transposed keys tile, read at (b, r). -/
theorem cross_apply (cueT : FVec Ideal S1024x512 .bf16) (keysT : FVec Ideal S512x512 .f32) (b : Fin 1024) (r : Fin 512) :
    matmul dot_S1024x512_S512x512_S1024x512_1_0_0_1_n_n none
        (shapeCast S1024x512 cueT Gen.shapeCasts_S1024x512_S1024x512)
        (transpose S512x512 [1, 0] (truncf (F := Ideal) .bf16 keysT Gen.bitsLt_bf16_f32) Gen.transposes_S512x512_p1_0_S512x512)
        (constant (F := Ideal) S1024x512 .f32 0x00000000#32) (ix2 b r) = crossT cueT keysT b r := by
  refine (mm_apply _ _ b r).trans ?_
  refine Finset.sum_congr rfl fun k _ => ?_
  rw [shapeCast_self, transpose_ix2_apply]
  rfl

/-- THE SCORE: the body's subtraction "0 − sqrt(…)" read at (b, r). -/
theorem pay10_apply (cueT : FVec Ideal S1024x512 .bf16) (cn : FVec Ideal S1024x1 .f32) (keysT : FVec Ideal S512x512 .f32)
    (b : Fin 1024) (r : Fin 512) :
    Gen.k0_pay10 (F := Ideal) keysT cueT cn (ix2 b r) = tileScore cueT cn keysT b r := by
  have hX : broadcastTo S1024x512 (shapeCast S1024x1 cn Gen.shapeCasts_S1024x1_S1024x1) Gen.broadcasts_S1024x1_S1024x512 (ix2 b r)
      = cn (ix2 b (0 : Fin 1)) :=
    (RowLayout.broadcastTo_a1_ab_apply _ Gen.broadcasts_S1024x1_S1024x512 b r).trans (congrFun (shapeCast_self cn _) _)
  have hY := (broadcastTo_1b_ab_apply _ Gen.broadcasts_S1x512_S1024x512 b r).trans (knRow_apply keysT r)
  have hZ := cross_apply cueT keysT b r
  unfold tileScore
  rw [← hX, ← hY, ← hZ, ← Ideal.ofBits_zero_f32]
  rfl

/-! ## The running maximum, the correction factor and the weights -/

/-- The new running maximum at row b: the old one against the tile's row maximum. -/
theorem pay11_apply (cueT : FVec Ideal S1024x512 .bf16) (cn : FVec Ideal S1024x1 .f32) (keysT : FVec Ideal S512x512 .f32)
    (mo : FVec Ideal S1024x1 .f32) (b : Fin 1024) (z : Fin 1) :
    Gen.k0_pay11 (F := Ideal) keysT cueT cn mo (ix2 b z) = max (mo (ix2 b z)) (tm cueT cn keysT b) := by
  have hT : shapeCast S1024x1 (multiReduction (F := Ideal) .maximumf [1] S1024 (Gen.k0_pay10 (F := Ideal) keysT cueT cn)
        0xFF800000#32 Gen.reduces_S1024x512_S1024 (.inl rfl) rfl) Gen.shapeCasts_S1024_S1024x1 (ix2 b z) = tm cueT cn keysT b :=
    (rowMaxCol_apply (Gen.k0_pay10 (F := Ideal) keysT cueT cn) b z).trans
      (congrArg (fun f => (Finset.univ : Finset (Fin 512)).fold max ⊥ f) (funext fun r => pay10_apply cueT cn keysT b r))
  unfold Gen.k0_pay11
  refine (maximumf_apply mo _ (ix2 b z)).trans ?_
  exact congrArg (max (mo (ix2 b z))) hT

/-- The correction factor at row b: the exponential of (a stored maximum − the new maximum). -/
theorem pay12_apply' (cueT : FVec Ideal S1024x512 .bf16) (cn : FVec Ideal S1024x1 .f32) (keysT : FVec Ideal S512x512 .f32)
    (mo mo' : FVec Ideal S1024x1 .f32) (b : Fin 1024) (z : Fin 1) :
    Gen.k0_pay12 (F := Ideal) keysT cueT cn mo mo' (ix2 b z) = Ideal.exp (mo' (ix2 b z) - max (mo (ix2 b z)) (tm cueT cn keysT b)) := by
  rw [← pay11_apply cueT cn keysT mo b z]
  rfl

/-- The correction factor at row b when both loads of the running maximum read the same array. -/
theorem pay12_apply (cueT : FVec Ideal S1024x512 .bf16) (cn : FVec Ideal S1024x1 .f32) (keysT : FVec Ideal S512x512 .f32)
    (mo : FVec Ideal S1024x1 .f32) (b : Fin 1024) (z : Fin 1) :
    Gen.k0_pay12 (F := Ideal) keysT cueT cn mo mo (ix2 b z) = Ideal.exp (mo (ix2 b z) - max (mo (ix2 b z)) (tm cueT cn keysT b)) :=
  pay12_apply' cueT cn keysT mo mo b z

/-- The weight of key r for cue b: the exponential of (score − the new maximum). -/
theorem pay13_apply (cueT : FVec Ideal S1024x512 .bf16) (cn : FVec Ideal S1024x1 .f32) (keysT : FVec Ideal S512x512 .f32)
    (mo : FVec Ideal S1024x1 .f32) (b : Fin 1024) (r : Fin 512) :
    Gen.k0_pay13 (F := Ideal) keysT cueT cn mo (ix2 b r)
      = Ideal.exp (tileScore cueT cn keysT b r - max (mo (ix2 b (0 : Fin 1))) (tm cueT cn keysT b)) := by
  have hB := (RowLayout.broadcastTo_a1_ab_apply (Gen.k0_pay11 (F := Ideal) keysT cueT cn mo) Gen.broadcasts_S1024x1_S1024x512 b r).trans
    (pay11_apply cueT cn keysT mo b (0 : Fin 1))
  rw [← hB, ← pay10_apply cueT cn keysT b r]
  rfl

/-! ## The two accumulators -/

/-- The new normaliser at row b: the corrected old one plus the lane sum of the weights. -/
theorem pay1_apply (v32 : FVec Ideal S1024x1 .f32) (v35 : FVec Ideal S1024x512 .f32) (lo : FVec Ideal S1024x1 .f32)
    (b : Fin 1024) (z : Fin 1) :
    Gen.k0_pay1 (F := Ideal) v32 v35 lo (ix2 b z) = v32 (ix2 b z) * lo (ix2 b z) + ∑ r : Fin 512, v35 (ix2 b r) := by
  unfold Gen.k0_pay1
  refine (congrFun (shapeCast_self _ Gen.shapeCasts_S1024x1_S1024x1) (ix2 b z)).trans ?_
  rw [← rowSumCol_apply v35 b z]
  rfl

/-- The new accumulator at (b, h): the corrected old one plus the weights times the values tile. -/
theorem pay2_apply (v32 : FVec Ideal S1024x1 .f32) (v35 : FVec Ideal S1024x512 .f32) (valsT : FVec Ideal S512x512 .f32)
    (ao : FVec Ideal S1024x512 .f32) (b : Fin 1024) (h : Fin 512) :
    Gen.k0_pay2 (F := Ideal) v32 v35 valsT ao (ix2 b h)
      = v32 (ix2 b (0 : Fin 1)) * ao (ix2 b h) + ∑ r : Fin 512, v35 (ix2 b r) * valsT (ix2 r h) := by
  have hM := mm_apply (truncf (F := Ideal) .bf16 v35 Gen.bitsLt_bf16_f32) (truncf (F := Ideal) .bf16 valsT Gen.bitsLt_bf16_f32) b h
  have hB := RowLayout.broadcastTo_a1_ab_apply v32 Gen.broadcasts_S1024x1_S1024x512 b h
  unfold Gen.k0_pay2
  refine (congrFun (shapeCast_self _ Gen.shapeCasts_S1024x512_S1024x512) (ix2 b h)).trans ?_
  rw [← hB]
  refine Eq.trans ?_ (congrArg (fun t => broadcastTo S1024x512 v32 Gen.broadcasts_S1024x1_S1024x512 (ix2 b h) * ao (ix2 b h) + t) hM)
  rfl

/-! ## The stores that only move data -/

/-- The running maximum is stored as computed. -/
theorem pay3_eq (v : FVec Ideal S1024x1 .f32) : Gen.k0_pay3 (F := Ideal) v = v := shapeCast_self v _

/-- The accumulator written to the output block, read at (u, b, h). -/
theorem pay4_apply (v : FVec Ideal S1024x512 .f32) (u : Fin 1) (b : Fin 1024) (h : Fin 512) :
    Gen.k0_pay4 (F := Ideal) v (ix3 u b h) = v (ix2 b h) :=
  shapeCast_ab_1ab_apply v Gen.shapeCasts_S1024x512_S1x1024x512 u b h

/-- The running maximum written to the output block, read at (u, b, z). -/
theorem pay5_apply (v : FVec Ideal S1024x1 .f32) (u : Fin 1) (b : Fin 1024) (z : Fin 1) :
    Gen.k0_pay5 (F := Ideal) v (ix3 u b z) = v (ix2 b z) :=
  shapeCast_ab_1ab_apply v Gen.shapeCasts_S1024x1_S1x1024x1 u b z

/-- The normaliser written to the output block, read at (u, b, z). -/
theorem pay6_apply (v : FVec Ideal S1024x1 .f32) (u : Fin 1) (b : Fin 1024) (z : Fin 1) :
    Gen.k0_pay6 (F := Ideal) v (ix3 u b z) = v (ix2 b z) :=
  shapeCast_ab_1ab_apply v Gen.shapeCasts_S1024x1_S1x1024x1 u b z

/-! ## The initial values -/

/-- The running maximum starts at minus infinity. -/
theorem pay7_eq : Gen.k0_pay7 (F := Ideal) = fun _ => (⊥ : EReal) := by
  unfold Gen.k0_pay7
  refine (shapeCast_self _ Gen.shapeCasts_S1024x1_S1024x1).trans ?_
  funext i
  exact ofBits_neg_inf

/-- The normaliser starts at zero. -/
theorem pay8_eq : Gen.k0_pay8 (F := Ideal) = fun _ => (0 : EReal) := by
  unfold Gen.k0_pay8
  refine (shapeCast_self _ Gen.shapeCasts_S1024x1_S1024x1).trans ?_
  funext i
  exact Ideal.ofBits_zero_f32

/-- The accumulator starts at zero. -/
theorem pay9_eq : Gen.k0_pay9 (F := Ideal) = fun _ => (0 : EReal) := by
  unfold Gen.k0_pay9
  refine (shapeCast_self _ Gen.shapeCasts_S1024x512_S1024x512).trans ?_
  funext i
  exact Ideal.ofBits_zero_f32

end Cert.KernelIdeal.PayAt

end
-- ==== Proof.LibOnlineSoftmax.lean ====
/-
  The online softmax, as pure mathematics on the extended reals.

  A row of real scores and real values is visited tile by tile. A running state
  (m, l, a) holds the maximum seen so far, the sum of exp (score - m) and the sum of
  exp (score - m) * value; a new tile rescales the two sums by exp (m - m') where m' is
  the new maximum. Two such states (two halves of the row) are merged by the same
  rescaling and the quotient a / l is taken. The plain softmax takes one maximum M of
  the whole row, the weights exp (score - M) / (sum of them), and the weighted sum of
  the values. Both are the same real number

      (∑ exp (s n) * v n) / (∑ exp (s n)),

  because a quotient of two sums of exp (s n - M) does not depend on the shift M.
  Every state that occurs is the coercion of a real triple, except the initial
  (⊥, 0, 0), whose two sums are 0 so that the rescaling factor exp (⊥ - m') = 0
  multiplies 0.
-/
import Mathlib.Data.EReal.Inv
import Mathlib.Analysis.SpecialFunctions.Exp
import Mathlib.Algebra.BigOperators.Group.Finset.Basic
import Mathlib.Data.Finset.Fold
import Mathlib.Data.Finset.Lattice.Fold
import Mathlib.Tactic
import Idealize.ShloMosaic.PureOps.Ideal

noncomputable section

open Idealize.ShloMosaic
open scoped BigOperators

namespace Cert.Lib.OnlineSoftmax

/-! ## 1. Bridges between the extended reals and the reals -/

theorem exp_coe_sub_coe (x y : ℝ) :
    Ideal.exp ((x : EReal) - (y : EReal)) = ((Real.exp (x - y) : ℝ) : EReal) := by
  rw [← EReal.coe_sub, Ideal.exp_coe]

theorem exp_bot_sub (y : EReal) : Ideal.exp ((⊥ : EReal) - y) = 0 := by
  rw [EReal.bot_sub, Ideal.exp_bot]

theorem exp_bot_sub_coe (y : ℝ) : Ideal.exp ((⊥ : EReal) - (y : EReal)) = 0 :=
  exp_bot_sub _

/-- The coercion of a finite real sum is the sum of the coercions. -/
theorem coe_sum {ι : Type*} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

theorem coe_max (x y : ℝ) : max (x : EReal) (y : EReal) = ((max x y : ℝ) : EReal) :=
  (EReal.coe_strictMono.monotone.map_max).symm

theorem bot_max (x : EReal) : max (⊥ : EReal) x = x := max_eq_right bot_le

/-- The maximum of a nonempty finite family of reals. -/
def rmax {κ : Type*} [Fintype κ] [Nonempty κ] (s : κ → ℝ) : ℝ :=
  Finset.univ.sup' Finset.univ_nonempty s

section Rmax
variable {κ : Type*} [Fintype κ] [Nonempty κ]

theorem le_rmax (s : κ → ℝ) (r : κ) : s r ≤ rmax s :=
  Finset.le_sup' s (Finset.mem_univ r)

theorem exists_eq_rmax (s : κ → ℝ) : ∃ r, rmax s = s r := by
  obtain ⟨r, -, h⟩ := Finset.exists_mem_eq_sup' Finset.univ_nonempty s
  exact ⟨r, h⟩

/-- A real that bounds the family and is attained is its maximum. -/
theorem eq_rmax_of_isLUB (s : κ → ℝ) (T : ℝ) (hle : ∀ r, s r ≤ T) (hex : ∃ r, T = s r) :
    T = rmax s := by
  obtain ⟨r, hr⟩ := hex
  obtain ⟨r', hr'⟩ := exists_eq_rmax s
  exact le_antisymm (hr ▸ le_rmax s r) (hr' ▸ hle r')

/-- An extended real that bounds the coerced family and is attained is the coercion of
    the real maximum. -/
theorem eq_coe_rmax_of_isLUB (s : κ → ℝ) (tm : EReal) (hle : ∀ r, (s r : EReal) ≤ tm)
    (hex : ∃ r, tm = (s r : EReal)) : tm = ((rmax s : ℝ) : EReal) := by
  obtain ⟨r, hr⟩ := hex
  obtain ⟨r', hr'⟩ := exists_eq_rmax s
  apply le_antisymm
  · rw [hr]; exact EReal.coe_le_coe_iff.2 (le_rmax s r)
  · rw [hr']; exact hle r'

/-- The maximum folded from ⊥ over the coerced family is the coercion of the real maximum. -/
theorem fold_max_bot_eq (s : κ → ℝ) :
    Finset.univ.fold max (⊥ : EReal) (fun r => (s r : EReal)) = ((rmax s : ℝ) : EReal) := by
  apply le_antisymm
  · exact (Finset.fold_max_le _).2 ⟨bot_le, fun x _ => EReal.coe_le_coe_iff.2 (le_rmax s x)⟩
  · obtain ⟨r', hr'⟩ := exists_eq_rmax s
    rw [hr']
    exact (Finset.le_fold_max _).2 (Or.inr ⟨r', Finset.mem_univ r', le_rfl⟩)

theorem sup_coe_eq (s : κ → ℝ) :
    Finset.univ.sup (fun r => (s r : EReal)) = ((rmax s : ℝ) : EReal) := by
  apply le_antisymm
  · exact Finset.sup_le (fun x _ => EReal.coe_le_coe_iff.2 (le_rmax s x))
  · obtain ⟨r', hr'⟩ := exists_eq_rmax s
    rw [hr']
    exact Finset.le_sup (f := fun r => (s r : EReal)) (Finset.mem_univ r')

end Rmax

theorem div_coe_coe (x : ℝ) {y : ℝ} (hy : y ≠ 0) :
    Ideal.div (x : EReal) (y : EReal) = ((x / y : ℝ) : EReal) := by
  rw [Ideal.div, if_neg (EReal.coe_ne_zero.2 hy), ← EReal.coe_inv, ← EReal.coe_mul,
    div_eq_mul_inv]

/-! ## Real algebra: rescaling a sum of exponentials to a new shift -/

theorem exp_rescale (x M M' : ℝ) :
    Real.exp (M - M') * Real.exp (x - M) = Real.exp (x - M') := by
  rw [← Real.exp_add]; congr 1; ring

theorem rescale_sum {ι : Type*} (t : Finset ι) (f : ι → ℝ) (M M' : ℝ) :
    Real.exp (M - M') * ∑ i ∈ t, Real.exp (f i - M) = ∑ i ∈ t, Real.exp (f i - M') := by
  rw [Finset.mul_sum]; exact Finset.sum_congr rfl (fun i _ => exp_rescale _ _ _)

theorem rescale_sum_mul {ι : Type*} (t : Finset ι) (f g : ι → ℝ) (M M' : ℝ) :
    Real.exp (M - M') * ∑ i ∈ t, Real.exp (f i - M) * g i
      = ∑ i ∈ t, Real.exp (f i - M') * g i := by
  rw [Finset.mul_sum]
  exact Finset.sum_congr rfl (fun i _ => by rw [← mul_assoc, exp_rescale])

/-- The sum of the exponentials of a tile, on the extended reals, is the coerced real sum. -/
theorem tile_sum_coe {κ : Type*} [Fintype κ] (s : κ → ℝ) (M : ℝ) :
    ∑ r, Ideal.exp ((s r : EReal) - (M : EReal)) = ((∑ r, Real.exp (s r - M) : ℝ) : EReal) := by
  rw [coe_sum]; exact Finset.sum_congr rfl (fun r _ => exp_coe_sub_coe _ _)

theorem tile_sum_mul_coe {κ : Type*} [Fintype κ] (s v : κ → ℝ) (M : ℝ) :
    ∑ r, Ideal.exp ((s r : EReal) - (M : EReal)) * (v r : EReal)
      = ((∑ r, Real.exp (s r - M) * v r : ℝ) : EReal) := by
  rw [coe_sum]
  exact Finset.sum_congr rfl (fun r _ => by rw [exp_coe_sub_coe, EReal.coe_mul])

/-- The rescaling factor between two real maxima. -/
theorem corr_coe (m m' : EReal) (M M' : ℝ) (hm : m = ↑M) (hm' : m' = ↑M') :
    Ideal.exp (m - max m m') = ((Real.exp (M - max M M') : ℝ) : EReal) := by
  rw [hm, hm', coe_max, exp_coe_sub_coe]

theorem corr_coe' (m m' : EReal) (M M' : ℝ) (hm : m = ↑M) (hm' : m' = ↑M') :
    Ideal.exp (m' - max m m') = ((Real.exp (M' - max M M') : ℝ) : EReal) := by
  rw [hm, hm', coe_max, exp_coe_sub_coe]

/-! ## 2. The first tile -/

section FirstTile
variable {κ : Type*} [Fintype κ]

theorem first_tile_m (m tm : EReal) (T : ℝ) (hm : m = ⊥) (htm : tm = ↑T) :
    max m tm = (T : EReal) := by
  rw [hm, htm, bot_max]

theorem first_tile_l (m l tm : EReal) (T : ℝ) (s : κ → ℝ) (hm : m = ⊥) (hl : l = 0)
    (htm : tm = ↑T) :
    Ideal.exp (m - max m tm) * l + ∑ r, Ideal.exp ((s r : EReal) - max m tm)
      = ((∑ r, Real.exp (s r - T) : ℝ) : EReal) := by
  rw [first_tile_m m tm T hm htm, hl, mul_zero, zero_add, tile_sum_coe]

theorem first_tile_l' (m l tm : EReal) (T : ℝ) (s : κ → ℝ) (hm : m = ⊥) (hl : l = 0)
    (htm : tm = ↑T) :
    Ideal.exp (m - max m tm) * l + (0 + ∑ r, Ideal.exp ((s r : EReal) - max m tm))
      = ((∑ r, Real.exp (s r - T) : ℝ) : EReal) := by
  rw [zero_add, first_tile_l m l tm T s hm hl htm]

theorem first_tile_a (m a tm : EReal) (T : ℝ) (s v : κ → ℝ) (hm : m = ⊥) (ha : a = 0)
    (htm : tm = ↑T) :
    Ideal.exp (m - max m tm) * a + ∑ r, Ideal.exp ((s r : EReal) - max m tm) * (v r : EReal)
      = ((∑ r, Real.exp (s r - T) * v r : ℝ) : EReal) := by
  rw [first_tile_m m tm T hm htm, ha, mul_zero, zero_add, tile_sum_mul_coe]

end FirstTile

/-! ## 3. A later tile -/

section NextTile
variable {κ : Type*} [Fintype κ]

theorem next_tile_m (m tm : EReal) (M T : ℝ) (hm : m = ↑M) (htm : tm = ↑T) :
    max m tm = ((max M T : ℝ) : EReal) := by
  rw [hm, htm, coe_max]

/-- One step on a real state: the two sums in real arithmetic, before any rescaling. -/
theorem next_tile_l_raw (m l tm : EReal) (M T L : ℝ) (s : κ → ℝ) (hm : m = ↑M) (hl : l = ↑L)
    (htm : tm = ↑T) :
    Ideal.exp (m - max m tm) * l + ∑ r, Ideal.exp ((s r : EReal) - max m tm)
      = ((Real.exp (M - max M T) * L + ∑ r, Real.exp (s r - max M T) : ℝ) : EReal) := by
  rw [next_tile_m m tm M T hm htm, hm, hl, exp_coe_sub_coe, tile_sum_coe, ← EReal.coe_mul,
    ← EReal.coe_add]

theorem next_tile_a_raw (m a tm : EReal) (M T A : ℝ) (s v : κ → ℝ) (hm : m = ↑M) (ha : a = ↑A)
    (htm : tm = ↑T) :
    Ideal.exp (m - max m tm) * a + ∑ r, Ideal.exp ((s r : EReal) - max m tm) * (v r : EReal)
      = ((Real.exp (M - max M T) * A + ∑ r, Real.exp (s r - max M T) * v r : ℝ) : EReal) := by
  rw [next_tile_m m tm M T hm htm, hm, ha, exp_coe_sub_coe, tile_sum_mul_coe, ← EReal.coe_mul,
    ← EReal.coe_add]

variable {ι : Type*} [Fintype ι]

/-- A later tile, the earlier entries indexed by ι: the two sums added. -/
theorem next_tile_l_add (m l tm : EReal) (M T : ℝ) (sp : ι → ℝ) (st : κ → ℝ) (hm : m = ↑M)
    (hl : l = ((∑ i, Real.exp (sp i - M) : ℝ) : EReal)) (htm : tm = ↑T) :
    Ideal.exp (m - max m tm) * l + ∑ r, Ideal.exp ((st r : EReal) - max m tm)
      = ((∑ i, Real.exp (sp i - max M T) + ∑ r, Real.exp (st r - max M T) : ℝ) : EReal) := by
  rw [next_tile_l_raw m l tm M T _ st hm hl htm, rescale_sum]

theorem next_tile_a_add (m a tm : EReal) (M T : ℝ) (sp vp : ι → ℝ) (st vt : κ → ℝ) (hm : m = ↑M)
    (ha : a = ((∑ i, Real.exp (sp i - M) * vp i : ℝ) : EReal)) (htm : tm = ↑T) :
    Ideal.exp (m - max m tm) * a + ∑ r, Ideal.exp ((st r : EReal) - max m tm) * (vt r : EReal)
      = ((∑ i, Real.exp (sp i - max M T) * vp i + ∑ r, Real.exp (st r - max M T) * vt r : ℝ)
          : EReal) := by
  rw [next_tile_a_raw m a tm M T _ st vt hm ha htm, rescale_sum_mul]

/-- A later tile, as one sum over the disjoint union of the earlier entries and the tile. -/
theorem next_tile_l (m l tm : EReal) (M T : ℝ) (sp : ι → ℝ) (st : κ → ℝ) (hm : m = ↑M)
    (hl : l = ((∑ i, Real.exp (sp i - M) : ℝ) : EReal)) (htm : tm = ↑T) :
    Ideal.exp (m - max m tm) * l + ∑ r, Ideal.exp ((st r : EReal) - max m tm)
      = ((∑ i : ι ⊕ κ, Real.exp (Sum.elim sp st i - max M T) : ℝ) : EReal) := by
  rw [next_tile_l_add m l tm M T sp st hm hl htm, Fintype.sum_sum_type]; rfl

theorem next_tile_a (m a tm : EReal) (M T : ℝ) (sp vp : ι → ℝ) (st vt : κ → ℝ) (hm : m = ↑M)
    (ha : a = ((∑ i, Real.exp (sp i - M) * vp i : ℝ) : EReal)) (htm : tm = ↑T) :
    Ideal.exp (m - max m tm) * a + ∑ r, Ideal.exp ((st r : EReal) - max m tm) * (vt r : EReal)
      = ((∑ i : ι ⊕ κ, Real.exp (Sum.elim sp st i - max M T) * Sum.elim vp vt i : ℝ) : EReal) := by
  rw [next_tile_a_add m a tm M T sp vp st vt hm ha htm, Fintype.sum_sum_type]; rfl

end NextTile

/-! ## The composed recursion over the tiles -/

/-- The running state: the maximum, the sum of exponentials, the weighted sum. -/
abbrev State := EReal × EReal × EReal

/-- One tile: the new maximum, and the two sums rescaled to it plus the tile's own. -/
def step {κ : Type*} [Fintype κ] (x : State) (tm : EReal) (s v : κ → ℝ) : State :=
  (max x.1 tm,
   Ideal.exp (x.1 - max x.1 tm) * x.2.1 + ∑ r, Ideal.exp ((s r : EReal) - max x.1 tm),
   Ideal.exp (x.1 - max x.1 tm) * x.2.2
     + ∑ r, Ideal.exp ((s r : EReal) - max x.1 tm) * (v r : EReal))

/-- The state after the first n tiles, from (⊥, 0, 0); tile j has maximum tm j, scores s j
    and values v j. -/
def run {κ : Type*} [Fintype κ] (tm : ℕ → EReal) (s v : ℕ → κ → ℝ) : ℕ → State
  | 0 => (⊥, 0, 0)
  | n + 1 => step (run tm s v n) (tm n) (s n) (v n)

/-- The running maximum of T 0, …, T n. -/
def runMax (T : ℕ → ℝ) : ℕ → ℝ
  | 0 => T 0
  | n + 1 => max (runMax T n) (T (n + 1))

section Run
variable {κ : Type*} [Fintype κ]

@[simp] theorem run_zero (tm : ℕ → EReal) (s v : ℕ → κ → ℝ) : run tm s v 0 = (⊥, 0, 0) := rfl

theorem run_succ (tm : ℕ → EReal) (s v : ℕ → κ → ℝ) (n : ℕ) :
    run tm s v (n + 1) = step (run tm s v n) (tm n) (s n) (v n) := rfl

theorem run_succ_m (tm : ℕ → EReal) (s v : ℕ → κ → ℝ) (n : ℕ) :
    (run tm s v (n + 1)).1 = max (run tm s v n).1 (tm n) := rfl

theorem run_succ_l (tm : ℕ → EReal) (s v : ℕ → κ → ℝ) (n : ℕ) :
    (run tm s v (n + 1)).2.1
      = Ideal.exp ((run tm s v n).1 - max (run tm s v n).1 (tm n)) * (run tm s v n).2.1
        + ∑ r, Ideal.exp ((s n r : EReal) - max (run tm s v n).1 (tm n)) := rfl

theorem run_succ_a (tm : ℕ → EReal) (s v : ℕ → κ → ℝ) (n : ℕ) :
    (run tm s v (n + 1)).2.2
      = Ideal.exp ((run tm s v n).1 - max (run tm s v n).1 (tm n)) * (run tm s v n).2.2
        + ∑ r, Ideal.exp ((s n r : EReal) - max (run tm s v n).1 (tm n)) * (v n r : EReal) := rfl

theorem step_bot (tm : EReal) (T : ℝ) (s v : κ → ℝ) (htm : tm = ↑T) :
    step ((⊥, 0, 0) : State) tm s v
      = (((T : ℝ) : EReal), ((∑ r, Real.exp (s r - T) : ℝ) : EReal),
          ((∑ r, Real.exp (s r - T) * v r : ℝ) : EReal)) := by
  unfold step
  refine Prod.ext ?_ (Prod.ext ?_ ?_)
  · exact first_tile_m _ _ T rfl htm
  · exact first_tile_l _ _ _ T s rfl rfl htm
  · exact first_tile_a _ _ _ T s v rfl rfl htm

theorem step_coe (M L A : ℝ) (tm : EReal) (T : ℝ) (s v : κ → ℝ) (htm : tm = ↑T) :
    step (((M : EReal), (L : EReal), (A : EReal)) : State) tm s v
      = (((max M T : ℝ) : EReal),
          ((Real.exp (M - max M T) * L + ∑ r, Real.exp (s r - max M T) : ℝ) : EReal),
          ((Real.exp (M - max M T) * A + ∑ r, Real.exp (s r - max M T) * v r : ℝ) : EReal)) := by
  unfold step
  refine Prod.ext ?_ (Prod.ext ?_ ?_)
  · exact next_tile_m _ _ M T rfl htm
  · exact next_tile_l_raw _ _ _ M T L s rfl rfl htm
  · exact next_tile_a_raw _ _ _ M T A s v rfl rfl htm

/-- After n + 1 tiles whose maxima are the reals T 0, …, T n, the state is the real triple
    at the running maximum. -/
theorem run_succ_eq (tm : ℕ → EReal) (T : ℕ → ℝ) (s v : ℕ → κ → ℝ) (n : ℕ)
    (h : ∀ j, j ≤ n → tm j = ((T j : ℝ) : EReal)) :
    run tm s v (n + 1)
      = (((runMax T n : ℝ) : EReal),
          ((∑ j ∈ Finset.range (n + 1), ∑ r, Real.exp (s j r - runMax T n) : ℝ) : EReal),
          ((∑ j ∈ Finset.range (n + 1), ∑ r, Real.exp (s j r - runMax T n) * v j r : ℝ)
            : EReal)) := by
  induction n with
  | zero =>
    rw [run_succ, run_zero, step_bot _ (T 0) _ _ (h 0 le_rfl)]
    simp [runMax]
  | succ n ih =>
    rw [run_succ, ih (fun j hj => h j (Nat.le_succ_of_le hj)),
      step_coe _ _ _ _ (T (n + 1)) _ _ (h (n + 1) le_rfl)]
    have hM : runMax T (n + 1) = max (runMax T n) (T (n + 1)) := rfl
    rw [← hM]
    refine Prod.ext rfl (Prod.ext ?_ ?_)
    · show ((_ : ℝ) : EReal) = ((_ : ℝ) : EReal)
      congr 1
      rw [Finset.sum_range_succ _ (n + 1), Finset.mul_sum]
      congr 1
      exact Finset.sum_congr rfl (fun j _ => rescale_sum _ _ _ _)
    · show ((_ : ℝ) : EReal) = ((_ : ℝ) : EReal)
      congr 1
      rw [Finset.sum_range_succ _ (n + 1), Finset.mul_sum]
      congr 1
      exact Finset.sum_congr rfl (fun j _ => rescale_sum_mul _ _ _ _ _)

theorem le_runMax (T : ℕ → ℝ) (n j : ℕ) (hj : j ≤ n) : T j ≤ runMax T n := by
  induction n with
  | zero => rw [Nat.le_zero.1 hj]; exact le_rfl
  | succ n ih =>
    rcases Nat.of_le_succ hj with h | h
    · exact (ih h).trans (le_max_left _ _)
    · rw [h]; exact le_max_right _ _

theorem exists_eq_runMax (T : ℕ → ℝ) (n : ℕ) : ∃ j, j ≤ n ∧ runMax T n = T j := by
  induction n with
  | zero => exact ⟨0, le_rfl, rfl⟩
  | succ n ih =>
    obtain ⟨j, hj, hjm⟩ := ih
    rcases le_total (runMax T n) (T (n + 1)) with h | h
    · exact ⟨n + 1, le_rfl, max_eq_right h⟩
    · exact ⟨j, Nat.le_succ_of_le hj, (max_eq_left h).trans hjm⟩

/-- With each T j the maximum of tile j, the running maximum is the maximum of all entries
    of the first J tiles. -/
theorem runMax_rmax_eq [Nonempty κ] (s : ℕ → κ → ℝ) (J : ℕ) [NeZero J] :
    runMax (fun j => rmax (s j)) (J - 1)
      = rmax (fun p : Fin J × κ => s p.1 p.2) := by
  have hJ : 0 < J := Nat.pos_of_ne_zero (NeZero.ne J)
  apply eq_rmax_of_isLUB
  · rintro ⟨j, r⟩
    exact (le_rmax (s j) r).trans
      (le_runMax (fun j => rmax (s j)) (J - 1) j (Nat.le_sub_one_of_lt j.isLt))
  · obtain ⟨j, hj, hjm⟩ := exists_eq_runMax (fun j => rmax (s j)) (J - 1)
    obtain ⟨r, hr⟩ := exists_eq_rmax (s j)
    exact ⟨(⟨j, by omega⟩, r), hjm.trans hr⟩

/-- The state after J ≥ 1 tiles, the sums over Fin J × κ. -/
theorem run_eq_prod (tm : ℕ → EReal) (T : ℕ → ℝ) (s v : ℕ → κ → ℝ) (J : ℕ) (hJ : 0 < J)
    (h : ∀ j, j < J → tm j = ((T j : ℝ) : EReal)) :
    run tm s v J
      = (((runMax T (J - 1) : ℝ) : EReal),
          ((∑ p : Fin J × κ, Real.exp (s p.1 p.2 - runMax T (J - 1)) : ℝ) : EReal),
          ((∑ p : Fin J × κ, Real.exp (s p.1 p.2 - runMax T (J - 1)) * v p.1 p.2 : ℝ)
            : EReal)) := by
  obtain ⟨n, rfl⟩ : ∃ n, J = n + 1 := ⟨J - 1, by omega⟩
  rw [run_succ_eq tm T s v n (fun j hj => h j (Nat.lt_succ_of_le hj))]
  simp only [Nat.add_sub_cancel, Fintype.sum_prod_type, Finset.sum_range]

/-- With each T j the maximum of tile j, the running maximum after n + 1 tiles is the maximum
    of all their entries. -/
theorem runMax_rmax_succ_eq [Nonempty κ] (s : ℕ → κ → ℝ) (n : ℕ) :
    runMax (fun j => rmax (s j)) n = rmax (fun p : Fin (n + 1) × κ => s p.1 p.2) := by
  have h := runMax_rmax_eq s (n + 1)
  rwa [Nat.add_sub_cancel] at h

/-- The state after n + 1 tiles, each tile's maximum the real maximum of its scores: the real
    triple at the maximum of all entries. -/
theorem run_succ_eq_rmax [Nonempty κ] (tm : ℕ → EReal) (s v : ℕ → κ → ℝ) (n : ℕ)
    (h : ∀ j, j ≤ n → tm j = ((rmax (s j) : ℝ) : EReal)) :
    run tm s v (n + 1)
      = (((rmax (fun p : Fin (n + 1) × κ => s p.1 p.2) : ℝ) : EReal),
          ((∑ p : Fin (n + 1) × κ,
              Real.exp (s p.1 p.2 - rmax (fun p : Fin (n + 1) × κ => s p.1 p.2)) : ℝ) : EReal),
          ((∑ p : Fin (n + 1) × κ,
              Real.exp (s p.1 p.2 - rmax (fun p : Fin (n + 1) × κ => s p.1 p.2)) * v p.1 p.2 : ℝ)
            : EReal)) := by
  rw [run_eq_prod tm (fun j => rmax (s j)) s v (n + 1) (Nat.succ_pos n)
      (fun j hj => h j (Nat.lt_succ_iff.1 hj)), Nat.add_sub_cancel, runMax_rmax_succ_eq]

/-- A triple computed with the operations of one tile is step. -/
theorem step_eq (x : State) (tm : EReal) (s v : κ → ℝ) (m' l' a' : EReal)
    (hm : m' = max x.1 tm)
    (hl : l' = Ideal.exp (x.1 - m') * x.2.1 + ∑ r, Ideal.exp ((s r : EReal) - m'))
    (ha : a' = Ideal.exp (x.1 - m') * x.2.2
            + ∑ r, Ideal.exp ((s r : EReal) - m') * (v r : EReal)) :
    ((m', l', a') : State) = step x tm s v := by
  subst hm; subst hl; subst ha; rfl

/-- The same, the tile's row sum started from 0. -/
theorem step_eq' (x : State) (tm : EReal) (s v : κ → ℝ) (m' l' a' : EReal)
    (hm : m' = max x.1 tm)
    (hl : l' = Ideal.exp (x.1 - m') * x.2.1 + (0 + ∑ r, Ideal.exp ((s r : EReal) - m')))
    (ha : a' = Ideal.exp (x.1 - m') * x.2.2
            + ∑ r, Ideal.exp ((s r : EReal) - m') * (v r : EReal)) :
    ((m', l', a') : State) = step x tm s v := by
  rw [zero_add] at hl
  exact step_eq x tm s v m' l' a' hm hl ha

end Run

/-! ## The shift-free form of the quotient -/

/-- The softmax-weighted average of the values v under the scores s. -/
def wavg {ν : Type*} [Fintype ν] (s v : ν → ℝ) : ℝ :=
  (∑ n, Real.exp (s n) * v n) / (∑ n, Real.exp (s n))

/-- A quotient of sums of exp (s n - M) does not depend on the shift M. -/
theorem shifted_quot_eq_wavg {ν : Type*} [Fintype ν] (s v : ν → ℝ) (M : ℝ) :
    (∑ n, Real.exp (s n - M) * v n) / (∑ n, Real.exp (s n - M)) = wavg s v := by
  have h : ∀ x : ℝ, Real.exp (x - M) = Real.exp (-M) * Real.exp x := by
    intro x; rw [← Real.exp_add]; congr 1; ring
  unfold wavg
  simp_rw [h, mul_assoc, ← Finset.mul_sum]
  exact mul_div_mul_left _ _ (Real.exp_pos _).ne'

theorem wavg_equiv {ν μ : Type*} [Fintype ν] [Fintype μ] (e : μ ≃ ν) (s v : ν → ℝ) :
    wavg (fun i => s (e i)) (fun i => v (e i)) = wavg s v := by
  unfold wavg
  rw [Equiv.sum_comp e (fun n => Real.exp (s n) * v n), Equiv.sum_comp e (fun n => Real.exp (s n))]

theorem sum_exp_pos {ν : Type*} [Fintype ν] [Nonempty ν] (s : ν → ℝ) (M : ℝ) :
    0 < ∑ n, Real.exp (s n - M) :=
  Finset.sum_pos (fun _ _ => Real.exp_pos _) Finset.univ_nonempty

/-! ## 4. Merging two halves -/

/-- The merge on real triples: the quotient of the two rescaled sums. -/
theorem merge_raw (m₀ l₀ a₀ m₁ l₁ a₁ : EReal) (M₀ L₀ A₀ M₁ L₁ A₁ : ℝ)
    (hm₀ : m₀ = ↑M₀) (hl₀ : l₀ = ↑L₀) (ha₀ : a₀ = ↑A₀)
    (hm₁ : m₁ = ↑M₁) (hl₁ : l₁ = ↑L₁) (ha₁ : a₁ = ↑A₁)
    (hpos : Real.exp (M₀ - max M₀ M₁) * L₀ + Real.exp (M₁ - max M₀ M₁) * L₁ ≠ 0) :
    Ideal.div
        (Ideal.exp (m₀ - max m₀ m₁) * a₀ + Ideal.exp (m₁ - max m₀ m₁) * a₁)
        (Ideal.exp (m₀ - max m₀ m₁) * l₀ + Ideal.exp (m₁ - max m₀ m₁) * l₁)
      = (((Real.exp (M₀ - max M₀ M₁) * A₀ + Real.exp (M₁ - max M₀ M₁) * A₁)
          / (Real.exp (M₀ - max M₀ M₁) * L₀ + Real.exp (M₁ - max M₀ M₁) * L₁) : ℝ) : EReal) := by
  rw [corr_coe m₀ m₁ M₀ M₁ hm₀ hm₁, corr_coe' m₀ m₁ M₀ M₁ hm₀ hm₁, hl₀, ha₀, hl₁, ha₁,
    ← EReal.coe_mul, ← EReal.coe_mul, ← EReal.coe_mul, ← EReal.coe_mul, ← EReal.coe_add,
    ← EReal.coe_add, div_coe_coe _ hpos]

section Merge
variable {ι₀ ι₁ : Type*} [Fintype ι₀] [Fintype ι₁]

/-- The merge of two halves: the two sums added. -/
theorem merge_eq_add [Nonempty ι₀] (s₀ v₀ : ι₀ → ℝ) (s₁ v₁ : ι₁ → ℝ) (M₀ M₁ : ℝ)
    (m₀ l₀ a₀ m₁ l₁ a₁ : EReal)
    (hm₀ : m₀ = ↑M₀) (hl₀ : l₀ = ((∑ i, Real.exp (s₀ i - M₀) : ℝ) : EReal))
    (ha₀ : a₀ = ((∑ i, Real.exp (s₀ i - M₀) * v₀ i : ℝ) : EReal))
    (hm₁ : m₁ = ↑M₁) (hl₁ : l₁ = ((∑ i, Real.exp (s₁ i - M₁) : ℝ) : EReal))
    (ha₁ : a₁ = ((∑ i, Real.exp (s₁ i - M₁) * v₁ i : ℝ) : EReal)) :
    Ideal.div
        (Ideal.exp (m₀ - max m₀ m₁) * a₀ + Ideal.exp (m₁ - max m₀ m₁) * a₁)
        (Ideal.exp (m₀ - max m₀ m₁) * l₀ + Ideal.exp (m₁ - max m₀ m₁) * l₁)
      = (((∑ i, Real.exp (s₀ i - max M₀ M₁) * v₀ i + ∑ i, Real.exp (s₁ i - max M₀ M₁) * v₁ i)
          / (∑ i, Real.exp (s₀ i - max M₀ M₁) + ∑ i, Real.exp (s₁ i - max M₀ M₁)) : ℝ)
          : EReal) := by
  have hpos : Real.exp (M₀ - max M₀ M₁) * (∑ i, Real.exp (s₀ i - M₀))
      + Real.exp (M₁ - max M₀ M₁) * (∑ i, Real.exp (s₁ i - M₁)) ≠ 0 := by
    rw [rescale_sum, rescale_sum]
    have h0 := sum_exp_pos s₀ (max M₀ M₁)
    have h1 : 0 ≤ ∑ i, Real.exp (s₁ i - max M₀ M₁) :=
      Finset.sum_nonneg (fun _ _ => (Real.exp_pos _).le)
    linarith
  rw [merge_raw m₀ l₀ a₀ m₁ l₁ a₁ M₀ _ _ M₁ _ _ hm₀ hl₀ ha₀ hm₁ hl₁ ha₁ hpos,
    rescale_sum, rescale_sum, rescale_sum_mul, rescale_sum_mul]

/-- The merge of two halves, as one quotient over the disjoint union of their entries. -/
theorem merge_eq [Nonempty ι₀] (s₀ v₀ : ι₀ → ℝ) (s₁ v₁ : ι₁ → ℝ) (M₀ M₁ : ℝ)
    (m₀ l₀ a₀ m₁ l₁ a₁ : EReal)
    (hm₀ : m₀ = ↑M₀) (hl₀ : l₀ = ((∑ i, Real.exp (s₀ i - M₀) : ℝ) : EReal))
    (ha₀ : a₀ = ((∑ i, Real.exp (s₀ i - M₀) * v₀ i : ℝ) : EReal))
    (hm₁ : m₁ = ↑M₁) (hl₁ : l₁ = ((∑ i, Real.exp (s₁ i - M₁) : ℝ) : EReal))
    (ha₁ : a₁ = ((∑ i, Real.exp (s₁ i - M₁) * v₁ i : ℝ) : EReal)) :
    Ideal.div
        (Ideal.exp (m₀ - max m₀ m₁) * a₀ + Ideal.exp (m₁ - max m₀ m₁) * a₁)
        (Ideal.exp (m₀ - max m₀ m₁) * l₀ + Ideal.exp (m₁ - max m₀ m₁) * l₁)
      = (((∑ n : ι₀ ⊕ ι₁, Real.exp (Sum.elim s₀ s₁ n - max M₀ M₁) * Sum.elim v₀ v₁ n)
          / (∑ n : ι₀ ⊕ ι₁, Real.exp (Sum.elim s₀ s₁ n - max M₀ M₁)) : ℝ) : EReal) := by
  rw [merge_eq_add s₀ v₀ s₁ v₁ M₀ M₁ m₀ l₀ a₀ m₁ l₁ a₁ hm₀ hl₀ ha₀ hm₁ hl₁ ha₁,
    Fintype.sum_sum_type, Fintype.sum_sum_type]
  rfl

/-- The merge of two halves is the softmax-weighted average over all their entries. -/
theorem merge_eq_wavg [Nonempty ι₀] (s₀ v₀ : ι₀ → ℝ) (s₁ v₁ : ι₁ → ℝ) (M₀ M₁ : ℝ)
    (m₀ l₀ a₀ m₁ l₁ a₁ : EReal)
    (hm₀ : m₀ = ↑M₀) (hl₀ : l₀ = ((∑ i, Real.exp (s₀ i - M₀) : ℝ) : EReal))
    (ha₀ : a₀ = ((∑ i, Real.exp (s₀ i - M₀) * v₀ i : ℝ) : EReal))
    (hm₁ : m₁ = ↑M₁) (hl₁ : l₁ = ((∑ i, Real.exp (s₁ i - M₁) : ℝ) : EReal))
    (ha₁ : a₁ = ((∑ i, Real.exp (s₁ i - M₁) * v₁ i : ℝ) : EReal)) :
    Ideal.div
        (Ideal.exp (m₀ - max m₀ m₁) * a₀ + Ideal.exp (m₁ - max m₀ m₁) * a₁)
        (Ideal.exp (m₀ - max m₀ m₁) * l₀ + Ideal.exp (m₁ - max m₀ m₁) * l₁)
      = ((wavg (Sum.elim s₀ s₁) (Sum.elim v₀ v₁) : ℝ) : EReal) := by
  rw [merge_eq s₀ v₀ s₁ v₁ M₀ M₁ m₀ l₀ a₀ m₁ l₁ a₁ hm₀ hl₀ ha₀ hm₁ hl₁ ha₁,
    shifted_quot_eq_wavg]

end Merge

/-! ## 5. The plain softmax -/

section Reference
variable {ν : Type*} [Fintype ν] [Nonempty ν]

/-- The plain softmax's weighted sum, the normaliser given as any extended real equal to the
    coerced real sum. -/
theorem ref_eq_of (s v : ν → ℝ) (mx lx : EReal) (M : ℝ) (hM : mx = ↑M)
    (hL : lx = ((∑ k, Real.exp (s k - M) : ℝ) : EReal)) :
    ∑ n, Ideal.div (Ideal.exp ((s n : EReal) - mx)) lx * (v n : EReal)
      = (((∑ n, Real.exp (s n - M) * v n) / (∑ n, Real.exp (s n - M)) : ℝ) : EReal) := by
  have hne : (∑ k, Real.exp (s k - M)) ≠ 0 := (sum_exp_pos s M).ne'
  rw [hM, Finset.sum_div, coe_sum, hL]
  apply Finset.sum_congr rfl
  intro n _
  rw [exp_coe_sub_coe, div_coe_coe _ hne, ← EReal.coe_mul, div_mul_eq_mul_div]

/-- The plain softmax with the normaliser the sum of the exponentials. -/
theorem ref_eq (s v : ν → ℝ) (mx : EReal) (M : ℝ) (hM : mx = ↑M) :
    ∑ n, Ideal.div (Ideal.exp ((s n : EReal) - mx)) (∑ k, Ideal.exp ((s k : EReal) - mx))
        * (v n : EReal)
      = (((∑ n, Real.exp (s n - M) * v n) / (∑ n, Real.exp (s n - M)) : ℝ) : EReal) :=
  ref_eq_of s v mx _ M hM (by rw [hM, tile_sum_coe])

/-- The plain softmax with the normaliser the sum started from 0. -/
theorem ref_eq' (s v : ν → ℝ) (mx : EReal) (M : ℝ) (hM : mx = ↑M) :
    ∑ n, Ideal.div (Ideal.exp ((s n : EReal) - mx)) (0 + ∑ k, Ideal.exp ((s k : EReal) - mx))
        * (v n : EReal)
      = (((∑ n, Real.exp (s n - M) * v n) / (∑ n, Real.exp (s n - M)) : ℝ) : EReal) :=
  ref_eq_of s v mx _ M hM (by rw [hM, zero_add, tile_sum_coe])

theorem ref_eq_wavg (s v : ν → ℝ) (mx : EReal) (M : ℝ) (hM : mx = ↑M) :
    ∑ n, Ideal.div (Ideal.exp ((s n : EReal) - mx)) (0 + ∑ k, Ideal.exp ((s k : EReal) - mx))
        * (v n : EReal)
      = ((wavg s v : ℝ) : EReal) := by
  rw [ref_eq' s v mx M hM, shifted_quot_eq_wavg]

end Reference

/-! ## The online softmax over two halves is the plain softmax -/

/-- Two halves, given as real triples at any shifts M₀, M₁, merged, against the
    plain softmax at any shift M of the same entries, the entries of the two halves matched to
    the row's by a bijection e. -/
theorem online_eq_plain {ι₀ ι₁ ν : Type*} [Fintype ι₀] [Fintype ι₁] [Fintype ν] [Nonempty ι₀]
    (e : ι₀ ⊕ ι₁ ≃ ν) (s v : ν → ℝ) (s₀ v₀ : ι₀ → ℝ) (s₁ v₁ : ι₁ → ℝ)
    (hs₀ : ∀ i, s₀ i = s (e (Sum.inl i))) (hv₀ : ∀ i, v₀ i = v (e (Sum.inl i)))
    (hs₁ : ∀ i, s₁ i = s (e (Sum.inr i))) (hv₁ : ∀ i, v₁ i = v (e (Sum.inr i)))
    (M₀ M₁ M : ℝ) (m₀ l₀ a₀ m₁ l₁ a₁ mx : EReal)
    (hm₀ : m₀ = ↑M₀) (hl₀ : l₀ = ((∑ i, Real.exp (s₀ i - M₀) : ℝ) : EReal))
    (ha₀ : a₀ = ((∑ i, Real.exp (s₀ i - M₀) * v₀ i : ℝ) : EReal))
    (hm₁ : m₁ = ↑M₁) (hl₁ : l₁ = ((∑ i, Real.exp (s₁ i - M₁) : ℝ) : EReal))
    (ha₁ : a₁ = ((∑ i, Real.exp (s₁ i - M₁) * v₁ i : ℝ) : EReal))
    (hM : mx = ↑M) :
    Ideal.div
        (Ideal.exp (m₀ - max m₀ m₁) * a₀ + Ideal.exp (m₁ - max m₀ m₁) * a₁)
        (Ideal.exp (m₀ - max m₀ m₁) * l₀ + Ideal.exp (m₁ - max m₀ m₁) * l₁)
      = ∑ n, Ideal.div (Ideal.exp ((s n : EReal) - mx))
              (0 + ∑ k, Ideal.exp ((s k : EReal) - mx)) * (v n : EReal) := by
  haveI : Nonempty ν := ⟨e (Sum.inl (Classical.arbitrary ι₀))⟩
  rw [merge_eq_wavg s₀ v₀ s₁ v₁ M₀ M₁ m₀ l₀ a₀ m₁ l₁ a₁ hm₀ hl₀ ha₀ hm₁ hl₁ ha₁,
    ref_eq_wavg s v mx M hM, ← wavg_equiv e s v]
  congr 2
  · funext i; cases i with
    | inl i => exact hs₀ i
    | inr i => exact hs₁ i
  · funext i; cases i with
    | inl i => exact hv₀ i
    | inr i => exact hv₁ i

/-- Two halves of J ≥ 1 tiles each, run from (⊥, 0, 0) and merged, against the
    plain softmax of the same entries. -/
theorem online_run_eq_plain {κ ν : Type*} [Fintype κ] [Nonempty κ] [Fintype ν] (J : ℕ)
    (hJ : 0 < J) (tm₀ tm₁ : ℕ → EReal) (T₀ T₁ : ℕ → ℝ) (s₀ v₀ s₁ v₁ : ℕ → κ → ℝ)
    (h₀ : ∀ j, j < J → tm₀ j = ((T₀ j : ℝ) : EReal))
    (h₁ : ∀ j, j < J → tm₁ j = ((T₁ j : ℝ) : EReal))
    (e : (Fin J × κ) ⊕ (Fin J × κ) ≃ ν) (s v : ν → ℝ)
    (hs₀ : ∀ (j : Fin J) (r : κ), s₀ j r = s (e (Sum.inl (j, r))))
    (hv₀ : ∀ (j : Fin J) (r : κ), v₀ j r = v (e (Sum.inl (j, r))))
    (hs₁ : ∀ (j : Fin J) (r : κ), s₁ j r = s (e (Sum.inr (j, r))))
    (hv₁ : ∀ (j : Fin J) (r : κ), v₁ j r = v (e (Sum.inr (j, r))))
    (mx : EReal) (M : ℝ) (hM : mx = ↑M) :
    Ideal.div
        (Ideal.exp ((run tm₀ s₀ v₀ J).1 - max (run tm₀ s₀ v₀ J).1 (run tm₁ s₁ v₁ J).1)
            * (run tm₀ s₀ v₀ J).2.2
          + Ideal.exp ((run tm₁ s₁ v₁ J).1 - max (run tm₀ s₀ v₀ J).1 (run tm₁ s₁ v₁ J).1)
            * (run tm₁ s₁ v₁ J).2.2)
        (Ideal.exp ((run tm₀ s₀ v₀ J).1 - max (run tm₀ s₀ v₀ J).1 (run tm₁ s₁ v₁ J).1)
            * (run tm₀ s₀ v₀ J).2.1
          + Ideal.exp ((run tm₁ s₁ v₁ J).1 - max (run tm₀ s₀ v₀ J).1 (run tm₁ s₁ v₁ J).1)
            * (run tm₁ s₁ v₁ J).2.1)
      = ∑ n, Ideal.div (Ideal.exp ((s n : EReal) - mx))
              (0 + ∑ k, Ideal.exp ((s k : EReal) - mx)) * (v n : EReal) := by
  haveI : Nonempty (Fin J × κ) := ⟨(⟨0, hJ⟩, Classical.arbitrary κ)⟩
  have e₀ := run_eq_prod tm₀ T₀ s₀ v₀ J hJ h₀
  have e₁ := run_eq_prod tm₁ T₁ s₁ v₁ J hJ h₁
  exact online_eq_plain e s v (fun p => s₀ p.1 p.2) (fun p => v₀ p.1 p.2)
    (fun p => s₁ p.1 p.2) (fun p => v₁ p.1 p.2)
    (fun p => hs₀ p.1 p.2) (fun p => hv₀ p.1 p.2) (fun p => hs₁ p.1 p.2) (fun p => hv₁ p.1 p.2)
    (runMax T₀ (J - 1)) (runMax T₁ (J - 1)) M
    (run tm₀ s₀ v₀ J).1 (run tm₀ s₀ v₀ J).2.1 (run tm₀ s₀ v₀ J).2.2
    (run tm₁ s₁ v₁ J).1 (run tm₁ s₁ v₁ J).2.1 (run tm₁ s₁ v₁ J).2.2 mx
    (by rw [e₀]) (by rw [e₀]) (by rw [e₀]) (by rw [e₁]) (by rw [e₁]) (by rw [e₁]) hM

/-! ## The same, the scores and values given as extended reals that are coerced reals, the
    shift the supremum of the scores -/

/-- The plain softmax, spelt on extended-real scores S and values V that are the coercions of
    the reals s and v, shifted by the supremum of the scores, the normaliser started from 0. -/
theorem ref_sup_eq_wavg {ν : Type*} [Fintype ν] [Nonempty ν] (S V : ν → EReal) (s v : ν → ℝ)
    (hS : ∀ n, S n = ((s n : ℝ) : EReal)) (hV : ∀ n, V n = ((v n : ℝ) : EReal)) :
    ∑ n, Ideal.div (Ideal.exp (S n - Finset.univ.sup S))
        (0 + ∑ k, Ideal.exp (S k - Finset.univ.sup S)) * V n
      = ((wavg s v : ℝ) : EReal) := by
  obtain rfl : S = fun n => ((s n : ℝ) : EReal) := funext hS
  obtain rfl : V = fun n => ((v n : ℝ) : EReal) := funext hV
  rw [sup_coe_eq]
  exact ref_eq_wavg s v _ (rmax s) rfl

/-- The supremum of extended-real scores that are coerced reals is the coerced real maximum. -/
theorem sup_eq_coe_rmax {ν : Type*} [Fintype ν] [Nonempty ν] (S : ν → EReal) (s : ν → ℝ)
    (hS : ∀ n, S n = ((s n : ℝ) : EReal)) :
    Finset.univ.sup S = ((rmax s : ℝ) : EReal) := by
  obtain rfl : S = fun n => ((s n : ℝ) : EReal) := funext hS
  exact sup_coe_eq s

/-- Two halves, given as real triples at any shifts, merged, against the plain softmax spelt on
    extended-real scores and values that are coerced reals. -/
theorem online_eq_plain_sup {ι₀ ι₁ ν : Type*} [Fintype ι₀] [Fintype ι₁] [Fintype ν] [Nonempty ι₀]
    (e : ι₀ ⊕ ι₁ ≃ ν) (S V : ν → EReal) (s v : ν → ℝ)
    (hS : ∀ n, S n = ((s n : ℝ) : EReal)) (hV : ∀ n, V n = ((v n : ℝ) : EReal))
    (s₀ v₀ : ι₀ → ℝ) (s₁ v₁ : ι₁ → ℝ)
    (hs₀ : ∀ i, s₀ i = s (e (Sum.inl i))) (hv₀ : ∀ i, v₀ i = v (e (Sum.inl i)))
    (hs₁ : ∀ i, s₁ i = s (e (Sum.inr i))) (hv₁ : ∀ i, v₁ i = v (e (Sum.inr i)))
    (M₀ M₁ : ℝ) (m₀ l₀ a₀ m₁ l₁ a₁ : EReal)
    (hm₀ : m₀ = ↑M₀) (hl₀ : l₀ = ((∑ i, Real.exp (s₀ i - M₀) : ℝ) : EReal))
    (ha₀ : a₀ = ((∑ i, Real.exp (s₀ i - M₀) * v₀ i : ℝ) : EReal))
    (hm₁ : m₁ = ↑M₁) (hl₁ : l₁ = ((∑ i, Real.exp (s₁ i - M₁) : ℝ) : EReal))
    (ha₁ : a₁ = ((∑ i, Real.exp (s₁ i - M₁) * v₁ i : ℝ) : EReal)) :
    Ideal.div
        (Ideal.exp (m₀ - max m₀ m₁) * a₀ + Ideal.exp (m₁ - max m₀ m₁) * a₁)
        (Ideal.exp (m₀ - max m₀ m₁) * l₀ + Ideal.exp (m₁ - max m₀ m₁) * l₁)
      = ∑ n, Ideal.div (Ideal.exp (S n - Finset.univ.sup S))
              (0 + ∑ k, Ideal.exp (S k - Finset.univ.sup S)) * V n := by
  haveI : Nonempty ν := ⟨e (Sum.inl (Classical.arbitrary ι₀))⟩
  obtain rfl : S = fun n => ((s n : ℝ) : EReal) := funext hS
  obtain rfl : V = fun n => ((v n : ℝ) : EReal) := funext hV
  rw [sup_coe_eq]
  exact online_eq_plain e s v s₀ v₀ s₁ v₁ hs₀ hv₀ hs₁ hv₁ M₀ M₁ (rmax s) m₀ l₀ a₀ m₁ l₁ a₁ _
    hm₀ hl₀ ha₀ hm₁ hl₁ ha₁ rfl

/-- Two halves of J ≥ 1 tiles each, run from (⊥, 0, 0) and merged, against the plain softmax
    spelt on extended-real scores and values that are coerced reals. -/
theorem online_run_eq_plain_sup {κ ν : Type*} [Fintype κ] [Nonempty κ] [Fintype ν] (J : ℕ)
    (hJ : 0 < J) (tm₀ tm₁ : ℕ → EReal) (T₀ T₁ : ℕ → ℝ) (s₀ v₀ s₁ v₁ : ℕ → κ → ℝ)
    (h₀ : ∀ j, j < J → tm₀ j = ((T₀ j : ℝ) : EReal))
    (h₁ : ∀ j, j < J → tm₁ j = ((T₁ j : ℝ) : EReal))
    (e : (Fin J × κ) ⊕ (Fin J × κ) ≃ ν) (S V : ν → EReal) (s v : ν → ℝ)
    (hS : ∀ n, S n = ((s n : ℝ) : EReal)) (hV : ∀ n, V n = ((v n : ℝ) : EReal))
    (hs₀ : ∀ (j : Fin J) (r : κ), s₀ j r = s (e (Sum.inl (j, r))))
    (hv₀ : ∀ (j : Fin J) (r : κ), v₀ j r = v (e (Sum.inl (j, r))))
    (hs₁ : ∀ (j : Fin J) (r : κ), s₁ j r = s (e (Sum.inr (j, r))))
    (hv₁ : ∀ (j : Fin J) (r : κ), v₁ j r = v (e (Sum.inr (j, r)))) :
    Ideal.div
        (Ideal.exp ((run tm₀ s₀ v₀ J).1 - max (run tm₀ s₀ v₀ J).1 (run tm₁ s₁ v₁ J).1)
            * (run tm₀ s₀ v₀ J).2.2
          + Ideal.exp ((run tm₁ s₁ v₁ J).1 - max (run tm₀ s₀ v₀ J).1 (run tm₁ s₁ v₁ J).1)
            * (run tm₁ s₁ v₁ J).2.2)
        (Ideal.exp ((run tm₀ s₀ v₀ J).1 - max (run tm₀ s₀ v₀ J).1 (run tm₁ s₁ v₁ J).1)
            * (run tm₀ s₀ v₀ J).2.1
          + Ideal.exp ((run tm₁ s₁ v₁ J).1 - max (run tm₀ s₀ v₀ J).1 (run tm₁ s₁ v₁ J).1)
            * (run tm₁ s₁ v₁ J).2.1)
      = ∑ n, Ideal.div (Ideal.exp (S n - Finset.univ.sup S))
              (0 + ∑ k, Ideal.exp (S k - Finset.univ.sup S)) * V n := by
  haveI : Nonempty (Fin J × κ) := ⟨(⟨0, hJ⟩, Classical.arbitrary κ)⟩
  haveI : Nonempty ν := ⟨e (Sum.inl (Classical.arbitrary _))⟩
  obtain rfl : S = fun n => ((s n : ℝ) : EReal) := funext hS
  obtain rfl : V = fun n => ((v n : ℝ) : EReal) := funext hV
  rw [sup_coe_eq]
  exact online_run_eq_plain J hJ tm₀ tm₁ T₀ T₁ s₀ v₀ s₁ v₁ h₀ h₁ e s v hs₀ hv₀ hs₁ hv₁ _
    (rmax s) rfl

end Cert.Lib.OnlineSoftmax
-- ==== Proof.OnlineRows.lean ====
/-
  The body's three stored arrays, read at one cue row and one value column, follow the
  online-softmax recursion.

  One step of the body takes the running maximum, normaliser and accumulator and a tile of 512
  keys and values. Read at row b (and column h of the accumulator) the three new arrays are one
  step of the recursion on the triple (m, l, a) with the tile's scores of row b and column h of
  the tile's values: the new maximum is the old one against the tile's row maximum, and the two
  sums are rescaled by exp (m - m') and extended by the tile's own terms. Starting from the
  initial arrays (-∞, 0, 0) and iterating over the tiles gives, by induction, the state of the
  recursion after as many tiles; with real scores and values that state is a real triple at the
  maximum of all scores seen.
-/
import proofs.«160366_j14869176778798_2_alg».proof.Proof.Gen.KernelIdeal.Skeleton
import proofs.«160366_j14869176778798_2_alg».proof.Proof.PayloadAt
import proofs.«160366_j14869176778798_2_alg».proof.Proof.LibOnlineSoftmax

noncomputable section

open scoped BigOperators

namespace Cert.KernelIdeal.Rows

open Cert.KernelIdeal Cert.KernelIdeal.Gen Idealize.ShloMosaic Idealize.ShloMosaic.ValueIdx
open Cert.Lib

/-- The three arrays one step stores: running maximum, normaliser, accumulator. -/
abbrev Trip : Type :=
  FVec Ideal S1024x1 .f32 × FVec Ideal S1024x1 .f32 × FVec Ideal S1024x512 .f32

/-- What one step leaves in the three arrays, from the cue tile, the cue norms, a tile of keys
    and values, and the three arrays before the step. -/
def updI (cueT : FVec Ideal S1024x512 .bf16) (cn : FVec Ideal S1024x1 .f32)
    (keysT valsT : FVec Ideal S512x512 .f32) (mo lo : FVec Ideal S1024x1 .f32)
    (ao : FVec Ideal S1024x512 .f32) : Trip :=
  (k0_pay3 (F := Ideal) (k0_pay11 (F := Ideal) keysT cueT cn mo),
   k0_pay1 (F := Ideal) (k0_pay12 (F := Ideal) keysT cueT cn mo mo)
     (k0_pay13 (F := Ideal) keysT cueT cn mo) lo,
   k0_pay2 (F := Ideal) (k0_pay12 (F := Ideal) keysT cueT cn mo mo)
     (k0_pay13 (F := Ideal) keysT cueT cn mo) valsT ao)

/-- The three arrays after tiles 0, …, j, from the initial arrays. -/
def trip (cueT : FVec Ideal S1024x512 .bf16) (cn : FVec Ideal S1024x1 .f32)
    (keysOf valsOf : ℕ → FVec Ideal S512x512 .f32) : ℕ → Trip
  | 0 => updI cueT cn (keysOf 0) (valsOf 0) (k0_pay7 (F := Ideal)) (k0_pay8 (F := Ideal))
      (k0_pay9 (F := Ideal))
  | j + 1 => updI cueT cn (keysOf (j + 1)) (valsOf (j + 1)) (trip cueT cn keysOf valsOf j).1
      (trip cueT cn keysOf valsOf j).2.1 (trip cueT cn keysOf valsOf j).2.2

section
variable (cueT : FVec Ideal S1024x512 .bf16) (cn : FVec Ideal S1024x1 .f32)

theorem trip_zero (keysOf valsOf : ℕ → FVec Ideal S512x512 .f32) :
    trip cueT cn keysOf valsOf 0
      = updI cueT cn (keysOf 0) (valsOf 0) (k0_pay7 (F := Ideal)) (k0_pay8 (F := Ideal))
          (k0_pay9 (F := Ideal)) := rfl

theorem trip_succ (keysOf valsOf : ℕ → FVec Ideal S512x512 .f32) (j : ℕ) :
    trip cueT cn keysOf valsOf (j + 1)
      = updI cueT cn (keysOf (j + 1)) (valsOf (j + 1)) (trip cueT cn keysOf valsOf j).1
          (trip cueT cn keysOf valsOf j).2.1 (trip cueT cn keysOf valsOf j).2.2 := rfl

/-- The tile's row maximum, the scores of the row being real, is the coerced real maximum. -/
theorem tm_eq (keysT : FVec Ideal S512x512 .f32) (b : Fin 1024) (s : Fin 512 → ℝ)
    (hs : ∀ r, PayAt.tileScore cueT cn keysT b r = ((s r : ℝ) : EReal)) :
    PayAt.tm cueT cn keysT b = ((OnlineSoftmax.rmax s : ℝ) : EReal) := by
  unfold PayAt.tm
  rw [show (fun r => PayAt.tileScore cueT cn keysT b r) = fun r => ((s r : ℝ) : EReal)
    from funext hs]
  exact OnlineSoftmax.fold_max_bot_eq s

/-- One step, read at row b and column h, is one step of the recursion. -/
theorem updI_at (keysT valsT : FVec Ideal S512x512 .f32) (mo lo : FVec Ideal S1024x1 .f32)
    (ao : FVec Ideal S1024x512 .f32) (b : Fin 1024) (h : Fin 512) (s v : Fin 512 → ℝ)
    (hs : ∀ r, PayAt.tileScore cueT cn keysT b r = ((s r : ℝ) : EReal))
    (hv : ∀ r, valsT (ix2 r h) = ((v r : ℝ) : EReal)) :
    (((updI cueT cn keysT valsT mo lo ao).1 (ix2 b (0 : Fin 1)),
      (updI cueT cn keysT valsT mo lo ao).2.1 (ix2 b (0 : Fin 1)),
      (updI cueT cn keysT valsT mo lo ao).2.2 (ix2 b h)) : OnlineSoftmax.State)
      = OnlineSoftmax.step
          ((mo (ix2 b (0 : Fin 1)), lo (ix2 b (0 : Fin 1)), ao (ix2 b h)) : OnlineSoftmax.State)
          (PayAt.tm cueT cn keysT b) s v := by
  have hm : (updI cueT cn keysT valsT mo lo ao).1 (ix2 b (0 : Fin 1))
      = max (mo (ix2 b (0 : Fin 1))) (PayAt.tm cueT cn keysT b) := by
    show k0_pay3 (F := Ideal) (k0_pay11 (F := Ideal) keysT cueT cn mo) (ix2 b (0 : Fin 1)) = _
    rw [PayAt.pay3_eq, PayAt.pay11_apply]
  have hl : (updI cueT cn keysT valsT mo lo ao).2.1 (ix2 b (0 : Fin 1))
      = Ideal.exp (mo (ix2 b (0 : Fin 1))
            - max (mo (ix2 b (0 : Fin 1))) (PayAt.tm cueT cn keysT b)) * lo (ix2 b (0 : Fin 1))
        + ∑ r : Fin 512, Ideal.exp (((s r : ℝ) : EReal)
            - max (mo (ix2 b (0 : Fin 1))) (PayAt.tm cueT cn keysT b)) := by
    show k0_pay1 (F := Ideal) (k0_pay12 (F := Ideal) keysT cueT cn mo mo)
      (k0_pay13 (F := Ideal) keysT cueT cn mo) lo (ix2 b (0 : Fin 1)) = _
    rw [PayAt.pay1_apply, PayAt.pay12_apply]
    congr 1
    exact Finset.sum_congr rfl (fun r _ => by rw [PayAt.pay13_apply, hs])
  have ha : (updI cueT cn keysT valsT mo lo ao).2.2 (ix2 b h)
      = Ideal.exp (mo (ix2 b (0 : Fin 1))
            - max (mo (ix2 b (0 : Fin 1))) (PayAt.tm cueT cn keysT b)) * ao (ix2 b h)
        + ∑ r : Fin 512, Ideal.exp (((s r : ℝ) : EReal)
            - max (mo (ix2 b (0 : Fin 1))) (PayAt.tm cueT cn keysT b)) * ((v r : ℝ) : EReal) := by
    show k0_pay2 (F := Ideal) (k0_pay12 (F := Ideal) keysT cueT cn mo mo)
      (k0_pay13 (F := Ideal) keysT cueT cn mo) valsT ao (ix2 b h) = _
    rw [PayAt.pay2_apply, PayAt.pay12_apply]
    congr 1
    exact Finset.sum_congr rfl (fun r _ => by rw [PayAt.pay13_apply, hs, hv])
  exact OnlineSoftmax.step_eq _ _ s v _ _ _ hm (by rw [hm]; exact hl) (by rw [hm]; exact ha)

/-- After tiles 0, …, j the three arrays, read at row b and column h, are the state of the
    recursion after j + 1 tiles, each tile's maximum the real maximum of its scores; only the
    tiles up to j are asked to have real scores and values. -/
theorem trip_eq_run_le (keysOf valsOf : ℕ → FVec Ideal S512x512 .f32) (b : Fin 1024) (h : Fin 512)
    (s v : ℕ → Fin 512 → ℝ) (j : ℕ)
    (hs : ∀ i, i ≤ j → ∀ r, PayAt.tileScore cueT cn (keysOf i) b r = ((s i r : ℝ) : EReal))
    (hv : ∀ i, i ≤ j → ∀ r, valsOf i (ix2 r h) = ((v i r : ℝ) : EReal)) :
    (((trip cueT cn keysOf valsOf j).1 (ix2 b (0 : Fin 1)),
      (trip cueT cn keysOf valsOf j).2.1 (ix2 b (0 : Fin 1)),
      (trip cueT cn keysOf valsOf j).2.2 (ix2 b h)) : OnlineSoftmax.State)
      = OnlineSoftmax.run (fun j => ((OnlineSoftmax.rmax (s j) : ℝ) : EReal)) s v (j + 1) := by
  induction j with
  | zero =>
    rw [OnlineSoftmax.run_succ, OnlineSoftmax.run_zero, trip_zero,
      updI_at cueT cn (keysOf 0) (valsOf 0) _ _ _ b h (s 0) (v 0) (hs 0 le_rfl) (hv 0 le_rfl),
      tm_eq cueT cn (keysOf 0) b (s 0) (hs 0 le_rfl), PayAt.pay7_eq, PayAt.pay8_eq,
      PayAt.pay9_eq]
  | succ j ih =>
    rw [OnlineSoftmax.run_succ,
      ← ih (fun i hi => hs i (Nat.le_succ_of_le hi)) (fun i hi => hv i (Nat.le_succ_of_le hi)),
      trip_succ,
      updI_at cueT cn (keysOf (j + 1)) (valsOf (j + 1)) _ _ _ b h (s (j + 1)) (v (j + 1))
        (hs (j + 1) le_rfl) (hv (j + 1) le_rfl),
      tm_eq cueT cn (keysOf (j + 1)) b (s (j + 1)) (hs (j + 1) le_rfl)]

/-- The same, every tile having real scores and values. -/
theorem trip_eq_run (keysOf valsOf : ℕ → FVec Ideal S512x512 .f32) (b : Fin 1024) (h : Fin 512)
    (s v : ℕ → Fin 512 → ℝ)
    (hs : ∀ j r, PayAt.tileScore cueT cn (keysOf j) b r = ((s j r : ℝ) : EReal))
    (hv : ∀ j r, valsOf j (ix2 r h) = ((v j r : ℝ) : EReal)) (j : ℕ) :
    (((trip cueT cn keysOf valsOf j).1 (ix2 b (0 : Fin 1)),
      (trip cueT cn keysOf valsOf j).2.1 (ix2 b (0 : Fin 1)),
      (trip cueT cn keysOf valsOf j).2.2 (ix2 b h)) : OnlineSoftmax.State)
      = OnlineSoftmax.run (fun j => ((OnlineSoftmax.rmax (s j) : ℝ) : EReal)) s v (j + 1) :=
  trip_eq_run_le cueT cn keysOf valsOf b h s v j (fun i _ => hs i) (fun i _ => hv i)

/-- The bounded form as a real triple: the maximum of all scores of tiles 0, …, j, and the two
    sums over all their entries at that maximum. -/
theorem trip_eq_real_le (keysOf valsOf : ℕ → FVec Ideal S512x512 .f32) (b : Fin 1024)
    (h : Fin 512) (s v : ℕ → Fin 512 → ℝ) (j : ℕ)
    (hs : ∀ i, i ≤ j → ∀ r, PayAt.tileScore cueT cn (keysOf i) b r = ((s i r : ℝ) : EReal))
    (hv : ∀ i, i ≤ j → ∀ r, valsOf i (ix2 r h) = ((v i r : ℝ) : EReal)) :
    (((trip cueT cn keysOf valsOf j).1 (ix2 b (0 : Fin 1)),
      (trip cueT cn keysOf valsOf j).2.1 (ix2 b (0 : Fin 1)),
      (trip cueT cn keysOf valsOf j).2.2 (ix2 b h)) : OnlineSoftmax.State)
      = (((OnlineSoftmax.rmax (fun p : Fin (j + 1) × Fin 512 => s p.1 p.2) : ℝ) : EReal),
          ((∑ p : Fin (j + 1) × Fin 512,
              Real.exp (s p.1 p.2
                - OnlineSoftmax.rmax (fun p : Fin (j + 1) × Fin 512 => s p.1 p.2)) : ℝ) : EReal),
          ((∑ p : Fin (j + 1) × Fin 512,
              Real.exp (s p.1 p.2
                - OnlineSoftmax.rmax (fun p : Fin (j + 1) × Fin 512 => s p.1 p.2)) * v p.1 p.2 : ℝ)
            : EReal)) :=
  (trip_eq_run_le cueT cn keysOf valsOf b h s v j hs hv).trans
    (OnlineSoftmax.run_succ_eq_rmax _ s v j (fun _ _ => rfl))

section Projections
variable (keysOf valsOf : ℕ → FVec Ideal S512x512 .f32) (b : Fin 1024) (h : Fin 512)
  (s v : ℕ → Fin 512 → ℝ)
  (hs : ∀ j r, PayAt.tileScore cueT cn (keysOf j) b r = ((s j r : ℝ) : EReal))
  (hv : ∀ j r, valsOf j (ix2 r h) = ((v j r : ℝ) : EReal)) (j : ℕ)

include hs hv

theorem trip_m :
    (trip cueT cn keysOf valsOf j).1 (ix2 b (0 : Fin 1))
      = (OnlineSoftmax.run (fun j => ((OnlineSoftmax.rmax (s j) : ℝ) : EReal)) s v (j + 1)).1 :=
  congrArg Prod.fst (trip_eq_run cueT cn keysOf valsOf b h s v hs hv j)

theorem trip_l :
    (trip cueT cn keysOf valsOf j).2.1 (ix2 b (0 : Fin 1))
      = (OnlineSoftmax.run (fun j => ((OnlineSoftmax.rmax (s j) : ℝ) : EReal)) s v (j + 1)).2.1 :=
  congrArg (fun x : OnlineSoftmax.State => x.2.1) (trip_eq_run cueT cn keysOf valsOf b h s v hs hv j)

theorem trip_a :
    (trip cueT cn keysOf valsOf j).2.2 (ix2 b h)
      = (OnlineSoftmax.run (fun j => ((OnlineSoftmax.rmax (s j) : ℝ) : EReal)) s v (j + 1)).2.2 :=
  congrArg (fun x : OnlineSoftmax.State => x.2.2) (trip_eq_run cueT cn keysOf valsOf b h s v hs hv j)

/-- The same state as a real triple: the maximum of all scores of tiles 0, …, j, and the two
    sums over all their entries at that maximum. -/
theorem trip_eq_real :
    (((trip cueT cn keysOf valsOf j).1 (ix2 b (0 : Fin 1)),
      (trip cueT cn keysOf valsOf j).2.1 (ix2 b (0 : Fin 1)),
      (trip cueT cn keysOf valsOf j).2.2 (ix2 b h)) : OnlineSoftmax.State)
      = (((OnlineSoftmax.rmax (fun p : Fin (j + 1) × Fin 512 => s p.1 p.2) : ℝ) : EReal),
          ((∑ p : Fin (j + 1) × Fin 512,
              Real.exp (s p.1 p.2
                - OnlineSoftmax.rmax (fun p : Fin (j + 1) × Fin 512 => s p.1 p.2)) : ℝ) : EReal),
          ((∑ p : Fin (j + 1) × Fin 512,
              Real.exp (s p.1 p.2
                - OnlineSoftmax.rmax (fun p : Fin (j + 1) × Fin 512 => s p.1 p.2)) * v p.1 p.2 : ℝ)
            : EReal)) :=
  (trip_eq_run cueT cn keysOf valsOf b h s v hs hv j).trans
    (OnlineSoftmax.run_succ_eq_rmax _ s v j (fun _ _ => rfl))

end Projections

end

end Cert.KernelIdeal.Rows

end
-- ==== Proof.KernelValue.Link.lean ====
/-
  The scratch buffers, position by position, are the iterated update.

  Within a half h the positions 64 h, 64 h + 1, …, 64 h + 63 run the same update: the first from the reset values,
  each later one from what the position before left.  The query block and the block of the queries' norms are the
  same at every position; the tiles of keys and values are the position's.  So the scratch contents after position
  64 h + j are the j-th iterate of the update over the tiles of half h, and the three result arrays hold, in half h,
  the 63rd iterate.
-/
import proofs.«160366_j14869176778798_2_alg».proof.Proof.FrameKernelIdeal.Pieces
import proofs.«160366_j14869176778798_2_alg».proof.Proof.FrameKernelIdeal.Arrays
import proofs.«160366_j14869176778798_2_alg».proof.Proof.OnlineRows

noncomputable section

namespace Cert.KernelIdeal.Val

open Cert.KernelIdeal Cert.KernelIdeal.Gen Cert.KernelIdeal.Fr Cert.KernelIdeal.Rows
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The query block and the block of the queries' squared norms, as the region finds them. -/
abbrev cueT (c : Dev nD) : FVec Ideal S1024x512 .bf16 := V m c main_v16
abbrev cnT (c : Dev nD) : FVec Ideal S1024x1 .f32 := V m c main_v15

/-- Position 64 h + j of the grid. -/
def pos (hh : Fin 2) (j : ℕ) (hj : j < 64) : Fin cfg0.N :=
  ⟨64 * hh.val + j, by have hN : cfg0.N = 128 := N_0; have := hh.isLt; omega⟩

theorem pos_val (hh : Fin 2) (j : ℕ) (hj : j < 64) : (pos hh j hj).val = 64 * hh.val + j := rfl

/-- The tiles of keys and of values of half h, by tile number (zero past the 64th: never consulted). -/
def keysOf (c : Dev nD) (hh : Fin 2) (j : ℕ) : FVec Ideal S512x512 .f32 :=
  if hj : j < 64 then iblk m c 2 (pos hh j hj) else fun _ => 0
def valsOf (c : Dev nD) (hh : Fin 2) (j : ℕ) : FVec Ideal S512x512 .f32 :=
  if hj : j < 64 then iblk m c 3 (pos hh j hj) else fun _ => 0

theorem keysOf_lt (c : Dev nD) (hh : Fin 2) (j : ℕ) (hj : j < 64) : keysOf m c hh j = iblk m c 2 (pos hh j hj) := dif_pos hj
theorem valsOf_lt (c : Dev nD) (hh : Fin 2) (j : ℕ) (hj : j < 64) : valsOf m c hh j = iblk m c 3 (pos hh j hj) := dif_pos hj

theorem scrAt_congr (c : Dev nD) (n n' : ℕ) (hn : n < cfg0.N) (hn' : n' < cfg0.N) (h : n = n') :
    scrAt m c n hn = scrAt m c n' hn' := by subst h; rfl

/-- A first tile: the update of the reset values. -/
theorem scrAt_upd_first (c : Dev nD) (t : Fin cfg0.N) (h0 : t.val % 64 = 0) :
    scrAt m c t.val t.isLt = updI (cueT m c) (cnT m c) (iblk m c 2 t) (iblk m c 3 t) (k0_pay7 (F := Ideal)) (k0_pay8 (F := Ideal)) (k0_pay9 (F := Ideal)) := by
  rw [scrAt_first m c t h0, scrFirst_eq, iblk0_eq, iblk1_eq]
  rfl

/-- Any other tile: the update of what the position before left. -/
theorem scrAt_upd (c : Dev nD) (t : Fin cfg0.N) (h0 : ¬t.val % 64 = 0) :
    scrAt m c t.val t.isLt = updI (cueT m c) (cnT m c) (iblk m c 2 t) (iblk m c 3 t) (prevScr m c t).1 (prevScr m c t).2.1 (prevScr m c t).2.2 := by
  by_cases h1 : t.val % 64 = 63
  · rw [scrAt_last m c t h0 h1, scrLast_eq, iblk0_eq, iblk1_eq]
    rfl
  · rw [scrAt_mid m c t h0 h1, scrMid_eq, iblk0_eq, iblk1_eq]
    rfl

/-- The scratch contents after position 64 h + j: the j-th iterate over the tiles of half h. -/
theorem scrAt_eq_trip (c : Dev nD) (hh : Fin 2) : ∀ (j : ℕ) (hj : j < 64),
    scrAt m c (pos hh j hj).val (pos hh j hj).isLt = trip (cueT m c) (cnT m c) (keysOf m c hh) (valsOf m c hh) j
  | 0, hj => by
    have h0 : (pos hh 0 hj).val % 64 = 0 := by rw [pos_val]; omega
    rw [scrAt_upd_first m c (pos hh 0 hj) h0, trip_zero, keysOf_lt m c hh 0 hj, valsOf_lt m c hh 0 hj]
  | j + 1, hj => by
    have hj' : j < 64 := by omega
    have h0 : ¬(pos hh (j + 1) hj).val % 64 = 0 := by rw [pos_val]; omega
    have hprev : prevScr m c (pos hh (j + 1) hj) = scrAt m c (pos hh j hj').val (pos hh j hj').isLt :=
      scrAt_congr m c _ _ _ _ (by rw [pos_val, pos_val]; omega)
    rw [scrAt_upd m c (pos hh (j + 1) hj) h0, hprev, scrAt_eq_trip c hh j hj', trip_succ, keysOf_lt m c hh (j + 1) hj, valsOf_lt m c hh (j + 1) hj]

theorem lastOf_eq_pos (hh : Fin 2) : lastOf hh = pos hh 63 (by omega) := rfl

/-- What the last tile of half h stores into the three result blocks. -/
theorem outAt_lastOf (c : Dev nD) (hh : Fin 2) :
    outAt m c (lastOf hh) = (k0_pay4 (F := Ideal) (trip (cueT m c) (cnT m c) (keysOf m c hh) (valsOf m c hh) 63).2.2,
      k0_pay5 (F := Ideal) (trip (cueT m c) (cnT m c) (keysOf m c hh) (valsOf m c hh) 63).1,
      k0_pay6 (F := Ideal) (trip (cueT m c) (cnT m c) (keysOf m c hh) (valsOf m c hh) 63).2.1) := by
  have h0 : ¬(lastOf hh).val % 64 = 0 := by rw [lastOf_val]; omega
  have h1 : (lastOf hh).val % 64 = 63 := by rw [lastOf_val]; omega
  have e := scrAt_eq_trip m c hh 63 (by omega)
  rw [← lastOf_eq_pos hh, scrAt_upd m c (lastOf hh) h0] at e
  rw [outAt_last m c (lastOf hh) h0 h1, outLast_eq, iblk0_eq, iblk1_eq]
  show (k0_pay4 (F := Ideal) (updI _ _ _ _ _ _ _).2.2, k0_pay5 (F := Ideal) (updI _ _ _ _ _ _ _).1, k0_pay6 (F := Ideal) (updI _ _ _ _ _ _ _).2.1) = _
  rw [e]

/-- The three result arrays after the run, at an index. -/
theorem G4_of (c : Dev nD) (hh : Fin 2) (b : Fin 1024) (h : Fin 512) (X : FVec Ideal S1024x512 .f32)
    (hX : (outAt m c (lastOf hh)).1 = k0_pay4 (F := Ideal) X) :
    G4 m c (ix3 hh b h) = X (ix2 b h) := by
  have h63 : (lastOf hh).val % 64 = 63 := by rw [lastOf_val]; omega
  have hi : ((ix3 hh b h : S2x1024x512.Idx) 0).val = (lastOf hh).val / 64 := by
    show hh.val = (lastOf hh).val / 64
    rw [lastOf_val]; omega
  rw [G4_at m c (lastOf hh) h63 _ hi, hX]
  exact PayAt.pay4_apply _ _ _ _
theorem G4_eq (c : Dev nD) (hh : Fin 2) (b : Fin 1024) (h : Fin 512) :
    G4 m c (ix3 hh b h) = (trip (cueT m c) (cnT m c) (keysOf m c hh) (valsOf m c hh) 63).2.2 (ix2 b h) :=
  G4_of m c hh b h _ (congrArg (fun x => x.1) (outAt_lastOf m c hh))
theorem G5_of (c : Dev nD) (hh : Fin 2) (b : Fin 1024) (X : FVec Ideal S1024x1 .f32)
    (hX : (outAt m c (lastOf hh)).2.1 = k0_pay5 (F := Ideal) X) :
    G5 m c (ix3 hh b (0 : Fin 1)) = X (ix2 b (0 : Fin 1)) := by
  have h63 : (lastOf hh).val % 64 = 63 := by rw [lastOf_val]; omega
  have hi : ((ix3 hh b (0 : Fin 1) : S2x1024x1.Idx) 0).val = (lastOf hh).val / 64 := by
    show hh.val = (lastOf hh).val / 64
    rw [lastOf_val]; omega
  rw [G5_at m c (lastOf hh) h63 _ hi, hX]
  exact PayAt.pay5_apply _ _ _ _
theorem G5_eq (c : Dev nD) (hh : Fin 2) (b : Fin 1024) :
    G5 m c (ix3 hh b (0 : Fin 1)) = (trip (cueT m c) (cnT m c) (keysOf m c hh) (valsOf m c hh) 63).1 (ix2 b (0 : Fin 1)) :=
  G5_of m c hh b _ (congrArg (fun x => x.2.1) (outAt_lastOf m c hh))
theorem G6_of (c : Dev nD) (hh : Fin 2) (b : Fin 1024) (X : FVec Ideal S1024x1 .f32)
    (hX : (outAt m c (lastOf hh)).2.2 = k0_pay6 (F := Ideal) X) :
    G6 m c (ix3 hh b (0 : Fin 1)) = X (ix2 b (0 : Fin 1)) := by
  have h63 : (lastOf hh).val % 64 = 63 := by rw [lastOf_val]; omega
  have hi : ((ix3 hh b (0 : Fin 1) : S2x1024x1.Idx) 0).val = (lastOf hh).val / 64 := by
    show hh.val = (lastOf hh).val / 64
    rw [lastOf_val]; omega
  rw [G6_at m c (lastOf hh) h63 _ hi, hX]
  exact PayAt.pay6_apply _ _ _ _
theorem G6_eq (c : Dev nD) (hh : Fin 2) (b : Fin 1024) :
    G6 m c (ix3 hh b (0 : Fin 1)) = (trip (cueT m c) (cnT m c) (keysOf m c hh) (valsOf m c hh) 63).2.1 (ix2 b (0 : Fin 1)) :=
  G6_of m c hh b _ (congrArg (fun x => x.2.2) (outAt_lastOf m c hh))

end Cert.KernelIdeal.Val

end
-- ==== Proof.ScoreReal.lean ====
/-
  The score of the memory read is a real number when the cue and the stored keys have real
  entries, and the small identities on the extended reals by which two spellings of the score
  meet.

  On real numbers coerced into the extended reals, (a + b) - y = (a - y) + b; on every extended
  real, 0 - z = -z. The factor two is the real 2 and the clamp is a positive real ε, so with real
  entries the two squared norms and the inner product are coerced real sums, the clamped
  quantity max (|c|² - 2⟨c,k⟩ + |k|²) ε is a coerced real that is at least ε > 0, its square
  root is the real square root, and the score is the coercion of
      -(√(max (|c|² - 2⟨c,k⟩ + |k|²) ε)).
-/
import proofs.«160366_j14869176778798_2_alg».proof.Proof.RetrievalSpec
import proofs.«160366_j14869176778798_2_alg».proof.Proof.LibOnlineSoftmax
import Idealize.ShloMosaic.PureOps.Ideal.Laws
import Mathlib.Analysis.SpecialFunctions.Sqrt
import Mathlib.Tactic

noncomputable section

open scoped BigOperators

namespace Cert.Retrieval

open Idealize.ShloMosaic Idealize.ShloMosaic.ValueIdx Cert.Lib.OnlineSoftmax

/-! ## Identities on the extended reals -/

/-- On coerced reals a subtraction passes a summand: (a + b) - y = (a - y) + b. -/
theorem add_sub_swap_coe (a b y : ℝ) :
    ((a : EReal) + (b : EReal)) - (y : EReal) = ((a : EReal) - (y : EReal)) + (b : EReal) := by
  rw [← EReal.coe_add, ← EReal.coe_sub, ← EReal.coe_sub, ← EReal.coe_add]
  congr 1; ring

/-- The same with the subtrahend a product of coerced reals, under a maximum. -/
theorem max_add_sub_swap (a b τ x : ℝ) (t e : EReal) (ht : t = (τ : EReal)) :
    max (((a : EReal) + (b : EReal)) - t * (x : EReal)) e
      = max (((a : EReal) - t * (x : EReal)) + (b : EReal)) e := by
  rw [ht, ← EReal.coe_mul, add_sub_swap_coe]

/-- The same with every term an extended real that is a coerced real. -/
theorem max_add_sub_swap_of_real (A B t X e : EReal) (hA : ∃ r : ℝ, A = (r : EReal))
    (hB : ∃ r : ℝ, B = (r : EReal)) (ht : ∃ r : ℝ, t = (r : EReal))
    (hX : ∃ r : ℝ, X = (r : EReal)) :
    max ((A + B) - t * X) e = max ((A - t * X) + B) e := by
  obtain ⟨a, rfl⟩ := hA
  obtain ⟨b, rfl⟩ := hB
  obtain ⟨τ, rfl⟩ := ht
  obtain ⟨x, rfl⟩ := hX
  exact max_add_sub_swap a b τ x _ e rfl

/-- Subtracting from zero is negating, on every extended real. -/
theorem zero_sub_eq_neg (z : EReal) : 0 - z = -z := by
  rw [sub_eq_add_neg, zero_add]

theorem zero_sub_sqrt (z : EReal) : 0 - Ideal.sqrt z = -(Ideal.sqrt z) :=
  zero_sub_eq_neg _

/-! ## The two float literals -/

/-- The factor two is the real 2. -/
theorem two_eq : two = ((2 : ℝ) : EReal) := by
  simp [Ideal.ofBits, Ideal.ieee, -EReal.coe_mul] <;> norm_num

/-- The clamp, as a real: 9223372 · 2⁻⁶³, the float nearest 1e-12. -/
def epsR : ℝ := 9223372 * (2 : ℝ) ^ (-63 : ℤ)

theorem eps_eq : eps = ((epsR : ℝ) : EReal) := by
  unfold epsR
  simp [Ideal.ofBits, Ideal.ieee, -EReal.coe_mul] <;> norm_num

theorem epsR_pos : 0 < epsR := by
  unfold epsR; positivity

/-! ## The score on real entries -/

/-- An array of 1024 rows of 512 reals. -/
abbrev RowsR := (⟨2, ![1024, 512]⟩ : Shape).Idx → ℝ
/-- An array of 65536 slots of 512 reals. -/
abbrev SlotsR := (⟨2, ![65536, 512]⟩ : Shape).Idx → ℝ

/-- The squared norm of cue row b, on reals. -/
def cnR (cue : RowsR) (b : Fin 1024) : ℝ := ∑ k : Fin 512, cue (ix2 b k) * cue (ix2 b k)

/-- The inner product of cue row b with stored key n, on reals. -/
def crossR (cue : RowsR) (keys : SlotsR) (b : Fin 1024) (n : Fin 65536) : ℝ :=
  ∑ k : Fin 512, cue (ix2 b k) * keys (ix2 n k)

/-- The squared norm of stored key n, on reals. -/
def knR (keys : SlotsR) (n : Fin 65536) : ℝ := ∑ k : Fin 512, keys (ix2 n k) * keys (ix2 n k)

/-- The score of slot n for row b, on reals: minus the clamped distance. -/
def scR (cue : RowsR) (keys : SlotsR) (b : Fin 1024) (n : Fin 65536) : ℝ :=
  -(Real.sqrt (max ((cnR cue b - 2 * crossR cue keys b n) + knR keys n) epsR))

theorem cn_eq_coe (cue : Rows) (cueR : RowsR) (hc : ∀ i, cue i = ((cueR i : ℝ) : EReal))
    (b : Fin 1024) : cn cue b = ((cnR cueR b : ℝ) : EReal) := by
  unfold cn cnR
  rw [zero_add, coe_sum]
  exact Finset.sum_congr rfl (fun k _ => by rw [hc, EReal.coe_mul])

theorem cross_eq_coe (cue : Rows) (keys : Slots) (cueR : RowsR) (keysR : SlotsR)
    (hc : ∀ i, cue i = ((cueR i : ℝ) : EReal)) (hk : ∀ i, keys i = ((keysR i : ℝ) : EReal))
    (b : Fin 1024) (n : Fin 65536) :
    cross cue keys b n = ((crossR cueR keysR b n : ℝ) : EReal) := by
  unfold cross crossR
  rw [coe_sum]
  exact Finset.sum_congr rfl (fun k _ => by rw [hc, hk, EReal.coe_mul])

theorem kn_eq_coe (keys : Slots) (keysR : SlotsR) (hk : ∀ i, keys i = ((keysR i : ℝ) : EReal))
    (n : Fin 65536) : kn keys n = ((knR keysR n : ℝ) : EReal) := by
  unfold kn knR
  rw [zero_add, coe_sum]
  exact Finset.sum_congr rfl (fun k _ => by rw [hk, EReal.coe_mul])

/-- The clamped quantity under the square root is a coerced real, at least ε. -/
theorem clamp_eq_coe (cue : Rows) (keys : Slots) (cueR : RowsR) (keysR : SlotsR)
    (hc : ∀ i, cue i = ((cueR i : ℝ) : EReal)) (hk : ∀ i, keys i = ((keysR i : ℝ) : EReal))
    (b : Fin 1024) (n : Fin 65536) :
    max ((cn cue b - two * cross cue keys b n) + kn keys n) eps
      = ((max ((cnR cueR b - 2 * crossR cueR keysR b n) + knR keysR n) epsR : ℝ) : EReal) := by
  rw [cn_eq_coe cue cueR hc, cross_eq_coe cue keys cueR keysR hc hk, kn_eq_coe keys keysR hk,
    two_eq, eps_eq, ← EReal.coe_mul, ← EReal.coe_sub, ← EReal.coe_add, coe_max]

/-- With real entries the score is the coercion of the real score. -/
theorem sc_eq_coe (cue : Rows) (keys : Slots) (cueR : RowsR) (keysR : SlotsR)
    (hc : ∀ i, cue i = ((cueR i : ℝ) : EReal)) (hk : ∀ i, keys i = ((keysR i : ℝ) : EReal))
    (b : Fin 1024) (n : Fin 65536) :
    sc cue keys b n = ((scR cueR keysR b n : ℝ) : EReal) := by
  unfold sc scR
  rw [clamp_eq_coe cue keys cueR keysR hc hk, Ideal.sqrt_coe,
    if_neg (not_lt.2 (le_max_of_le_right epsR_pos.le)), ← EReal.coe_neg]

/-- With real entries every score is a real number. -/
theorem sc_real (cue : Rows) (keys : Slots) (hc : ∀ i, ∃ r : ℝ, cue i = (r : EReal))
    (hk : ∀ i, ∃ r : ℝ, keys i = (r : EReal)) (b : Fin 1024) (n : Fin 65536) :
    ∃ r : ℝ, sc cue keys b n = (r : EReal) := by
  choose cueR hcR using hc
  choose keysR hkR using hk
  exact ⟨scR cueR keysR b n, sc_eq_coe cue keys cueR keysR hcR hkR b n⟩

theorem cn_real (cue : Rows) (hc : ∀ i, ∃ r : ℝ, cue i = (r : EReal)) (b : Fin 1024) :
    ∃ r : ℝ, cn cue b = (r : EReal) := by
  choose cueR hcR using hc
  exact ⟨cnR cueR b, cn_eq_coe cue cueR hcR b⟩

theorem cross_real (cue : Rows) (keys : Slots) (hc : ∀ i, ∃ r : ℝ, cue i = (r : EReal))
    (hk : ∀ i, ∃ r : ℝ, keys i = (r : EReal)) (b : Fin 1024) (n : Fin 65536) :
    ∃ r : ℝ, cross cue keys b n = (r : EReal) := by
  choose cueR hcR using hc
  choose keysR hkR using hk
  exact ⟨crossR cueR keysR b n, cross_eq_coe cue keys cueR keysR hcR hkR b n⟩

theorem kn_real (keys : Slots) (hk : ∀ i, ∃ r : ℝ, keys i = (r : EReal)) (n : Fin 65536) :
    ∃ r : ℝ, kn keys n = (r : EReal) := by
  choose keysR hkR using hk
  exact ⟨knR keysR n, kn_eq_coe keys keysR hkR n⟩

end Cert.Retrieval

end
-- ==== Proof.ScoreJoin.lean ====
/-
  The body's score of a cue against a key of a tile is the memory read's score of that cue
  against the slot the key comes from.

  The two spellings differ in three places: the key's squared norm is a plain sum in one and a
  sum started from 0 in the other; the squared distance is (|c|² + |k|²) - 2⟨c,k⟩ in one and
  (|c|² - 2⟨c,k⟩) + |k|² in the other; and the sign is taken by subtracting from 0 in one and by
  negating in the other. With real entries all terms are real numbers, on which the two
  associations agree, and 0 - z = -z on every extended real.
-/
import proofs.«160366_j14869176778798_2_alg».proof.Proof.PayloadAt
import proofs.«160366_j14869176778798_2_alg».proof.Proof.ScoreReal

noncomputable section

open scoped BigOperators

namespace Cert.KernelIdeal.Rows

open Cert.KernelIdeal Idealize.ShloMosaic Idealize.ShloMosaic.ValueIdx

/-- The tile's key norm is the slot's, the key's entries being the slot's. -/
theorem knT_eq_kn (keys : Cert.Retrieval.Slots) (keysT : FVec Ideal S512x512 .f32) (r : Fin 512)
    (n : Fin 65536) (hkeys : ∀ k : Fin 512, keysT (ix2 r k) = keys (ix2 n k)) :
    PayAt.knT keysT r = Cert.Retrieval.kn keys n := by
  unfold PayAt.knT Cert.Retrieval.kn
  rw [zero_add]
  exact Finset.sum_congr rfl (fun k _ => by rw [hkeys])

/-- The tile's inner product is the slot's. -/
theorem crossT_eq_cross (cue : Cert.Retrieval.Rows) (keys : Cert.Retrieval.Slots)
    (cueT : FVec Ideal S1024x512 .bf16) (keysT : FVec Ideal S512x512 .f32) (b : Fin 1024)
    (r : Fin 512) (n : Fin 65536) (hcue : ∀ k : Fin 512, cueT (ix2 b k) = cue (ix2 b k))
    (hkeys : ∀ k : Fin 512, keysT (ix2 r k) = keys (ix2 n k)) :
    PayAt.crossT cueT keysT b r = Cert.Retrieval.cross cue keys b n := by
  unfold PayAt.crossT Cert.Retrieval.cross
  exact Finset.sum_congr rfl (fun k _ => by rw [hcue, hkeys])

/-- The body's score of cue b against key r of a tile is the read's score of cue b against
    slot n, when the cue tile's row is the cue's, the norm column holds the cue's squared norm,
    the key's entries are the slot's, and the cue and the stored keys have real entries. -/
theorem tileScore_eq_sc (cue : Cert.Retrieval.Rows) (keys : Cert.Retrieval.Slots)
    (hc : ∀ i, ∃ x : ℝ, cue i = (x : EReal)) (hk : ∀ i, ∃ x : ℝ, keys i = (x : EReal))
    (cueT : FVec Ideal S1024x512 .bf16) (cn : FVec Ideal S1024x1 .f32)
    (keysT : FVec Ideal S512x512 .f32) (b : Fin 1024) (r : Fin 512) (n : Fin 65536)
    (hcue : ∀ k : Fin 512, cueT (ix2 b k) = cue (ix2 b k))
    (hcn : cn (ix2 b (0 : Fin 1)) = Cert.Retrieval.cn cue b)
    (hkeys : ∀ k : Fin 512, keysT (ix2 r k) = keys (ix2 n k)) :
    PayAt.tileScore cueT cn keysT b r = Cert.Retrieval.sc cue keys b n := by
  unfold PayAt.tileScore Cert.Retrieval.sc
  rw [hcn, knT_eq_kn keys keysT r n hkeys, crossT_eq_cross cue keys cueT keysT b r n hcue hkeys,
    Cert.Retrieval.zero_sub_sqrt]
  exact congrArg (fun z => -(Ideal.sqrt z))
    (Cert.Retrieval.max_add_sub_swap_of_real _ _ _ _ _ (Cert.Retrieval.cn_real cue hc b)
      (Cert.Retrieval.kn_real keys hk n) ⟨2, Cert.Retrieval.two_eq⟩
      (Cert.Retrieval.cross_real cue keys hc hk b n))

/-- Hence, with real entries, the body's score is a real number: the real score of the slot. -/
theorem tileScore_eq_coe (cue : Cert.Retrieval.Rows) (keys : Cert.Retrieval.Slots)
    (cueR : Cert.Retrieval.RowsR) (keysR : Cert.Retrieval.SlotsR)
    (hc : ∀ i, cue i = ((cueR i : ℝ) : EReal)) (hk : ∀ i, keys i = ((keysR i : ℝ) : EReal))
    (cueT : FVec Ideal S1024x512 .bf16) (cn : FVec Ideal S1024x1 .f32)
    (keysT : FVec Ideal S512x512 .f32) (b : Fin 1024) (r : Fin 512) (n : Fin 65536)
    (hcue : ∀ k : Fin 512, cueT (ix2 b k) = cue (ix2 b k))
    (hcn : cn (ix2 b (0 : Fin 1)) = Cert.Retrieval.cn cue b)
    (hkeys : ∀ k : Fin 512, keysT (ix2 r k) = keys (ix2 n k)) :
    PayAt.tileScore cueT cn keysT b r = ((Cert.Retrieval.scR cueR keysR b n : ℝ) : EReal) := by
  rw [tileScore_eq_sc cue keys (fun i => ⟨cueR i, hc i⟩) (fun i => ⟨keysR i, hk i⟩) cueT cn keysT b
    r n hcue hcn hkeys, Cert.Retrieval.sc_eq_coe cue keys cueR keysR hc hk]

end Cert.KernelIdeal.Rows

end
-- ==== Proof.LibHalvesIndex.lean ====
/-
  The entries of two halves of J tiles of K entries each, as one range of N = J·K + J·K numbers.

  Entry r of tile j of the first half is number j·K + r; entry r of tile j of the second half is
  number J·K + (j·K + r). This is a bijection between the disjoint union of two copies of
  Fin J × Fin K and Fin N, so a sum over all numbers below N is the sum over both halves, tile
  by tile.
-/
import Mathlib.Logic.Equiv.Fin.Basic
import Mathlib.Algebra.BigOperators.Group.Finset.Basic
import Mathlib.Tactic

namespace Cert.Lib.HalvesIndex

/-- The bijection: both halves' (tile, entry) pairs onto the numbers below N. -/
def halvesEquiv (J K N : ℕ) (hN : J * K + J * K = N) :
    (Fin J × Fin K) ⊕ (Fin J × Fin K) ≃ Fin N :=
  ((Equiv.sumCongr finProdFinEquiv finProdFinEquiv).trans finSumFinEquiv).trans (finCongr hN)

theorem halvesEquiv_inl_val (J K N : ℕ) (hN : J * K + J * K = N) (j : Fin J) (r : Fin K) :
    ((halvesEquiv J K N hN (Sum.inl (j, r)) : Fin N) : ℕ) = (j : ℕ) * K + (r : ℕ) := by
  simp [halvesEquiv, finProdFinEquiv, finSumFinEquiv]
  ring

theorem halvesEquiv_inr_val (J K N : ℕ) (hN : J * K + J * K = N) (j : Fin J) (r : Fin K) :
    ((halvesEquiv J K N hN (Sum.inr (j, r)) : Fin N) : ℕ) = J * K + ((j : ℕ) * K + (r : ℕ)) := by
  simp [halvesEquiv, finProdFinEquiv, finSumFinEquiv]
  ring

/-- The image of a first-half pair, as an element of Fin N given with its bound. -/
theorem halvesEquiv_inl (J K N : ℕ) (hN : J * K + J * K = N) (j : Fin J) (r : Fin K)
    (h : (j : ℕ) * K + (r : ℕ) < N) :
    halvesEquiv J K N hN (Sum.inl (j, r)) = ⟨(j : ℕ) * K + (r : ℕ), h⟩ :=
  Fin.ext (halvesEquiv_inl_val J K N hN j r)

theorem halvesEquiv_inr (J K N : ℕ) (hN : J * K + J * K = N) (j : Fin J) (r : Fin K)
    (h : J * K + ((j : ℕ) * K + (r : ℕ)) < N) :
    halvesEquiv J K N hN (Sum.inr (j, r)) = ⟨J * K + ((j : ℕ) * K + (r : ℕ)), h⟩ :=
  Fin.ext (halvesEquiv_inr_val J K N hN j r)

end Cert.Lib.HalvesIndex
-- ==== Proof.MergeBridge.lean ====
/-
  The two halves joined are the memory read.

  Each half of the body visits 64 tiles of 512 slots: half hh, tile j, key r is slot
  512 · (64 · hh + j) + r, so the two halves together visit every slot below 65536 once. Read at
  a cue row b and a value column h, each half's three arrays after its last tile are the state of
  the online-softmax recursion over the half's real scores and values; the join rescales both
  states to the larger maximum and divides. That quotient is the softmax-weighted average of
  column h of the stored values under the scores of row b, which is what the plain softmax of
  the read computes.
-/
import proofs.«160366_j14869176778798_2_alg».proof.Proof.OnlineRows
import proofs.«160366_j14869176778798_2_alg».proof.Proof.ScoreJoin
import proofs.«160366_j14869176778798_2_alg».proof.Proof.LibHalvesIndex
import proofs.«160366_j14869176778798_2_alg».proof.Proof.KernelMerge
import proofs.«160366_j14869176778798_2_alg».proof.Proof.RetrievalSpec

noncomputable section

open scoped BigOperators

namespace Cert.KernelIdeal.Rows

open Cert.KernelIdeal Cert.KernelIdeal.Gen Idealize.ShloMosaic Idealize.ShloMosaic.ValueIdx
open Cert.Lib Cert.Lib.HalvesIndex

/-! ## The slot a half, a tile and a key name -/

/-- Slot 512 · (64 · hh + j) + r, as a number below 65536 (reduced modulo 65536 so that it is
    defined for every j; for j < 64 nothing is reduced). -/
def slotOf (hh : Fin 2) (j : ℕ) (r : Fin 512) : Fin 65536 :=
  ⟨(512 * (64 * hh.val + j) + r.val) % 65536, Nat.mod_lt _ (by norm_num)⟩

theorem slotOf_val (hh : Fin 2) (j : ℕ) (hj : j < 64) (r : Fin 512) :
    (slotOf hh j r).val = 512 * (64 * hh.val + j) + r.val := by
  have h1 := hh.isLt
  have h2 := r.isLt
  show (512 * (64 * hh.val + j) + r.val) % 65536 = _
  exact Nat.mod_eq_of_lt (by omega)

/-- The first half's slots are the first summand of the bijection onto all slots. -/
theorem slotOf_zero (j : Fin 64) (r : Fin 512) :
    slotOf 0 j r = halvesEquiv 64 512 65536 (by norm_num) (Sum.inl (j, r)) := by
  apply Fin.ext
  rw [slotOf_val 0 j j.isLt r, halvesEquiv_inl_val]
  show 512 * (64 * 0 + j.val) + r.val = _
  omega

/-- The second half's slots are the second summand. -/
theorem slotOf_one (j : Fin 64) (r : Fin 512) :
    slotOf 1 j r = halvesEquiv 64 512 65536 (by norm_num) (Sum.inr (j, r)) := by
  apply Fin.ext
  rw [slotOf_val 1 j j.isLt r, halvesEquiv_inr_val]
  show 512 * (64 * 1 + j.val) + r.val = _
  omega

/-! ## One half as a run of the recursion -/

/-- The real scores of row b against the slots of half hh, by tile and key. -/
def sHalf (cueR : Cert.Retrieval.RowsR) (keysR : Cert.Retrieval.SlotsR) (b : Fin 1024)
    (hh : Fin 2) : ℕ → Fin 512 → ℝ :=
  fun j r => Cert.Retrieval.scR cueR keysR b (slotOf hh j r)

/-- Column h of the real values at the slots of half hh, by tile and key. -/
def vHalf (valsR : Cert.Retrieval.SlotsR) (h : Fin 512) (hh : Fin 2) : ℕ → Fin 512 → ℝ :=
  fun j r => valsR (ix2 (slotOf hh j r) h)

/-- The state of the recursion over half hh's 64 tiles. -/
def runHalf (cueR : Cert.Retrieval.RowsR) (keysR valsR : Cert.Retrieval.SlotsR) (b : Fin 1024)
    (h : Fin 512) (hh : Fin 2) : OnlineSoftmax.State :=
  OnlineSoftmax.run (fun j => ((OnlineSoftmax.rmax (sHalf cueR keysR b hh j) : ℝ) : EReal))
    (sHalf cueR keysR b hh) (vHalf valsR h hh) 64

/-- Half hh's three arrays after its last tile, read at row b and column h, are that state. -/
theorem half_eq_run (cue : Cert.Retrieval.Rows) (keys vals : Cert.Retrieval.Slots)
    (cueR : Cert.Retrieval.RowsR) (keysR valsR : Cert.Retrieval.SlotsR)
    (hcR : ∀ i, cue i = ((cueR i : ℝ) : EReal)) (hkR : ∀ i, keys i = ((keysR i : ℝ) : EReal))
    (hvR : ∀ i, vals i = ((valsR i : ℝ) : EReal))
    (cueT : FVec Ideal S1024x512 .bf16) (cn : FVec Ideal S1024x1 .f32)
    (keysOf valsOf : Fin 2 → ℕ → FVec Ideal S512x512 .f32)
    (hcue : ∀ (b : Fin 1024) (k : Fin 512), cueT (ix2 b k) = cue (ix2 b k))
    (hcn : ∀ b : Fin 1024, cn (ix2 b (0 : Fin 1)) = Cert.Retrieval.cn cue b)
    (hkeys : ∀ (hh : Fin 2) (j : ℕ), j < 64 → ∀ (r k : Fin 512) (n : Fin 65536),
      n.val = 512 * (64 * hh.val + j) + r.val → keysOf hh j (ix2 r k) = keys (ix2 n k))
    (hvals : ∀ (hh : Fin 2) (j : ℕ), j < 64 → ∀ (r k : Fin 512) (n : Fin 65536),
      n.val = 512 * (64 * hh.val + j) + r.val → valsOf hh j (ix2 r k) = vals (ix2 n k))
    (hh : Fin 2) (b : Fin 1024) (h : Fin 512) :
    (((trip cueT cn (keysOf hh) (valsOf hh) 63).1 (ix2 b (0 : Fin 1)),
      (trip cueT cn (keysOf hh) (valsOf hh) 63).2.1 (ix2 b (0 : Fin 1)),
      (trip cueT cn (keysOf hh) (valsOf hh) 63).2.2 (ix2 b h)) : OnlineSoftmax.State)
      = runHalf cueR keysR valsR b h hh :=
  trip_eq_run_le cueT cn (keysOf hh) (valsOf hh) b h (sHalf cueR keysR b hh) (vHalf valsR h hh) 63
    (fun i hi r =>
      tileScore_eq_coe cue keys cueR keysR hcR hkR cueT cn (keysOf hh i) b r (slotOf hh i r)
        (hcue b) (hcn b)
        (fun k => hkeys hh i (by omega) r k (slotOf hh i r) (slotOf_val hh i (by omega) r)))
    (fun i hi r =>
      (hvals hh i (by omega) r h (slotOf hh i r) (slotOf_val hh i (by omega) r)).trans (hvR _))

/-! ## The join -/

/-- The two halves' arrays joined are the memory read. -/
theorem merge_eq_mt (cue : Cert.Retrieval.Rows) (keys vals : Cert.Retrieval.Slots)
    (hc : ∀ i, ∃ x : ℝ, cue i = (x : EReal)) (hk : ∀ i, ∃ x : ℝ, keys i = (x : EReal))
    (hv : ∀ i, ∃ x : ℝ, vals i = (x : EReal))
    (cueT : FVec Ideal S1024x512 .bf16) (cn : FVec Ideal S1024x1 .f32)
    (keysOf valsOf : Fin 2 → ℕ → FVec Ideal S512x512 .f32)
    (hcue : ∀ (b : Fin 1024) (k : Fin 512), cueT (ix2 b k) = cue (ix2 b k))
    (hcn : ∀ b : Fin 1024, cn (ix2 b (0 : Fin 1)) = Cert.Retrieval.cn cue b)
    (hkeys : ∀ (hh : Fin 2) (j : ℕ), j < 64 → ∀ (r k : Fin 512) (n : Fin 65536),
      n.val = 512 * (64 * hh.val + j) + r.val → keysOf hh j (ix2 r k) = keys (ix2 n k))
    (hvals : ∀ (hh : Fin 2) (j : ℕ), j < 64 → ∀ (r k : Fin 512) (n : Fin 65536),
      n.val = 512 * (64 * hh.val + j) + r.val → valsOf hh j (ix2 r k) = vals (ix2 n k))
    (acc : FVec Ideal S2x1024x512 .f32) (mm ll : FVec Ideal S2x1024x1 .f32)
    (hacc : ∀ (hh : Fin 2) (b : Fin 1024) (h : Fin 512),
      acc (ix3 hh b h) = (trip cueT cn (keysOf hh) (valsOf hh) 63).2.2 (ix2 b h))
    (hmm : ∀ (hh : Fin 2) (b : Fin 1024),
      mm (ix3 hh b (0 : Fin 1)) = (trip cueT cn (keysOf hh) (valsOf hh) 63).1 (ix2 b (0 : Fin 1)))
    (hll : ∀ (hh : Fin 2) (b : Fin 1024),
      ll (ix3 hh b (0 : Fin 1))
        = (trip cueT cn (keysOf hh) (valsOf hh) 63).2.1 (ix2 b (0 : Fin 1))) :
    Cert.KernelIdeal.TailValue.mergeOf acc mm ll = Cert.Retrieval.mtArr cue keys vals := by
  choose cueR hcR using hc
  choose keysR hkR using hk
  choose valsR hvR using hv
  funext i
  obtain ⟨b, h, rfl⟩ : ∃ (b : Fin 1024) (h : Fin 512), i = ix2 b h := ⟨i 0, i 1, eq_ix2 i⟩
  have e : ∀ hh : Fin 2,
      (((trip cueT cn (keysOf hh) (valsOf hh) 63).1 (ix2 b (0 : Fin 1)),
        (trip cueT cn (keysOf hh) (valsOf hh) 63).2.1 (ix2 b (0 : Fin 1)),
        (trip cueT cn (keysOf hh) (valsOf hh) 63).2.2 (ix2 b h)) : OnlineSoftmax.State)
        = runHalf cueR keysR valsR b h hh :=
    fun hh => half_eq_run cue keys vals cueR keysR valsR hcR hkR hvR cueT cn keysOf valsOf hcue hcn
      hkeys hvals hh b h
  have e' : ∀ hh : Fin 2,
      (((trip cueT cn (keysOf hh) (valsOf hh) 63).1 (ix2 b (0 : Fin 1)),
        (trip cueT cn (keysOf hh) (valsOf hh) 63).2.1 (ix2 b (0 : Fin 1)),
        (trip cueT cn (keysOf hh) (valsOf hh) 63).2.2 (ix2 b h)) : OnlineSoftmax.State)
        = ((runHalf cueR keysR valsR b h hh).1, (runHalf cueR keysR valsR b h hh).2.1,
            (runHalf cueR keysR valsR b h hh).2.2) := e
  have em : ∀ hh : Fin 2, mm (ix3 hh b (0 : Fin 1)) = (runHalf cueR keysR valsR b h hh).1 :=
    fun hh => (hmm hh b).trans (Prod.mk.inj (e' hh)).1
  have el : ∀ hh : Fin 2, ll (ix3 hh b (0 : Fin 1)) = (runHalf cueR keysR valsR b h hh).2.1 :=
    fun hh => (hll hh b).trans (Prod.mk.inj (Prod.mk.inj (e' hh)).2).1
  have ea : ∀ hh : Fin 2, acc (ix3 hh b h) = (runHalf cueR keysR valsR b h hh).2.2 :=
    fun hh => (hacc hh b h).trans (Prod.mk.inj (Prod.mk.inj (e' hh)).2).2
  rw [Cert.KernelIdeal.TailValue.mergeOf_at, Cert.Retrieval.mtArr_ix2, em 0, em 1, el 0, el 1,
    ea 0, ea 1]
  unfold Cert.Retrieval.mt Cert.Retrieval.Lx Cert.Retrieval.Mx runHalf
  exact OnlineSoftmax.online_run_eq_plain_sup 64 (by norm_num)
    (fun j => ((OnlineSoftmax.rmax (sHalf cueR keysR b 0 j) : ℝ) : EReal))
    (fun j => ((OnlineSoftmax.rmax (sHalf cueR keysR b 1 j) : ℝ) : EReal))
    (fun j => OnlineSoftmax.rmax (sHalf cueR keysR b 0 j))
    (fun j => OnlineSoftmax.rmax (sHalf cueR keysR b 1 j))
    (sHalf cueR keysR b 0) (vHalf valsR h 0) (sHalf cueR keysR b 1) (vHalf valsR h 1)
    (fun _ _ => rfl) (fun _ _ => rfl)
    (halvesEquiv 64 512 65536 (by norm_num))
    (fun n => Cert.Retrieval.sc cue keys b n) (fun n => vals (ix2 n h))
    (fun n => Cert.Retrieval.scR cueR keysR b n) (fun n => valsR (ix2 n h))
    (fun n => Cert.Retrieval.sc_eq_coe cue keys cueR keysR hcR hkR b n) (fun n => hvR (ix2 n h))
    (fun j r => congrArg (Cert.Retrieval.scR cueR keysR b) (slotOf_zero j r))
    (fun j r => congrArg (fun n => valsR (ix2 n h)) (slotOf_zero j r))
    (fun j r => congrArg (Cert.Retrieval.scR cueR keysR b) (slotOf_one j r))
    (fun j r => congrArg (fun n => valsR (ix2 n h)) (slotOf_one j r))

end Cert.KernelIdeal.Rows

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.FiniteArgs.lean ====
/-
  From the precondition to real entries of the three arrays the memory read uses.

  The precondition says that the conjunction of twenty tests, one per argument array, each
  "every entry has absolute value below +∞", is 1. A conjunction that is 1 has both conjuncts 1,
  so the tests of the cue array (the sixth), of the stored keys (the nineteenth) and of the
  stored values (the twentieth) are 1, and a test that is 1 makes every entry of its array a
  real number.
-/
import proofs.«160366_j14869176778798_2_alg».proof.Defs
import proofs.«160366_j14869176778798_2_alg».proof.Proof.Gen.Pre_finite_inputs
import proofs.«160366_j14869176778798_2_alg».proof.Proof.LibFiniteEntries

noncomputable section

namespace Cert.FiniteArgs

open Idealize.ShloMosaic Idealize.SL.Sem Idealize.ShloMosaic.FiniteEntries

/-- Under the precondition, every entry of the cue array, of the stored keys and of the stored
    values is a real number. -/
theorem real_args
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ,
        m ((c.tc : Thread Cert.KernelIdeal.nD Cert.KernelIdeal.τ).loc Cert.KernelIdeal.main_arg5) i
          = (r : EReal))
    ∧ (∀ i, ∃ r : ℝ,
        m ((c.tc : Thread Cert.KernelIdeal.nD Cert.KernelIdeal.τ).loc Cert.KernelIdeal.main_arg18) i
          = (r : EReal))
    ∧ (∀ i, ∃ r : ℝ,
        m ((c.tc : Thread Cert.KernelIdeal.nD Cert.KernelIdeal.τ).loc Cert.KernelIdeal.main_arg19) i
          = (r : EReal)) := by
  have h0 := congrFun (h c) ValueIdx.ix0
  dsimp only [Cert.Pre_finite_inputs.fn, Cert.Pre_finite_inputs.fn_part1,
    Cert.Pre_finite_inputs.fn_part2, Cert.Pre_finite_inputs.fn_part3,
    Cert.Pre_finite_inputs.fn_part4, Cert.Pre_finite_inputs.fn_part5] at h0
  obtain ⟨h93, h97⟩ := and_split h0
  obtain ⟨h88, h92⟩ := and_split h93
  obtain ⟨h83, -⟩ := and_split h88
  obtain ⟨h78, -⟩ := and_split h83
  obtain ⟨h73, -⟩ := and_split h78
  obtain ⟨h68, -⟩ := and_split h73
  obtain ⟨h63, -⟩ := and_split h68
  obtain ⟨h58, -⟩ := and_split h63
  obtain ⟨h53, -⟩ := and_split h58
  obtain ⟨h48, -⟩ := and_split h53
  obtain ⟨h43, -⟩ := and_split h48
  obtain ⟨h38, -⟩ := and_split h43
  obtain ⟨h33, -⟩ := and_split h38
  obtain ⟨h28, -⟩ := and_split h33
  obtain ⟨-, h27⟩ := and_split h28
  exact ⟨fun i => entries_real _ _ _ _ h27 i, fun i => entries_real _ _ _ _ h92 i,
    fun i => entries_real _ _ _ _ h97 i⟩

end Cert.FiniteArgs

end
-- ==== Proof.KernelValue.Final.lean ====
/-
  The kernel's merged retrieval is the reference's.

  With finite queries, keys and values, the three stacked result arrays of the kernel (per half: numerator, maximum,
  denominator of the online softmax over that half's 64 tiles) merge, on the host, to the softmax-weighted sum of
  all 65536 values: the iterated update of each half is the exact running triple, and the merge of two exact
  triples is the plain softmax quotient.
-/
import proofs.«160366_j14869176778798_2_alg».proof.Proof.KernelValue.Link
import proofs.«160366_j14869176778798_2_alg».proof.Proof.MergeBridge
import proofs.«160366_j14869176778798_2_alg».proof.Proof.FiniteArgs
import proofs.«160366_j14869176778798_2_alg».proof.Proof.KernelTail

noncomputable section

namespace Cert.KernelIdeal.Val

open Cert.KernelIdeal Cert.KernelIdeal.Gen Cert.KernelIdeal.Fr Cert.KernelIdeal.Rows
open Idealize.ShloMosaic Idealize.ShloMosaic.TcCoe Idealize.ShloMosaic.ValueIdx Idealize.SL.Sem

variable (m : (ℓ : Loc nD τ sig) → Buf (Elt Ideal) ℓ)

/-- Under the precondition the host's merge of the kernel's three result arrays is the retrieved memory of the
    reference's specification. -/
theorem merge_is_memory (hpre : Cert.Pre_KernelIdeal m) (c : Dev nD) :
    Cert.KernelIdeal.TailValue.mergeOf (G4 (F := Ideal) m c) (G5 m c) (G6 m c)
      = Cert.Retrieval.mtArr (m ((c.tc : Thread nD τ).loc main_arg5)) (m ((c.tc : Thread nD τ).loc main_arg18)) (m ((c.tc : Thread nD τ).loc main_arg19)) := by
  obtain ⟨hc, hk, hv⟩ := Cert.FiniteArgs.real_args m hpre c
  refine merge_eq_mt _ _ _ hc hk hv (cueT m c) (cnT m c) (keysOf m c) (valsOf m c) ?_ ?_ ?_ ?_ _ _ _
    (G4_eq m c) (G5_eq m c) (G6_eq m c)
  · intro b k
    exact congrFun (Cert.KernelIdeal.TailValue.pre_values (fun b => m (c, b))).2.2.1 (ix2 b k)
  · intro b
    exact Cert.KernelIdeal.TailValue.pre_cue_norm (fun b => m (c, b)) b
  · intro hh j hj r k n hn
    rw [keysOf_lt m c hh j hj]
    exact iblk2_apply m c (pos hh j hj) r k n (by rw [pos_val]; exact hn)
  · intro hh j hj r k n hn
    rw [valsOf_lt m c hh j hj]
    exact iblk3_apply m c (pos hh j hj) r k n (by rw [pos_val]; exact hn)

end Cert.KernelIdeal.Val

end
-- ==== Proof.lean ====
/-
  The certificate of the episodic-memory retrieval kernel against its reference.

  The kernel computes, inside a recurrent cell, a softmax-weighted sum of 65536 memory values for each of 1024
  queries, the weights the softmax of minus the distance between the query and each key.  It does so by an online
  softmax over two halves of 64 tiles of 512 keys, keeping per query a running maximum, a running denominator and a
  running numerator, and merges the two halves on the host; the reference takes one softmax over all keys.  On the
  extended reals, with finite inputs, both are the same quotient of two finite sums of exponentials.

  Frames: the two kernel programs run to their end, at every grid point in one of three cases (first tile of a half,
  last tile, any other), and leave their twenty arguments unchanged; the reference's run is straight-line.
  Nothing was rewritten by idealization, so that conjunct is trivial.  The value conjunct: the kernel's five
  results and the reference's are the same functions of the arguments, the shared recurrent cell and heads carried
  as one function of the retrieved memory, and the two retrieved memories equal index by index.
-/
import proofs.«160366_j14869176778798_2_alg».proof.Defs
import proofs.«160366_j14869176778798_2_alg».proof.Proof.Gen.Kernel
import proofs.«160366_j14869176778798_2_alg».proof.Proof.Gen.KernelIdeal
import proofs.«160366_j14869176778798_2_alg».proof.Proof.Gen.ReferenceIdeal
import proofs.«160366_j14869176778798_2_alg».proof.Proof.Gen.Pre_finite_inputs
import proofs.«160366_j14869176778798_2_alg».proof.Proof.Gen.ReferenceIdeal.Run
import proofs.«160366_j14869176778798_2_alg».proof.Proof.Gen.ReferenceIdeal.Read
import proofs.«160366_j14869176778798_2_alg».proof.Proof.FrameKernel.Frame
import proofs.«160366_j14869176778798_2_alg».proof.Proof.FrameKernelIdeal.Frame
import proofs.«160366_j14869176778798_2_alg».proof.Proof.RefFrame
import proofs.«160366_j14869176778798_2_alg».proof.Proof.Assembly
import proofs.«160366_j14869176778798_2_alg».proof.Proof.KernelRun
import proofs.«160366_j14869176778798_2_alg».proof.Proof.KernelValue.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ, fun m ρ _ => Cert.KernelIdeal.Fr.frame m ρ, Cert.ReferenceIdeal.RefValue.frame_ri, trivial,
  Cert.Proof.Assembly.algebraic_of fun m ρ hpre =>
    Cert.KernelIdeal.Val.kernel_run_of m ρ (fun c => Cert.KernelIdeal.Val.merge_is_memory m hpre c)⟩

end Cert.Proof

end
